-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1000000x2 : Shape := ⟨2, ![1000000, 2]⟩
abbrev S1000000x25 : Shape := ⟨2, ![1000000, 25]⟩
abbrev S256x100 : Shape := ⟨2, ![256, 100]⟩
abbrev S100 : Shape := ⟨1, ![100]⟩
abbrev S100x16 : Shape := ⟨2, ![100, 16]⟩
abbrev S16 : Shape := ⟨1, ![16]⟩
abbrev S41x25 : Shape := ⟨2, ![41, 25]⟩
abbrev S25 : Shape := ⟨1, ![25]⟩
abbrev S25x1 : Shape := ⟨2, ![25, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1000000x25 : S_.BroadcastsInDim S1000000x25 (![] : Fin 0 → Fin S1000000x25.rank)
  reducesTo_S1000000x25_S_d0_1 : S1000000x25.ReducesTo [0, 1] S_
  bcast_S_S256x100 : S_.BroadcastsInDim S256x100 (![] : Fin 0 → Fin S256x100.rank)
  reducesTo_S256x100_S_d0_1 : S256x100.ReducesTo [0, 1] S_
  bcast_S_S100 : S_.BroadcastsInDim S100 (![] : Fin 0 → Fin S100.rank)
  reducesTo_S100_S_d0 : S100.ReducesTo [0] S_
  bcast_S_S100x16 : S_.BroadcastsInDim S100x16 (![] : Fin 0 → Fin S100x16.rank)
  reducesTo_S100x16_S_d0_1 : S100x16.ReducesTo [0, 1] S_
  bcast_S_S16 : S_.BroadcastsInDim S16 (![] : Fin 0 → Fin S16.rank)
  reducesTo_S16_S_d0 : S16.ReducesTo [0] S_
  bcast_S_S41x25 : S_.BroadcastsInDim S41x25 (![] : Fin 0 → Fin S41x25.rank)
  reducesTo_S41x25_S_d0_1 : S41x25.ReducesTo [0, 1] S_
  bcast_S_S25 : S_.BroadcastsInDim S25 (![] : Fin 0 → Fin S25.rank)
  reducesTo_S25_S_d0 : S25.ReducesTo [0] S_
  bcast_S_S25x1 : S_.BroadcastsInDim S25x1 (![] : Fin 0 → Fin S25x1.rank)
  reducesTo_S25x1_S_d0_1 : S25x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S25 .f32) (main_arg10 : FVec F S25x1 .f32) (main_arg11 : FVec F S1 .f32) (main_v33 : IVec S_ 1) : IVec S_ 1 :=
  let main_v34 : FVec F S25 .f32 := Host.absf main_arg9
  let main_cst_12 : FVec F S_ .f32 := constant S_ .f32 0x7F800000#32
  let main_v35 : FVec F S25 .f32 := broadcastInDim S25 ![] bcast_S_S25 main_cst_12
  let main_v36 : IVec S25 1 := cmpf .olt main_v34 main_v35
  let main_c_13 : IVec S_ 1 := constantI S_ 1 1#1
  let main_v37 : IVec S_ 1 := (fun x v => Host.reduce IntOp.andi x v reducesTo_S25_S_d0 h_S_) main_v36 main_c_13
  let main_v38 : IVec S_ 1 := andi main_v33 main_v37
  let main_v39 : FVec F S25x1 .f32 := Host.absf main_arg10
  let main_cst_14 : FVec F S_ .f32 := constant S_ .f32 0x7F800000#32
  let main_v40 : FVec F S25x1 .f32 := broadcastInDim S25x1 ![] bcast_S_S25x1 main_cst_14
  let main_v41 : IVec S25x1 1 := cmpf .olt main_v39 main_v40
  let main_c_15 : IVec S_ 1 := constantI S_ 1 1#1
  let main_v42 : IVec S_ 1 := (fun x v => Host.reduce IntOp.andi x v reducesTo_S25x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S100x16 .f32) (main_arg7 : FVec F S16 .f32) (main_arg8 : FVec F S41x25 .f32) (main_arg9 : FVec F S25 .f32) (main_arg10 : FVec F S25x1 .f32) (main_arg11 : FVec F S1 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x16 .f32 := Host.absf main_arg6
  let main_cst_6 : FVec F S_ .f32 := constant S_ .f32 0x7F800000#32
  let main_v20 : FVec F S100x16 .f32 := broadcastInDim S100x16 ![] bcast_S_S100x16 main_cst_6
  let main_v21 : IVec S100x16 1 := cmpf .olt main_v19 main_v20
  let main_c_7 : IVec S_ 1 := constantI S_ 1 1#1
  let main_v22 : IVec S_ 1 := (fun x v => Host.reduce IntOp.andi x v reducesTo_S100x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S41x25 .f32 := Host.absf main_arg8
  let main_cst_10 : FVec F S_ .f32 := constant S_ .f32 0x7F800000#32
  let main_v30 : FVec F S41x25 .f32 := broadcastInDim S41x25 ![] bcast_S_S41x25 main_cst_10
  let main_v31 : IVec S41x25 1 := cmpf .olt main_v29 main_v30
  let main_c_11 : IVec S_ 1 := constantI S_ 1 1#1
  let main_v32 : IVec S_ 1 := (fun x v => Host.reduce IntOp.andi x v reducesTo_S41x25_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x256 .f32) (main_arg1 : IVec S2x1600000 32) (main_arg2 : IVec S1000000x2 32) (main_arg3 : FVec F S1000000x25 .f32) (main_arg4 : FVec F S256x100 .f32) (main_arg5 : FVec F S100 .f32) (main_arg6 : FVec F S100x16 .f32) (main_arg7 : FVec F S16 .f32) (main_arg8 : FVec F S41x25 .f32) (main_arg9 : FVec F S25 .f32) (main_arg10 : FVec F S25x1 .f32) (main_arg11 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1000000x25 .f32 := Host.absf main_arg3
  let main_cst_0 : FVec F S_ .f32 := constant S_ .f32 0x7F800000#32
  let main_v5 : FVec F S1000000x25 .f32 := broadcastInDim S1000000x25 ![] bcast_S_S1000000x25 main_cst_0
  let main_v6 : IVec S1000000x25 1 := cmpf .olt main_v4 main_v5
  let main_c_1 : IVec S_ 1 := constantI S_ 1 1#1
  let main_v7 : IVec S_ 1 := (fun x v => Host.reduce IntOp.andi x v reducesTo_S1000000x25_S_d0_1 h_S_) main_v6 main_c_1
  let main_v8 : IVec S_ 1 := andi main_v3 main_v7
  let main_v9 : FVec F S256x100 .f32 := Host.absf main_arg4
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  let main_v14 : FVec F S100 .f32 := Host.absf main_arg5
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S1000000x2 : Shape := ⟨2, ![1000000, 2]⟩
abbrev S1000000x25 : Shape := ⟨2, ![1000000, 25]⟩
abbrev S256x100 : Shape := ⟨2, ![256, 100]⟩
abbrev S100 : Shape := ⟨1, ![100]⟩
abbrev S100x16 : Shape := ⟨2, ![100, 16]⟩
abbrev S16 : Shape := ⟨1, ![16]⟩
abbrev S41x25 : Shape := ⟨2, ![41, 25]⟩
abbrev S25 : Shape := ⟨1, ![25]⟩
abbrev S25x1 : Shape := ⟨2, ![25, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x100 : Shape := ⟨2, ![100000, 100]⟩
abbrev S5000x256 : Shape := ⟨2, ![5000, 256]⟩
abbrev S5000x100 : Shape := ⟨2, ![5000, 100]⟩
abbrev S1700000x100 : Shape := ⟨2, ![1700000, 100]⟩
abbrev S1x100 : Shape := ⟨2, ![1, 100]⟩
abbrev S100000x16 : Shape := ⟨2, ![100000, 16]⟩
abbrev S10000x100 : Shape := ⟨2, ![10000, 100]⟩
abbrev S10000x16 : Shape := ⟨2, ![10000, 16]⟩
abbrev S1700000x16 : Shape := ⟨2, ![1700000, 16]⟩
abbrev S1x16 : Shape := ⟨2, ![1, 16]⟩
abbrev S100000x1 : Shape := ⟨2, ![100000, 1]⟩
abbrev S1000000x1 : Shape := ⟨2, ![1000000, 1]⟩
abbrev S1000000 : Shape := ⟨1, ![1000000]⟩
abbrev S1000000x16 : Shape := ⟨2, ![1000000, 16]⟩
abbrev S16x25 : Shape := ⟨2, ![16, 25]⟩
abbrev S25x25 : Shape := ⟨2, ![25, 25]⟩
abbrev S1x25 : Shape := ⟨2, ![1, 25]⟩
abbrev S1x1 : Shape := ⟨2, ![1, 1]⟩
abbrev S2000x16 : Shape := ⟨2, ![2000, 16]⟩
abbrev S2000x25 : Shape := ⟨2, ![2000, 25]⟩
abbrev S2000x1 : Shape := ⟨2, ![2000, 1]⟩

abbrev nBuf : Space → Nat
  | .hbm => 132
  | .vmem => 23
  | .smem => 0
  | _ => 0

abbrev hbmTy0_0 (i : Nat) : BufTy := match i % 128 with
  | 0 => ⟨S100000x256, .f32⟩
  | 1 => ⟨S2x1600000, .i32⟩
  | 2 => ⟨S1000000x2, .i32⟩
  | 3 => ⟨S1000000x25, .f32⟩
  | 4 => ⟨S256x100, .f32⟩
  | 5 => ⟨S100, .f32⟩
  | 6 => ⟨S100x16, .f32⟩
  | 7 => ⟨S16, .f32⟩
  | 8 => ⟨S41x25, .f32⟩
  | 9 => ⟨S25, .f32⟩
  | 10 => ⟨S25x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x100, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x100, .f32⟩
  | 58 => ⟨S1700000x1, .f32⟩
  | 59 => ⟨S1700000x100, .f32⟩
  | 60 => ⟨S1700000x100, .f32⟩
  | 61 => ⟨S_, .f32⟩
  | 62 => ⟨S100000x100, .f32⟩
  | 63 => ⟨S1700000x1, .i32⟩
  | 64 => ⟨S100000x100, .f32⟩
  | 65 => ⟨S1x100, .f32⟩
  | 66 => ⟨S100000x100, .f32⟩
  | 67 => ⟨S100000x100, .f32⟩
  | 68 => ⟨S_, .f32⟩
  | 69 => ⟨S100000x100, .f32⟩
  | 70 => ⟨S100000x100, .f32⟩
  | 71 => ⟨S100000x16, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x16, .f32⟩
  | 81 => ⟨S1700000x1, .f32⟩
  | 82 => ⟨S1700000x16, .f32⟩
  | 83 => ⟨S1700000x16, .f32⟩
  | 84 => ⟨S_, .f32⟩
  | 85 => ⟨S100000x16, .f32⟩
  | 86 => ⟨S1700000x1, .i32⟩
  | 87 => ⟨S100000x16, .f32⟩
  | 88 => ⟨S1x16, .f32⟩
  | 89 => ⟨S100000x16, .f32⟩
  | 90 => ⟨S100000x16, .f32⟩
  | 91 => ⟨S_, .f32⟩
  | 92 => ⟨S100000x16, .f32⟩
  | 93 => ⟨S100000x16, .f32⟩
  | 94 => ⟨S100000x16, .f32⟩
  | 95 => ⟨S_, .f32⟩
  | 96 => ⟨S100000, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x16, .f32⟩
  | 103 => ⟨S100000x16, .f32⟩
  | 104 => ⟨S1000000x1, .i32⟩
  | 105 => ⟨S1000000, .i32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x16, .f32⟩
  | 115 => ⟨S1000000x1, .i32⟩
  | 116 => ⟨S1000000, .i32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x16, .f32⟩
  | 126 => ⟨S16x25, .f32⟩
  | 127 => ⟨S25x25, .f32⟩
  | _ => ⟨S100000x256, .f32⟩

abbrev hbmTy0_1 (i : Nat) : BufTy := match i % 128 with
  | 0 => ⟨S1x25, .f32⟩
  | 1 => ⟨S1x1, .f32⟩
  | 2 => ⟨S1000000x1, .f32⟩
  | 3 => ⟨S1000000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x100, .f32⟩
  | .local _ .vmem, ⟨3, _⟩ => ⟨S5000x100, .f32⟩
  | .local _ .vmem, ⟨4, _⟩ => ⟨S5000x100, .f32⟩
  | .local _ .vmem, ⟨5, _⟩ => ⟨S10000x100, .f32⟩
  | .local _ .vmem, ⟨6, _⟩ => ⟨S10000x100, .f32⟩
  | .local _ .vmem, ⟨7, _⟩ => ⟨S100x16, .f32⟩
  | .local _ .vmem, ⟨8, _⟩ => ⟨S10000x16, .f32⟩
  | .local _ .vmem, ⟨9, _⟩ => ⟨S10000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x25, .f32⟩
  | .local _ .vmem, ⟨15, _⟩ => ⟨S2000x25, .f32⟩
  | .local _ .vmem, ⟨16, _⟩ => ⟨S16x25, .f32⟩
  | .local _ .vmem, ⟨17, _⟩ => ⟨S25x25, .f32⟩
  | .local _ .vmem, ⟨18, _⟩ => ⟨S1x25, .f32⟩
  | .local _ .vmem, ⟨19, _⟩ => ⟨S25x1, .f32⟩
  | .local _ .vmem, ⟨20, _⟩ => ⟨S1x1, .f32⟩
  | .local _ .vmem, ⟨21, _⟩ => ⟨S2000x1, .f32⟩
  | .local _ .vmem, ⟨22, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_call2_v0 : Ref sig .tc := ⟨.hbm, 94, rfl⟩
abbrev main_call2_cst : Ref sig .tc := ⟨.hbm, 95, rfl⟩
abbrev main_call2_v1 : Ref sig .tc := ⟨.hbm, 96, rfl⟩
abbrev main_call2_v2 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_12 : Ref sig .tc := ⟨.hbm, 106, rfl⟩
abbrev main_v72 : Ref sig .tc := ⟨.hbm, 107, rfl⟩
abbrev main_v73 : Ref sig .tc := ⟨.hbm, 108, rfl⟩
abbrev main_c_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_14 : Ref sig .tc := ⟨.hbm, 117, rfl⟩
abbrev main_v81 : Ref sig .tc := ⟨.hbm, 118, rfl⟩
abbrev main_v82 : Ref sig .tc := ⟨.hbm, 119, rfl⟩
abbrev main_c_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg8_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem8_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x25 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x25 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S25x25 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x25 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S25x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x100_S256x100_0_0 : ∀ a, (![0, 0] : Fin 2 → Nat) a + S256x100.size a ≤ S256x100.size a
  h_S256x100 : 0 < S256x100.numel
  inb_S5000x100_S5000x100_0_0 : ∀ a, (![0, 0] : Fin 2 → Nat) a + S5000x100.size a ≤ S5000x100.size a
  h_S5000x100 : 0 < S5000x100.numel
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  inb_S100x16_S100x16_0_0 : ∀ a, (![0, 0] : Fin 2 → Nat) a + S100x16.size a ≤ S100x16.size a
  h_S100x16 : 0 < S100x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  slices_S41x25_S16x25_0_0 : S41x25.Slices ![0, 0] S16x25
  slices_S41x25_S25x25_16_0 : S41x25.Slices ![16, 0] S25x25
  shapeCasts_S25_S1x25 : S25.ShapeCasts S1x25
  shapeCasts_S1_S1x1 : S1.ShapeCasts S1x1
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x25_S2000x25_0_0 : ∀ a, (![0, 0] : Fin 2 → Nat) a + S2000x25.size a ≤ S2000x25.size a
  h_S2000x25 : 0 < S2000x25.numel
  inb_S16x25_S16x25_0_0 : ∀ a, (![0, 0] : Fin 2 → Nat) a + S16x25.size a ≤ S16x25.size a
  h_S16x25 : 0 < S16x25.numel
  shapeCasts_S16x25_S16x25 : S16x25.ShapeCasts S16x25
  inb_S25x25_S25x25_0_0 : ∀ a, (![0, 0] : Fin 2 → Nat) a + S25x25.size a ≤ S25x25.size a
  h_S25x25 : 0 < S25x25.numel
  shapeCasts_S25x25_S25x25 : S25x25.ShapeCasts S25x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S2000x25 : S1x25.Broadcasts S2000x25
  inb_S25x1_S25x1_0_0 : ∀ a, (![0, 0] : Fin 2 → Nat) a + S25x1.size a ≤ S25x1.size a
  h_S25x1 : 0 < S25x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x100_S5000x100_1_0_0_1_n_n_wf : DotDims.WF S5000x256 S256x100 S5000x100 [1] [0] [0] [1] [] []
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S10000x100_S100x16_S10000x16_1_0_0_1_n_n_wf : DotDims.WF S10000x100 S100x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  gather_S100000x16_S1000000x1_S1000000x16_1_0_n_n_0_1_116_wf : GatherDims.WF S100000x16 S1000000x1 S1000000x16 [1] [0] [] [0] [] 1 ![1, 16]
  dot_S2000x16_S16x25_S2000x25_1_0_0_1_n_n_wf : DotDims.WF S2000x16 S16x25 S2000x25 [1] [0] [0] [1] [] []
  dot_S2000x25_S25x25_S2000x25_1_0_0_1_n_n_wf : DotDims.WF S2000x25 S25x25 S2000x25 [1] [0] [0] [1] [] []
  dot_S2000x25_S25x1_S2000x1_1_0_0_1_n_n_wf : DotDims.WF S2000x25 S25x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x100.size a ≤ S256x100.size a
  hwx0_1 : ∀ i : grid0.Coords, EltTy.bits .f32 = 32 ∨ (Rect.block (s := S256x100) S256x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x100.size a ≤ S100000x100.size a
  hwx0_2 : ∀ i : grid0.Coords, EltTy.bits .f32 = 32 ∨ (Rect.block (s := S100000x100) S5000x100.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x16.size a ≤ S100x16.size a
  hwx1_1 : ∀ i : grid1.Coords, EltTy.bits .f32 = 32 ∨ (Rect.block (s := S100x16) S100x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S1000000x16.size a
  hwx2_0 : ∀ i : grid2.Coords, EltTy.bits .f32 = 32 ∨ (Rect.block (s := S1000000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x16.size a ≤ S1000000x16.size a
  hwx2_1 : ∀ i : grid2.Coords, EltTy.bits .f32 = 32 ∨ (Rect.block (s := S1000000x16) S2000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x25.size a ≤ S1000000x25.size a
  hwx2_2 : ∀ i : grid2.Coords, EltTy.bits .f32 = 32 ∨ (Rect.block (s := S1000000x25) S2000x25.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x25.size a ≤ S16x25.size a
  hwx2_3 : ∀ i : grid2.Coords, EltTy.bits .f32 = 32 ∨ (Rect.block (s := S16x25) S16x25.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S25x25.size a ≤ S25x25.size a
  hwx2_4 : ∀ i : grid2.Coords, EltTy.bits .f32 = 32 ∨ (Rect.block (s := S25x25) S25x25.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x25.size a ≤ S1x25.size a
  hwx2_5 : ∀ i : grid2.Coords, EltTy.bits .f32 = 32 ∨ (Rect.block (s := S1x25) S1x25.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S25x1.size a ≤ S25x1.size a
  hwx2_6 : ∀ i : grid2.Coords, EltTy.bits .f32 = 32 ∨ (Rect.block (s := S25x1) S25x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x1.size a ≤ S1000000x1.size a
  hwx2_8 : ∀ i : grid2.Coords, EltTy.bits .f32 = 32 ∨ (Rect.block (s := S1000000x1) S2000x1.size (cc2_transform_8 i) (hinb2_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x100_S5000x100_1_0_0_1_n_n : DotDims S5000x256 S256x100 S5000x100 where
  lhsContracting := [1]
  rhsContracting := [0]
  lhsNonContracting := [0]
  rhsNonContracting := [1]
  lhsBatch := []
  rhsBatch := []
  wf := dot_S5000x256_S256x100_S5000x100_1_0_0_1_n_n_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S10000x100_S100x16_S10000x16_1_0_0_1_n_n : DotDims S10000x100 S100x16 S10000x16 where
  lhsContracting := [1]
  rhsContracting := [0]
  lhsNonContracting := [0]
  rhsNonContracting := [1]
  lhsBatch := []
  rhsBatch := []
  wf := dot_S10000x100_S100x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def dot_S2000x16_S16x25_S2000x25_1_0_0_1_n_n : DotDims S2000x16 S16x25 S2000x25 where
  lhsContracting := [1]
  rhsContracting := [0]
  lhsNonContracting := [0]
  rhsNonContracting := [1]
  lhsBatch := []
  rhsBatch := []
  wf := dot_S2000x16_S16x25_S2000x25_1_0_0_1_n_n_wf
def dot_S2000x25_S25x25_S2000x25_1_0_0_1_n_n : DotDims S2000x25 S25x25 S2000x25 where
  lhsContracting := [1]
  rhsContracting := [0]
  lhsNonContracting := [0]
  rhsNonContracting := [1]
  lhsBatch := []
  rhsBatch := []
  wf := dot_S2000x25_S25x25_S2000x25_1_0_0_1_n_n_wf
def dot_S2000x25_S25x1_S2000x1_1_0_0_1_n_n : DotDims S2000x25 S25x1 S2000x1 where
  lhsContracting := [1]
  rhsContracting := [0]
  lhsNonContracting := [0]
  rhsNonContracting := [1]
  lhsBatch := []
  rhsBatch := []
  wf := dot_S2000x25_S25x1_S2000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x100.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S100x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S2000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S2000x25.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v88) S16x25.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S25x25.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v90) S1x25.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S25x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v92) S2000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1000000x2 : Shape := ⟨2, ![1000000, 2]⟩
abbrev S1000000x25 : Shape := ⟨2, ![1000000, 25]⟩
abbrev S256x100 : Shape := ⟨2, ![256, 100]⟩
abbrev S100 : Shape := ⟨1, ![100]⟩
abbrev S100x16 : Shape := ⟨2, ![100, 16]⟩
abbrev S16 : Shape := ⟨1, ![16]⟩
abbrev S41x25 : Shape := ⟨2, ![41, 25]⟩
abbrev S25 : Shape := ⟨1, ![25]⟩
abbrev S25x1 : Shape := ⟨2, ![25, 1]⟩
abbrev S1 : Shape := ⟨1, ![1]⟩
abbrev S1x1600000 : Shape := ⟨2, ![1, 1600000]⟩
abbrev S1600000 : Shape := ⟨1, ![1600000]⟩
abbrev S100000x100 : Shape := ⟨2, ![100000, 100]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x100 : Shape := ⟨2, ![1700000, 100]⟩
abbrev S1x100 : Shape := ⟨2, ![1, 100]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩
abbrev S1000000x1 : Shape := ⟨2, ![1000000, 1]⟩
abbrev S1000000 : Shape := ⟨1, ![1000000]⟩
abbrev S1000000x16 : Shape := ⟨2, ![1000000, 16]⟩
abbrev S1000000x41 : Shape := ⟨2, ![1000000, 41]⟩
abbrev S1x25 : Shape := ⟨2, ![1, 25]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S100000x256, .f32⟩
  | 1 => ⟨S2x1600000, .i32⟩
  | 2 => ⟨S1000000x2, .i32⟩
  | 3 => ⟨S1000000x25, .f32⟩
  | 4 => ⟨S256x100, .f32⟩
  | 5 => ⟨S100, .f32⟩
  | 6 => ⟨S100x16, .f32⟩
  | 7 => ⟨S16, .f32⟩
  | 8 => ⟨S41x25, .f32⟩
  | 9 => ⟨S25, .f32⟩
  | 10 => ⟨S25x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x100, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x100, .f32⟩
  | 58 => ⟨S1700000x1, .f32⟩
  | 59 => ⟨S1700000x100, .f32⟩
  | 60 => ⟨S1700000x100, .f32⟩
  | 61 => ⟨S_, .f32⟩
  | 62 => ⟨S100000x100, .f32⟩
  | 63 => ⟨S1700000x1, .i32⟩
  | 64 => ⟨S100000x100, .f32⟩
  | 65 => ⟨S1x100, .f32⟩
  | 66 => ⟨S100000x100, .f32⟩
  | 67 => ⟨S100000x100, .f32⟩
  | 68 => ⟨S_, .f32⟩
  | 69 => ⟨S100000x100, .f32⟩
  | 70 => ⟨S100000x100, .f32⟩
  | 71 => ⟨S100000x16, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x16, .f32⟩
  | 113 => ⟨S1700000x1, .f32⟩
  | 114 => ⟨S1700000x16, .f32⟩
  | 115 => ⟨S1700000x16, .f32⟩
  | 116 => ⟨S_, .f32⟩
  | 117 => ⟨S100000x16, .f32⟩
  | 118 => ⟨S1700000x1, .i32⟩
  | 119 => ⟨S100000x16, .f32⟩
  | 120 => ⟨S1x16, .f32⟩
  | 121 => ⟨S100000x16, .f32⟩
  | 122 => ⟨S100000x16, .f32⟩
  | 123 => ⟨S_, .f32⟩
  | 124 => ⟨S100000x16, .f32⟩
  | 125 => ⟨S100000x16, .f32⟩
  | 126 => ⟨S100000x16, .f32⟩
  | 127 => ⟨S_, .f32⟩
  | _ => ⟨S100000x256, .f32⟩

abbrev hbmTy0_1 (i : Nat) : BufTy := match i % 128 with
  | 0 => ⟨S100000, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S100000x16, .f32⟩
  | 7 => ⟨S100000x16, .f32⟩
  | 8 => ⟨S1000000x1, .i32⟩
  | 9 => ⟨S1000000, .i32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x16, .f32⟩
  | 19 => ⟨S1000000x1, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x16, .f32⟩
  | 30 => ⟨S1000000x16, .f32⟩
  | 31 => ⟨S1000000x16, .f32⟩
  | 32 => ⟨S1000000x41, .f32⟩
  | 33 => ⟨S1000000x25, .f32⟩
  | 34 => ⟨S1x25, .f32⟩
  | 35 => ⟨S1000000x25, .f32⟩
  | 36 => ⟨S1000000x25, .f32⟩
  | 37 => ⟨S_, .f32⟩
  | 38 => ⟨S_, .f32⟩
  | 39 => ⟨S1000000x25, .f32⟩
  | 40 => ⟨S1000000x25, .i1⟩
  | 41 => ⟨S_, .f32⟩
  | 42 => ⟨S1000000x25, .f32⟩
  | 43 => ⟨S1000000x25, .f32⟩
  | 44 => ⟨S1000000x25, .f32⟩
  | 45 => ⟨S1000000x1, .f32⟩
  | 46 => ⟨S1x1, .f32⟩
  | 47 => ⟨S1000000x1, .f32⟩
  | 48 => ⟨S1000000x1, .f32⟩
  | 49 => ⟨S1000000x1, .f32⟩
  | 50 => ⟨S1000000, .f32⟩
  | 51 => ⟨S_, .f32⟩
  | 52 => ⟨S_, .f32⟩
  | 53 => ⟨S_, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call1_cst : Ref sig .tc := ⟨.hbm, 123, rfl⟩
abbrev main_call1_v0 : Ref sig .tc := ⟨.hbm, 124, rfl⟩
abbrev main_v89 : Ref sig .tc := ⟨.hbm, 125, rfl⟩
abbrev main_call2_v0 : Ref sig .tc := ⟨.hbm, 126, rfl⟩
abbrev main_call2_cst : Ref sig .tc := ⟨.hbm, 127, rfl⟩
abbrev main_call2_v1 : Ref sig .tc := ⟨.hbm, 128, rfl⟩
abbrev main_call2_v2 : Ref sig .tc := ⟨.hbm, 129, rfl⟩
abbrev main_v90 : Ref sig .tc := ⟨.hbm, 130, rfl⟩
abbrev main_cst_18 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_19 : Ref sig .tc := ⟨.hbm, 138, rfl⟩
abbrev main_v97 : Ref sig .tc := ⟨.hbm, 139, rfl⟩
abbrev main_v98 : Ref sig .tc := ⟨.hbm, 140, rfl⟩
abbrev main_c_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_21 : Ref sig .tc := ⟨.hbm, 149, rfl⟩
abbrev main_v106 : Ref sig .tc := ⟨.hbm, 150, rfl⟩
abbrev main_v107 : Ref sig .tc := ⟨.hbm, 151, rfl⟩
abbrev main_c_22 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_23 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_24 : Ref sig .tc := ⟨.hbm, 179, rfl⟩
abbrev main_cst_25 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_v127 : Ref sig .tc := ⟨.hbm, 186, rfl⟩
abbrev main_cst_26 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_cst_27 : Ref sig .tc := ⟨.hbm, 192, rfl⟩
abbrev main_v132 : Ref sig .tc := ⟨.hbm, 193, rfl⟩
abbrev main_v133 : Ref sig .tc := ⟨.hbm, 194, rfl⟩
abbrev main_cst_28 : Ref sig .tc := ⟨.hbm, 195, rfl⟩
abbrev main_v134 : Ref sig .tc := ⟨.hbm, 196, rfl⟩
abbrev main_v135 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x100_0_1 : S1700000x1.BroadcastsInDim S1700000x100 (![0, 1] : Fin 2 → Fin S1700000x100.rank)
  bcast_S_S100000x100 : S_.BroadcastsInDim S100000x100 (![] : Fin 0 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  slices_S1000000x2_S1000000x1_0_0 : S1000000x2.Slices ![0, 0] S1000000x1
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S1000000x2_S1000000x1_0_1 : S1000000x2.Slices ![0, 1] S1000000x1
  concatenates_S1000000x16_S1000000x25_S1000000x41_d1 : Shape.Concatenates [S1000000x16, S1000000x25] S1000000x41 1
  bcast_S25_S1x25_1 : S25.BroadcastsInDim S1x25 (![1] : Fin 1 → Fin S1x25.rank)
  bcast_S1x25_S1000000x25_0_1 : S1x25.BroadcastsInDim S1000000x25 (![0, 1] : Fin 2 → Fin S1000000x25.rank)
  bcast_S_S1000000x25 : S_.BroadcastsInDim S1000000x25 (![] : Fin 0 → Fin S1000000x25.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S100000x256_S256x100_S100000x100_1_0_0_1_n_n_wf : DotDims.WF S100000x256 S256x100 S100000x100 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x100_S1700000x1_S1700000x100_1_0_n_n_0_1_1100_wf : GatherDims.WF S100000x100 S1700000x1 S1700000x100 [1] [0] [] [0] [] 1 ![1, 100]
  scatter_S100000x100_S1700000x1_S1700000x100_1_0_0_1_wf : ScatterDims.WF S100000x100 S1700000x1 S1700000x100 [1] [0] [0] 1
  dot_S100000x100_S100x16_S100000x16_1_0_0_1_n_n_wf : DotDims.WF S100000x100 S100x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  gather_S100000x16_S1000000x1_S1000000x16_1_0_n_n_0_1_116_wf : GatherDims.WF S100000x16 S1000000x1 S1000000x16 [1] [0] [] [0] [] 1 ![1, 16]
  dot_S1000000x41_S41x25_S1000000x25_1_0_0_1_n_n_wf : DotDims.WF S1000000x41 S41x25 S1000000x25 [1] [0] [0] [1] [] []
  dot_S1000000x25_S25x1_S1000000x1_1_0_0_1_n_n_wf : DotDims.WF S1000000x25 S25x1 S1000000x1 [1] [0] [0] [1] [] []

variable [Facts₀]

def dot_S100000x256_S256x100_S100000x100_1_0_0_1_n_n : DotDims S100000x256 S256x100 S100000x100 where
  lhsContracting := [1]
  rhsContracting := [0]
  lhsNonContracting := [0]
  rhsNonContracting := [1]
  lhsBatch := []
  rhsBatch := []
  wf := dot_S100000x256_S256x100_S100000x100_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x100_S1700000x1_S1700000x100_1_0_n_n_0_1_1100 : GatherDims S100000x100 S1700000x1 S1700000x100 where
  offsetDims := [1]
  collapsedSliceDims := [0]
  operandBatchingDims := []
  startIndicesBatchingDims := []
  startIndexMap := [0]
  indexVectorDim := 1
  sliceSizes := ![1, 100]
  wf := gather_S100000x100_S1700000x1_S1700000x100_1_0_n_n_0_1_1100_wf
def scatter_S100000x100_S1700000x1_S1700000x100_1_0_0_1 : ScatterDims S100000x100 S1700000x1 S1700000x100 where
  updateWindowDims := [1]
  insertedWindowDims := [0]
  scatterDimsToOperandDims := [0]
  indexVectorDim := 1
  wf := scatter_S100000x100_S1700000x1_S1700000x100_1_0_0_1_wf
def dot_S100000x100_S100x16_S100000x16_1_0_0_1_n_n : DotDims S100000x100 S100x16 S100000x16 where
  lhsContracting := [1]
  rhsContracting := [0]
  lhsNonContracting := [0]
  rhsNonContracting := [1]
  lhsBatch := []
  rhsBatch := []
  wf := dot_S100000x100_S100x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def gather_S100000x16_S1000000x1_S1000000x16_1_0_n_n_0_1_116 : GatherDims S100000x16 S1000000x1 S1000000x16 where
  offsetDims := [1]
  collapsedSliceDims := [0]
  operandBatchingDims := []
  startIndicesBatchingDims := []
  startIndexMap := [0]
  indexVectorDim := 1
  sliceSizes := ![1, 16]
  wf := gather_S100000x16_S1000000x1_S1000000x16_1_0_n_n_0_1_116_wf
def dot_S1000000x41_S41x25_S1000000x25_1_0_0_1_n_n : DotDims S1000000x41 S41x25 S1000000x25 where
  lhsContracting := [1]
  rhsContracting := [0]
  lhsNonContracting := [0]
  rhsNonContracting := [1]
  lhsBatch := []
  rhsBatch := []
  wf := dot_S1000000x41_S41x25_S1000000x25_1_0_0_1_n_n_wf
def dot_S1000000x25_S25x1_S1000000x1_1_0_0_1_n_n : DotDims S1000000x25 S25x1 S1000000x1 where
  lhsContracting := [1]
  rhsContracting := [0]
  lhsNonContracting := [0]
  rhsNonContracting := [1]
  lhsBatch := []
  rhsBatch := []
  wf := dot_S1000000x25_S25x1_S1000000x1_1_0_0_1_n_n_wf

class Facts : Prop extends Facts₀ where

variable [Facts]
-- ==== Proof.Spec.lean ====
/-
  The value both programs compute, as functions of the twelve argument arrays.

  A two-layer graph convolution followed by an edge decoder.  With s and d the source and destination ends of the
  edge list extended by one self loop per node, deg the number of edges arriving at each node, and
  norm e = rsqrt (max deg 1) at s e times the same at d e, a layer maps a node-feature matrix h to
  relu (scatter-add over d of (h W)[s e] * norm e, plus the bias).  Rows of the second layer's output are rescaled
  to Euclidean length at most one, the two endpoint rows of every decoded edge are gathered, and an edge's score is
  logistic (2 - min 40 (max 0 |leaky (sq W_a + P W_b + b) w + c|)), sq the squared difference of its endpoint rows and P its
  own 25 features.

  The two programs differ in how the three matrix products and the edge decoder are spelt: here mm is the
  product as a plain sum over the contracted index, decodeK the decoder as a formula for one edge, and decodeR
  the decoder as a chain of whole-array operations on the concatenation [sq, P].  Every other stage is the same chain of
  whole-array operations in both and is named once.
-/
import proofs.«168514_j41807211659639_2_alg».proof.Proof.Gen.KernelIdeal
import proofs.«168514_j41807211659639_2_alg».proof.Proof.Gen.ReferenceIdeal
import Idealize.ShloMosaic.PureOps.Ideal
import Idealize.ShloMosaic.Lib.ValueIdx

noncomputable section

open scoped BigOperators

namespace Cert.Spec

open Idealize.ShloMosaic Idealize.ShloMosaic.ValueIdx

/-! ## The matrix product as a sum -/

/-- The product of an [A, K] matrix and a [K, B] matrix at (p, q): the sum over k of l (p, k) * r (k, q). -/
def mm {A K B : Nat} (l : (⟨2, ![A, K]⟩ : Shape).Idx → EReal) (r : (⟨2, ![K, B]⟩ : Shape).Idx → EReal) :
    (⟨2, ![A, B]⟩ : Shape).Idx → EReal :=
  fun i => ∑ k : Fin K, l (ix2 (i 0) k) * r (ix2 k (i 1))

/-! ## The stages both programs share, as whole-array operations -/

section Shared

open Cert.KernelIdeal Cert.KernelIdeal.Facts₀

variable {F : FTy → Type} [FloatOps F]

local notation "𝔹[" s ", " e "]" => BufTy.Contents (Elt F) (BufTy.mk s e)

/-- The source end of every edge: row 0 of the edge list, then every node once (the self loops). -/
def src (a1 : 𝔹[S2x1600000, .i32]) : 𝔹[S1700000, .i32] :=
  concatenate S1700000 0
    [⟨S1600000, shapeCast S1600000 (extractStridedSlice S1x1600000 ![0, 0] a1 slices_S2x1600000_S1x1600000_0_0) shapeCasts_S1x1600000_S1600000⟩,
     ⟨S100000, iotaInDim S100000 32 0⟩] concatenates_S1600000_S100000_S1700000_d0

/-- The destination end of every edge: row 1 of the edge list, then every node once. -/
def dst (a1 : 𝔹[S2x1600000, .i32]) : 𝔹[S1700000, .i32] :=
  concatenate S1700000 0
    [⟨S1600000, shapeCast S1600000 (extractStridedSlice S1x1600000 ![1, 0] a1 slices_S2x1600000_S1x1600000_1_0) shapeCasts_S1x1600000_S1600000⟩,
     ⟨S100000, iotaInDim S100000 32 0⟩] concatenates_S1600000_S100000_S1700000_d0

/-- Node numbers made ready for a gather: a negative number counts from the end (100000 is added), and the vector
    becomes one column. -/
def wrapE (v : 𝔹[S1700000, .i32]) : 𝔹[S1700000x1, .i32] :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- rsqrt (max deg 1) per node, deg the number of edges whose destination is the node. -/
def dinv (a1 : 𝔹[S2x1600000, .i32]) : 𝔹[S100000, .f32] :=
  Host.rsqrt (maximumf
    (Host.scatterAdd scatter_S100000_S1700000x1_S1700000_n_0_0_1
      (broadcastInDim S100000 ![] bcast_S_S100000 (constant S_ .f32 0x00000000#32))
      (broadcastInDim S1700000x1 ![0] bcast_S1700000_S1700000x1_0 (dst a1))
      (broadcastInDim S1700000 ![] bcast_S_S1700000 (constant S_ .f32 0x3F800000#32)))
    (broadcastInDim S100000 ![] bcast_S_S100000 (constant S_ .f32 0x3F800000#32)))

/-- The weight of every edge: dinv at its source times dinv at its destination. -/
def norm (a1 : 𝔹[S2x1600000, .i32]) : 𝔹[S1700000, .f32] :=
  mulf (Host.gather gather_S100000_S1700000x1_S1700000_n_0_n_n_0_1_1 (dinv a1) (wrapE (src a1)))
    (Host.gather gather_S100000_S1700000x1_S1700000_n_0_n_n_0_1_1 (dinv a1) (wrapE (dst a1)))

/-- The first layer after its matrix product: gather the rows at the sources, weigh them, add them up at the
    destinations, add the bias, clamp below at zero. -/
def layer100 (h : 𝔹[S100000x100, .f32]) (a1 : 𝔹[S2x1600000, .i32]) (b : 𝔹[S100, .f32]) : 𝔹[S100000x100, .f32] :=
  maximumf
    (addf
      (Host.scatterAdd scatter_S100000x100_S1700000x1_S1700000x100_1_0_0_1
        (broadcastInDim S100000x100 ![] bcast_S_S100000x100 (constant S_ .f32 0x00000000#32))
        (broadcastInDim S1700000x1 ![0] bcast_S1700000_S1700000x1_0 (dst a1))
        (mulf (Host.gather gather_S100000x100_S1700000x1_S1700000x100_1_0_n_n_0_1_1100 h (wrapE (src a1)))
          (broadcastInDim S1700000x100 ![0, 1] bcast_S1700000x1_S1700000x100_0_1
            (broadcastInDim S1700000x1 ![0] bcast_S1700000_S1700000x1_0 (norm a1)))))
      (broadcastInDim S100000x100 ![0, 1] bcast_S1x100_S100000x100_0_1 (broadcastInDim S1x100 ![1] bcast_S100_S1x100_1 b)))
    (broadcastInDim S100000x100 ![] bcast_S_S100000x100 (constant S_ .f32 0x00000000#32))

/-- The second layer after its matrix product. -/
def layer16 (h : 𝔹[S100000x16, .f32]) (a1 : 𝔹[S2x1600000, .i32]) (b : 𝔹[S16, .f32]) : 𝔹[S100000x16, .f32] :=
  maximumf
    (addf
      (Host.scatterAdd scatter_S100000x16_S1700000x1_S1700000x16_1_0_0_1
        (broadcastInDim S100000x16 ![] bcast_S_S100000x16 (constant S_ .f32 0x00000000#32))
        (broadcastInDim S1700000x1 ![0] bcast_S1700000_S1700000x1_0 (dst a1))
        (mulf (Host.gather gather_S100000x16_S1700000x1_S1700000x16_1_0_n_n_0_1_116 h (wrapE (src a1)))
          (broadcastInDim S1700000x16 ![0, 1] bcast_S1700000x1_S1700000x16_0_1
            (broadcastInDim S1700000x1 ![0] bcast_S1700000_S1700000x1_0 (norm a1)))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- Every row divided by the larger of its Euclidean length and one. -/
def renorm (e : 𝔹[S100000x16, .f32]) : 𝔹[S100000x16, .f32] :=
  Host.divf e
    (broadcastInDim S100000x16 ![0, 1] bcast_S100000x1_S100000x16_0_1
      (maximumf
        (Host.sqrt (broadcastInDim S100000x1 ![0] bcast_S100000_S100000x1_0
          (Host.reduceAdd (mulf e e) (constant S_ .f32 0x00000000#32) reducesTo_S100000x16_S100000_d1 h_S_)))
        (broadcastInDim S100000x1 ![] bcast_S_S100000x1 (constant S_ .f32 0x3F800000#32))))

/-- A column of the decoded-edge list made ready for a gather (negative numbers count from the end). -/
def wrapD (v : 𝔹[S1000000, .i32]) : 𝔹[S1000000x1, .i32] :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The embedding rows at the first endpoint of every decoded edge. -/
def endIn (a2 : 𝔹[S1000000x2, .i32]) (e : 𝔹[S100000x16, .f32]) : 𝔹[S1000000x16, .f32] :=
  Host.gather gather_S100000x16_S1000000x1_S1000000x16_1_0_n_n_0_1_116 e
    (wrapD (shapeCast S1000000 (extractStridedSlice S1000000x1 ![0, 0] a2 slices_S1000000x2_S1000000x1_0_0) shapeCasts_S1000000x1_S1000000))

/-- The embedding rows at the second endpoint of every decoded edge. -/
def endOut (a2 : 𝔹[S1000000x2, .i32]) (e : 𝔹[S100000x16, .f32]) : 𝔹[S1000000x16, .f32] :=
  Host.gather gather_S100000x16_S1000000x1_S1000000x16_1_0_n_n_0_1_116 e
    (wrapD (shapeCast S1000000 (extractStridedSlice S1000000x1 ![0, 1] a2 slices_S1000000x2_S1000000x1_0_1) shapeCasts_S1000000x1_S1000000))

/-- The embeddings, given the first product h1 = x W1 and a way p2 to form the second product from the first
    layer's output. -/
def embed (h1 : 𝔹[S100000x100, .f32]) (p2 : 𝔹[S100000x100, .f32] → 𝔹[S100000x16, .f32])
    (a1 : 𝔹[S2x1600000, .i32]) (a5 : 𝔹[S100, .f32]) (a7 : 𝔹[S16, .f32]) : 𝔹[S100000x16, .f32] :=
  renorm (layer16 (p2 (layer100 h1 a1 a5)) a1 a7)

end Shared

/-! ## The edge decoder, one edge at a time -/

section DecodeK

open Cert.KernelIdeal

/-- The slope-0.2 leaky clamp on the extended reals (0.2 as its f32 pattern). -/
def leaky (x : EReal) : EReal := if 0 < x then x else Ideal.ofBits .f32 0x3E4CCCCD#32 * x

/-- The hidden feature j of edge p before the leaky clamp: the squared endpoint difference against the first 16
    weight rows, the edge's own features against the other 25, plus the bias. -/
def hidden (ein eout : FVec Ideal S1000000x16 .f32) (pi : FVec Ideal S1000000x25 .f32) (wa : FVec Ideal S16x25 .f32)
    (wb : FVec Ideal S25x25 .f32) (b1 : FVec Ideal S1x25 .f32) (p : Fin 1000000) (j : Fin 25) : EReal :=
  (∑ k : Fin 16, ((ein (ix2 p k) - eout (ix2 p k)) * (ein (ix2 p k) - eout (ix2 p k))) * wa (ix2 k j))
    + (∑ k : Fin 25, pi (ix2 p k) * wb (ix2 k j)) + b1 (ix2 0 j)

/-- The score of edge p before the absolute value. -/
def score (ein eout : FVec Ideal S1000000x16 .f32) (pi : FVec Ideal S1000000x25 .f32) (wa : FVec Ideal S16x25 .f32)
    (wb : FVec Ideal S25x25 .f32) (b1 : FVec Ideal S1x25 .f32) (w2 : FVec Ideal S25x1 .f32) (b2 : FVec Ideal S1x1 .f32)
    (p : Fin 1000000) : EReal :=
  (∑ j : Fin 25, leaky (hidden ein eout pi wa wb b1 p j) * w2 (ix2 j 0)) + b2 (ix2 0 0)

/-- logistic (2 - min 40 (max 0 |s|)) of a score s. -/
def squash (s : EReal) : EReal :=
  Ideal.logistic (Ideal.ofBits .f32 0x40000000#32
    - min (Ideal.ofBits .f32 0x42200000#32) (max (Ideal.ofBits .f32 0x00000000#32) (max s (-s))))

/-- The decoder's [1000000, 1] result from the two endpoint-row arrays, the edge features, the two weight blocks, the
    bias as a row, the output weights and the output bias as a 1×1 matrix. -/
def decodeK (ein eout : FVec Ideal S1000000x16 .f32) (pi : FVec Ideal S1000000x25 .f32) (wa : FVec Ideal S16x25 .f32)
    (wb : FVec Ideal S25x25 .f32) (b1 : FVec Ideal S1x25 .f32) (w2 : FVec Ideal S25x1 .f32) (b2 : FVec Ideal S1x1 .f32) :
    FVec Ideal S1000000x1 .f32 :=
  fun i => squash (score ein eout pi wa wb b1 w2 b2 (i 0))

end DecodeK

/-! ## The edge decoder as whole-array operations on the concatenation -/

section DecodeR

open Cert.ReferenceIdeal Cert.ReferenceIdeal.Facts₀

variable {F : FTy → Type} [FloatOps F]

local notation "𝔹[" s ", " e "]" => BufTy.Contents (Elt F) (BufTy.mk s e)

/-- The decoder on whole arrays: the squared difference and the edge features side by side against the whole 41 × 25
    weight matrix, the leaky clamp by a comparison with zero, the output product, the absolute value, the clamp to
    [0, 40], and 1 / (1 + exp (-(2 - s))). -/
def decodeR (ein eout : 𝔹[S1000000x16, .f32]) (a3 : 𝔹[S1000000x25, .f32]) (a8 : 𝔹[S41x25, .f32]) (a9 : 𝔹[S25, .f32])
    (a10 : 𝔹[S25x1, .f32]) (a11 : 𝔹[S1, .f32]) : 𝔹[S1000000, .f32] :=
  let d : 𝔹[S1000000x16, .f32] := subf ein eout
  let pre : 𝔹[S1000000x25, .f32] :=
    addf (Host.dotGeneral dot_S1000000x41_S41x25_S1000000x25_1_0_0_1_n_n none
        (concatenate S1000000x41 1 [⟨S1000000x16, mulf d d⟩, ⟨S1000000x25, a3⟩] concatenates_S1000000x16_S1000000x25_S1000000x41_d1) a8)
      (broadcastInDim S1000000x25 ![0, 1] bcast_S1x25_S1000000x25_0_1 (broadcastInDim S1x25 ![1] bcast_S25_S1x25_1 a9))
  let act : 𝔹[S1000000x25, .f32] :=
    select (cmpf .oge pre (broadcastInDim S1000000x25 ![] bcast_S_S1000000x25 (constant S_ .f32 0x00000000#32))) pre
      (mulf (broadcastInDim S1000000x25 ![] bcast_S_S1000000x25 (id (constant S_ .f32 0x3E4CCCCD#32))) pre)
  let s : 𝔹[S1000000, .f32] :=
    shapeCast S1000000 (Host.absf (addf (Host.dotGeneral dot_S1000000x25_S25x1_S1000000x1_1_0_0_1_n_n none act a10)
      (broadcastInDim S1000000x1 ![0, 1] bcast_S1x1_S1000000x1_0_1 (broadcastInDim S1x1 ![1] bcast_S1_S1x1_1 a11)))) shapeCasts_S1000000x1_S1000000
  let cl : 𝔹[S1000000, .f32] :=
    minimumf (broadcastInDim S1000000 ![] bcast_S_S1000000 (id (constant S_ .f32 0x42200000#32)))
      (maximumf (broadcastInDim S1000000 ![] bcast_S_S1000000 (id (constant S_ .f32 0x00000000#32))) s)
  Host.divf (broadcastInDim S1000000 ![] bcast_S_S1000000 (constant S_ .f32 0x3F800000#32))
    (addf (broadcastInDim S1000000 ![] bcast_S_S1000000 (constant S_ .f32 0x3F800000#32))
      (Host.exp (Host.negf (subf (broadcastInDim S1000000 ![] bcast_S_S1000000 (constant S_ .f32 0x40000000#32)) cl))))

end DecodeR

/-! ## The two programs' results -/

section Results

open Cert.KernelIdeal Cert.KernelIdeal.Facts₀

local notation "𝔹[" s ", " e "]" => BufTy.Contents (Elt Ideal) (BufTy.mk s e)

/-- The tiled program's result: both layer products as plain sums, the decoder one edge at a time on the two weight
    blocks (rows 0–15 and 16–40 of the 41 × 25 matrix), the bias as a row and the output bias as a 1×1 matrix, and
    the [1000000, 1] column read as a vector. -/
def Kfun (a0 : 𝔹[S100000x256, .f32]) (a1 : 𝔹[S2x1600000, .i32]) (a2 : 𝔹[S1000000x2, .i32]) (a3 : 𝔹[S1000000x25, .f32])
    (a4 : 𝔹[S256x100, .f32]) (a5 : 𝔹[S100, .f32]) (a6 : 𝔹[S100x16, .f32]) (a7 : 𝔹[S16, .f32]) (a8 : 𝔹[S41x25, .f32])
    (a9 : 𝔹[S25, .f32]) (a10 : 𝔹[S25x1, .f32]) (a11 : 𝔹[S1, .f32]) : 𝔹[S1000000, .f32] :=
  let e := embed (F := Ideal) (mm a0 a4) (fun h => mm h a6) a1 a5 a7
  shapeCast S1000000
    (decodeK (endIn (F := Ideal) a2 e) (endOut (F := Ideal) a2 e) a3
      (extractStridedSlice S16x25 ![0, 0] a8 slices_S41x25_S16x25_0_0)
      (extractStridedSlice S25x25 ![16, 0] a8 slices_S41x25_S25x25_16_0)
      (shapeCast S1x25 a9 shapeCasts_S25_S1x25) a10 (shapeCast S1x1 a11 shapeCasts_S1_S1x1))
    shapeCasts_S1000000x1_S1000000

/-- The host's contraction of a [100000, 256] matrix with a [256, 100] matrix. -/
def dot100 : 𝔹[S100000x256, .f32] → 𝔹[S256x100, .f32] → 𝔹[S100000x100, .f32] :=
  fun l r => Host.dotGeneral (F := Ideal) (φ₁ := .f32) (φ₂ := .f32) Cert.ReferenceIdeal.dot_S100000x256_S256x100_S100000x100_1_0_0_1_n_n none l r

/-- The host's contraction of a [100000, 100] matrix with a [100, 16] matrix. -/
def dot16 : 𝔹[S100000x100, .f32] → 𝔹[S100x16, .f32] → 𝔹[S100000x16, .f32] :=
  fun l r => Host.dotGeneral (F := Ideal) (φ₁ := .f32) (φ₂ := .f32) Cert.ReferenceIdeal.dot_S100000x100_S100x16_S100000x16_1_0_0_1_n_n none l r

/-- The plain program's result: both layer products as the host's contraction, the decoder as whole-array operations. -/
def Rfun (a0 : 𝔹[S100000x256, .f32]) (a1 : 𝔹[S2x1600000, .i32]) (a2 : 𝔹[S1000000x2, .i32]) (a3 : 𝔹[S1000000x25, .f32])
    (a4 : 𝔹[S256x100, .f32]) (a5 : 𝔹[S100, .f32]) (a6 : 𝔹[S100x16, .f32]) (a7 : 𝔹[S16, .f32]) (a8 : 𝔹[S41x25, .f32])
    (a9 : 𝔹[S25, .f32]) (a10 : 𝔹[S25x1, .f32]) (a11 : 𝔹[S1, .f32]) : 𝔹[S1000000, .f32] :=
  let e := embed (F := Ideal) (dot100 a0 a4) (fun h => dot16 h a6) a1 a5 a7
  decodeR (F := Ideal) (endIn (F := Ideal) a2 e) (endOut (F := Ideal) a2 e) a3 a8 a9 a10 a11

end Results

end Cert.Spec

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.Region0.lean ====
/- The first matrix product, x · W1, computed in 20 blocks of 5000 rows: every block is the plain sum over the
   contracted index of the rows it covers, the blocks tile the 100000 rows, so the whole array is the plain sum. -/
import proofs.«168514_j41807211659639_2_alg».proof.Proof.Spec
import proofs.«168514_j41807211659639_2_alg».proof.Proof.Gen.KernelIdeal.Frame
import proofs.«168514_j41807211659639_2_alg».proof.Proof.LibPlainDot
import Idealize.ShloMosaic.Lib.Pipeline.Value

noncomputable section

open scoped BigOperators

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

/-- The offsets of a whole-block access are zero on both axes. -/
theorem offsets_zero : (![0, 0] : Fin 2 → Nat) = fun _ => 0 := funext fun a => by fin_cases a <;> rfl

/-- One block of the product at (p, q): the sum over k of the row block at (p, k) times the weights at (k, q).
    Rounding the operands to bf16 changes nothing on the extended reals, and the accumulator starts at zero. -/
theorem block_apply (x0 : Vec Ideal S5000x256 .f32) (x1 : Vec Ideal S256x100 .f32) (p : Fin 5000) (q : Fin 100) :
    k0_pay1 x0 x1 (ix2 p q) = ∑ k : Fin 256, x0 (ix2 p k) * x1 (ix2 k q) := by
  unfold k0_pay1
  exact Cert.Bridge.matmul_zero_plain dot_S5000x256_S256x100_S5000x100_1_0_0_1_n_n rfl rfl rfl rfl rfl rfl none _ _ p q

/-- Where the blocks sit, decided over the 20 grid points: at point t the row block of x and the output block are
    block t of their arrays' rows, all 256 resp. 100 columns; the weights are taken whole. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the plain product of the two arrays: entry (p, q) of the block is row
    5000 t + p of the product, whose row of x is row p of the block of x read at t. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.mm (A := 100000) (K := 256) (B := 100) (V c main_arg0) (V c main_arg4)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x100) offsets_zero]
  funext j
  obtain ⟨e00, e01, e10, e11, e20, e21⟩ := block_index t
  have hp : (j 0).val < 5000 := (j 0).isLt
  have hq : (j 1).val < 100 := (j 1).isLt
  have ht : t.val < 20 := t.isLt
  -- the entry of the block, and the entry of the array it is written to
  have hl : (win0 2).xinj (grid0.coords t) j = ix2 (⟨(j 0).val, hp⟩ : Fin 5000) (⟨(j 1).val, hq⟩ : Fin 100) := by
    funext a; apply Fin.ext
    match a with
    | ⟨0, _⟩ => rfl
    | ⟨1, _⟩ => rfl
  have hr : ((cfg0.win 2).blk t).view.emb j
      = ix2 (⟨t.val * 5000 + (j 0).val, by omega⟩ : Fin 100000) (⟨(j 1).val, hq⟩ : Fin 100) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 100 + 1 * (j 1).val = (j 1).val; omega
  show k0_pay1 (iblk0 V c 0 t) (iblk0 V c 1 t) ((win0 2).xinj (grid0.coords t) j)
    = Spec.mm (V c main_arg0) (V c main_arg4) (((cfg0.win 2).blk t).view.emb j)
  rw [hl, block_apply, hr]
  refine Finset.sum_congr rfl fun k _ => ?_
  -- row p of the block of x is row 5000 t + p of x
  have h0 : iblk0 V c 0 t (ix2 (⟨(j 0).val, hp⟩ : Fin 5000) k)
      = V c main_arg0 (ix2 (⟨t.val * 5000 + (j 0).val, by omega⟩ : Fin 100000) k) := by
    show V c main_arg0 (((cfg0.win 0).blk t).view.emb (ix2 (⟨(j 0).val, hp⟩ : Fin 5000) k)) = _
    refine congrArg _ (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 256 + 1 * k.val = k.val; omega
  -- the block of the weights is the weights
  have h1 : iblk0 V c 1 t (ix2 k (⟨(j 1).val, hq⟩ : Fin 100)) = V c main_arg4 (ix2 k (⟨(j 1).val, hq⟩ : Fin 100)) := by
    show V c main_arg4 (((cfg0.win 1).blk t).view.emb (ix2 k (⟨(j 1).val, hq⟩ : Fin 100))) = _
    refine congrArg _ (funext fun a => Fin.ext ?_)
    match a with
    | ⟨0, _⟩ => show win0_1.index t (0 : Fin 2) * 256 + 1 * k.val = k.val; omega
    | ⟨1, _⟩ => show win0_1.index t (1 : Fin 2) * 100 + 1 * (j 1).val = (j 1).val; omega
  rw [h0, h1]

/-- An entry of the product is in point t's block iff each coordinate is in the block's range on its axis. -/
theorem mem_block (t : Fin cfg0.N) (i : S100000x100.Idx) :
    i ∈ ((cfg0.win 2).blk t).view.set
      ↔ ∀ a : Fin 2, win0_2.index t a * S5000x100.size a ≤ (i a).val ∧ (i a).val < win0_2.index t a * S5000x100.size a + S5000x100.size a := by
  show i ∈ ((View.whole main_v29).slice (win0_2.rect t)).set ↔ _
  rw [View.set_slice_whole, Rect.mem_set_unit]
  exact Iff.rfl

/-- The 20 blocks of 5000 rows tile the 100000 rows: row r is in the block of point r / 5000. -/
theorem covered (i : S100000x100.Idx) :
    ∃ t : Fin cfg0.N, (cfg0.win 2).flush t = true ∧ i ∈ ((cfg0.win 2).blk t).view.set := by
  have hi0 : (i 0).val < 100000 := (i 0).isLt
  have hi1 : (i 1).val < 100 := (i 1).isLt
  let t : Fin cfg0.N := ⟨(i 0).val / 5000, by show (i 0).val / 5000 < 20; omega⟩
  obtain ⟨-, -, -, -, e20, e21⟩ := block_index t
  have et : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 100 ≤ (i 1).val ∧ (i 1).val < win0_2.index t (1 : Fin 2) * 100 + 100; omega

/-- The first product's array after its region: the plain sum of the two arrays the region was entered with. -/
theorem final (V : (c : Dev nD) → (b : Ref sig .tc) → Buf (Elt Ideal) ((c : Thread nD τ).loc b)) (c : Dev nD) :
    (dat0 (F := Ideal) V c).arrAt 2 cfg0.N = Cert.Spec.mm (A := 100000) (K := 256) (B := 100) (V c main_arg0) (V c main_arg4) :=
  (dat0 (F := Ideal) V c).arrAt_eq_of_cover 2 _ (fun t _ => flushed_eq V c t) covered

end Cert.KernelIdeal.Region0

end
-- ==== Proof.Region1.lean ====
/- The second matrix product, h · W2 (h the first layer's output), computed in 10 blocks of 10000 rows: every block is
   the plain sum over the contracted index of the rows it covers, the blocks tile the 100000 rows, so the whole array is
   the plain sum. -/
import proofs.«168514_j41807211659639_2_alg».proof.Proof.Spec
import proofs.«168514_j41807211659639_2_alg».proof.Proof.Gen.KernelIdeal.Frame
import proofs.«168514_j41807211659639_2_alg».proof.Proof.LibPlainDot
import Idealize.ShloMosaic.Lib.Pipeline.Value

noncomputable section

open scoped BigOperators

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)

/-- The offsets of a whole-block access are zero on both axes. -/
theorem offsets_zero : (![0, 0] : Fin 2 → Nat) = fun _ => 0 := funext fun a => by fin_cases a <;> rfl

/-- One block of the product at (p, q): the sum over k of the row block at (p, k) times the weights at (k, q).
    The reshape of the row block to its own shape is the identity, rounding the operands to bf16 changes nothing on
    the extended reals, and the accumulator starts at zero. -/
theorem block_apply (x0 : Vec Ideal S10000x100 .f32) (x1 : Vec Ideal S100x16 .f32) (p : Fin 10000) (q : Fin 16) :
    k1_pay1 x0 x1 (ix2 p q) = ∑ k : Fin 100, x0 (ix2 p k) * x1 (ix2 k q) := by
  unfold k1_pay1
  rw [shapeCast_self]
  exact Cert.Bridge.matmul_zero_plain dot_S10000x100_S100x16_S10000x16_1_0_0_1_n_n rfl rfl rfl rfl rfl rfl none _ _ p q

/-- Where the blocks sit, decided over the 10 grid points: at point t the row block of h and the output block are
    block t of their arrays' rows, all 100 resp. 16 columns; the weights are taken whole. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the plain product of the two arrays: entry (p, q) of the block is row
    10000 t + p of the product, whose row of h is row p of the block of h read at t. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.mm (A := 100000) (K := 100) (B := 16) (V c main_v46) (V c main_arg6)) := by
  show (cfg1.win 2).cut (grid1.coords t) ((dat1 V c).after 2 t) = _
  rw [after1_2]
  unfold out1_2
  rw [View.canon_unit_zero offsets_zero]
  simp only [View.ld_unit_zero (S := S10000x100) offsets_zero, View.ld_unit_zero (S := S100x16) offsets_zero]
  funext j
  obtain ⟨e00, e01, e10, e11, e20, e21⟩ := block_index t
  have hp : (j 0).val < 10000 := (j 0).isLt
  have hq : (j 1).val < 16 := (j 1).isLt
  have ht : t.val < 10 := t.isLt
  -- the entry of the block, and the entry of the array it is written to
  have hl : (win1 2).xinj (grid1.coords t) j = ix2 (⟨(j 0).val, hp⟩ : Fin 10000) (⟨(j 1).val, hq⟩ : Fin 16) := by
    funext a; apply Fin.ext
    match a with
    | ⟨0, _⟩ => rfl
    | ⟨1, _⟩ => rfl
  have hr : ((cfg1.win 2).blk t).view.emb j
      = ix2 (⟨t.val * 10000 + (j 0).val, by omega⟩ : Fin 100000) (⟨(j 1).val, hq⟩ : Fin 16) := by
    funext a; apply Fin.ext
    match a with
    | ⟨0, _⟩ => show win1_2.index t (0 : Fin 2) * 10000 + 1 * (j 0).val = t.val * 10000 + (j 0).val; omega
    | ⟨1, _⟩ => show win1_2.index t (1 : Fin 2) * 16 + 1 * (j 1).val = (j 1).val; omega
  show k1_pay1 (iblk1 V c 0 t) (iblk1 V c 1 t) ((win1 2).xinj (grid1.coords t) j)
    = Spec.mm (V c main_v46) (V c main_arg6) (((cfg1.win 2).blk t).view.emb j)
  rw [hl, block_apply, hr]
  refine Finset.sum_congr rfl fun k _ => ?_
  -- row p of the block of h is row 10000 t + p of h
  have h0 : iblk1 V c 0 t (ix2 (⟨(j 0).val, hp⟩ : Fin 10000) k)
      = V c main_v46 (ix2 (⟨t.val * 10000 + (j 0).val, by omega⟩ : Fin 100000) k) := by
    show V c main_v46 (((cfg1.win 0).blk t).view.emb (ix2 (⟨(j 0).val, hp⟩ : Fin 10000) k)) = _
    refine congrArg _ (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 100 + 1 * k.val = k.val; omega
  -- the block of the weights is the weights
  have h1 : iblk1 V c 1 t (ix2 k (⟨(j 1).val, hq⟩ : Fin 16)) = V c main_arg6 (ix2 k (⟨(j 1).val, hq⟩ : Fin 16)) := by
    show V c main_arg6 (((cfg1.win 1).blk t).view.emb (ix2 k (⟨(j 1).val, hq⟩ : Fin 16))) = _
    refine congrArg _ (funext fun a => Fin.ext ?_)
    match a with
    | ⟨0, _⟩ => show win1_1.index t (0 : Fin 2) * 100 + 1 * k.val = k.val; omega
    | ⟨1, _⟩ => show win1_1.index t (1 : Fin 2) * 16 + 1 * (j 1).val = (j 1).val; omega
  rw [h0, h1]

/-- An entry of the product is in point t's block iff each coordinate is in the block's range on its axis. -/
theorem mem_block (t : Fin cfg1.N) (i : S100000x16.Idx) :
    i ∈ ((cfg1.win 2).blk t).view.set
      ↔ ∀ a : Fin 2, win1_2.index t a * S10000x16.size a ≤ (i a).val ∧ (i a).val < win1_2.index t a * S10000x16.size a + S10000x16.size a := by
  show i ∈ ((View.whole main_v47).slice (win1_2.rect t)).set ↔ _
  rw [View.set_slice_whole, Rect.mem_set_unit]
  exact Iff.rfl

/-- The 10 blocks of 10000 rows tile the 100000 rows: row r is in the block of point r / 10000. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  let t : Fin cfg1.N := ⟨(i 0).val / 10000, by show (i 0).val / 10000 < 10; omega⟩
  obtain ⟨-, -, -, -, e20, e21⟩ := block_index t
  have et : t.val = (i 0).val / 10000 := rfl
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The second product's array after its region: the plain sum of the two arrays the region was entered with. -/
theorem final (V : (c : Dev nD) → (b : Ref sig .tc) → Buf (Elt Ideal) ((c : Thread nD τ).loc b)) (c : Dev nD) :
    (dat1 (F := Ideal) V c).arrAt 2 cfg1.N = Cert.Spec.mm (A := 100000) (K := 100) (B := 16) (V c main_v46) (V c main_arg6) :=
  (dat1 (F := Ideal) V c).arrAt_eq_of_cover 2 _ (fun t _ => flushed_eq V c t) covered

end Cert.KernelIdeal.Region1

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.DecodeBlock.lean ====
/-
  The decoder's block arithmetic read at one row.

  On one block of 2000 edges the decoder forms d = ein - eout and sq = d * d, the hidden features
  h = sq · W_a + P · W_b + b (two products into zero accumulators and a bias row repeated down the block), the leaky clamp
  act = h where h > 0 and 0.2 h elsewhere, the score s = act · w + c, and logistic (2 - min 40 (max 0 |s|)).  Read at row p
  of the block, every product is the plain sum over its contracted index and every other step acts entry by entry, so
  the result at (p, 0) is Spec.squash of the score formed from row p of the two endpoint blocks and row p of the feature
  block alone: scoreOf of those three rows.  Spec.score of whole arrays at an edge is scoreOf of that edge's rows.
-/
import proofs.«168514_j41807211659639_2_alg».proof.Proof.Spec
import proofs.«168514_j41807211659639_2_alg».proof.Proof.Gen.KernelIdeal.Skeleton
import proofs.«168514_j41807211659639_2_alg».proof.Proof.LibPlainDot
import proofs.«168514_j41807211659639_2_alg».proof.Proof.LibRank2Layout

noncomputable section

open scoped BigOperators

namespace Cert.KernelIdeal.Decode

open Idealize.ShloMosaic Idealize.ShloMosaic.ValueIdx Cert.KernelIdeal Cert.KernelIdeal.Gen

/-! ## Entry-by-entry readings not in the library's list -/

theorem absf_apply {s : Shape} {φ : FTy} (a : FVec Ideal s φ) (i : s.Idx) : absf a i = max (a i) (-(a i)) := rfl
theorem logistic_apply {s : Shape} {φ : FTy} (a : FVec Ideal s φ) (i : s.Idx) : logistic a i = Ideal.logistic (a i) := rfl

/-- The hidden feature j of one edge from its two endpoint rows a, b and its feature row f. -/
def hiddenOf (a b : Fin 16 → EReal) (f : Fin 25 → EReal) (wa : FVec Ideal S16x25 .f32) (wb : FVec Ideal S25x25 .f32)
    (b1 : FVec Ideal S1x25 .f32) (j : Fin 25) : EReal :=
  (∑ k : Fin 16, ((a k - b k) * (a k - b k)) * wa (ix2 k j)) + (∑ k : Fin 25, f k * wb (ix2 k j)) + b1 (ix2 0 j)

/-- The score of one edge from its rows. -/
def scoreOf (a b : Fin 16 → EReal) (f : Fin 25 → EReal) (wa : FVec Ideal S16x25 .f32) (wb : FVec Ideal S25x25 .f32)
    (b1 : FVec Ideal S1x25 .f32) (w2 : FVec Ideal S25x1 .f32) (b2 : FVec Ideal S1x1 .f32) : EReal :=
  (∑ j : Fin 25, Spec.leaky (hiddenOf a b f wa wb b1 j) * w2 (ix2 j 0)) + b2 (ix2 0 0)

theorem score_eq_scoreOf (ein eout : FVec Ideal S1000000x16 .f32) (pi : FVec Ideal S1000000x25 .f32) (wa : FVec Ideal S16x25 .f32)
    (wb : FVec Ideal S25x25 .f32) (b1 : FVec Ideal S1x25 .f32) (w2 : FVec Ideal S25x1 .f32) (b2 : FVec Ideal S1x1 .f32)
    (p : Fin 1000000) :
    Spec.score ein eout pi wa wb b1 w2 b2 p
      = scoreOf (fun k => ein (ix2 p k)) (fun k => eout (ix2 p k)) (fun k => pi (ix2 p k)) wa wb b1 w2 b2 := rfl

theorem select_ogt_leaky (x : EReal) :
    Scalar.select (FloatOps.cmpf (F := Ideal) (φ := .f32) .ogt x (FloatOps.ofBits .f32 0x00000000#32)) x
        (FloatOps.ofBits (F := Ideal) .f32 0x3E4CCCCD#32 * x) = Spec.leaky x := by
  unfold Spec.leaky
  show Scalar.select (BitVec.ofBool (decide (Ideal.ofBits .f32 0x00000000#32 < x))) x (Ideal.ofBits .f32 0x3E4CCCCD#32 * x) = _
  rw [Ideal.ofBits_zero_f32]
  by_cases h : 0 < x
  · rw [if_pos h, decide_eq_true h]; exact select_one _ _
  · rw [if_neg h, decide_eq_false h]; exact select_zero _ _

theorem pay1_apply (v : FVec Ideal S2000x1 .f32) (i : S2000x1.Idx) :
    k2_pay1 v (Scalar.ofBits .f32 0x00000000#32) (Scalar.ofBits .f32 0x42200000#32) i
      = Ideal.logistic (Ideal.ofBits .f32 0x40000000#32
          - min (Ideal.ofBits .f32 0x42200000#32) (max (Ideal.ofBits .f32 0x00000000#32) (v i))) := rfl

/-- A block matmul of plain dimension numbers into the zero accumulator at (p, q), spelt as the payload spells it. -/
theorem matmul_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    matmul d prec lhs rhs (constant ⟨2, ![A, B]⟩ .f32 0x00000000#32) (ix2 p q)
      = ∑ k : Fin K, lhs (ix2 p k) * rhs (ix2 k q) :=
  Cert.Bridge.matmul_zero_plain d hlc hrc hln hrn hlb hrb prec lhs rhs p q

theorem hidden_block (a : FVec Ideal S2000x16 .f32) (wa : FVec Ideal S16x25 .f32) (f : FVec Ideal S2000x25 .f32)
    (wb : FVec Ideal S25x25 .f32) (b1 : FVec Ideal S1x25 .f32) (p : Fin 2000) (j : Fin 25)
    (bitsLt_bf16_f32 : FTy.bits .bf16 < FTy.bits .f32) (broadcasts_S1x25_S2000x25 : S1x25.Broadcasts S2000x25) :
    addf (addf
        (matmul dot_S2000x16_S16x25_S2000x25_1_0_0_1_n_n none (truncf .bf16 a bitsLt_bf16_f32) (truncf .bf16 wa bitsLt_bf16_f32)
          (constant S2000x25 .f32 0x00000000#32))
        (matmul dot_S2000x25_S25x25_S2000x25_1_0_0_1_n_n none (truncf .bf16 f bitsLt_bf16_f32) (truncf .bf16 wb bitsLt_bf16_f32)
          (constant S2000x25 .f32 0x00000000#32)))
      (broadcastTo S2000x25 b1 broadcasts_S1x25_S2000x25) (ix2 p j)
      = (∑ k : Fin 16, a (ix2 p k) * wa (ix2 k j)) + (∑ k : Fin 25, f (ix2 p k) * wb (ix2 k j)) + b1 (ix2 0 j) := by
  rw [addf_apply, addf_apply]
  rw [matmul_plain dot_S2000x16_S16x25_S2000x25_1_0_0_1_n_n rfl rfl rfl rfl rfl rfl,
    matmul_plain dot_S2000x25_S25x25_S2000x25_1_0_0_1_n_n rfl rfl rfl rfl rfl rfl,
    Rank2.bcastRow_apply]
  rfl

theorem pay2_apply (x0 x1 : Vec Ideal S2000x16 .f32) (x2 : Vec Ideal S2000x25 .f32) (x3 : Vec Ideal S16x25 .f32)
    (x4 : Vec Ideal S25x25 .f32) (x5 : Vec Ideal S1x25 .f32) (x6 : Vec Ideal S25x1 .f32) (x7 : Vec Ideal S1x1 .f32) (p : Fin 2000) :
    k2_pay2 x0 x1 x2 x3 x4 x5 x6 x7 (ix2 p 0)
      = (fun s : EReal => max s (-s))
          (scoreOf (fun k => x0 (ix2 p k)) (fun k => x1 (ix2 p k)) (fun k => x2 (ix2 p k)) x3 x4 x5 x6 x7) := by
  unfold k2_pay2
  rw [absf_apply, addf_apply, matmul_plain dot_S2000x25_S25x1_S2000x1_1_0_0_1_n_n rfl rfl rfl rfl rfl rfl,
    Rank2.bcastRow_apply]
  refine congrArg (fun s : EReal => max s (-s)) ?_
  unfold scoreOf
  refine congrArg₂ (· + ·) (Finset.sum_congr rfl fun j _ => ?_) (congrFun (shapeCast_self x7 _) _)
  rw [truncf_apply, truncf_apply, select_apply, cmpf_apply, mulf_apply, broadcast_apply, broadcast_apply, hidden_block]
  refine congrArg₂ (· * ·) ((select_ogt_leaky _).trans (congrArg Spec.leaky ?_)) rfl
  unfold hiddenOf
  simp only [shapeCast_self, mulf_apply, subf_apply]

/-- THE BLOCK'S RESULT AT ROW p: the squashed score of the edge whose rows are row p of the three row blocks. -/
theorem block_apply (x0 x1 : Vec Ideal S2000x16 .f32) (x2 : Vec Ideal S2000x25 .f32) (x3 : Vec Ideal S16x25 .f32)
    (x4 : Vec Ideal S25x25 .f32) (x5 : Vec Ideal S1x25 .f32) (x6 : Vec Ideal S25x1 .f32) (x7 : Vec Ideal S1x1 .f32) (p : Fin 2000) :
    k2_pay1 (k2_pay2 x0 x1 x2 x3 x4 x5 x6 x7) (Scalar.ofBits .f32 0x00000000#32) (Scalar.ofBits .f32 0x42200000#32) (ix2 p 0)
      = Spec.squash (scoreOf (fun k => x0 (ix2 p k)) (fun k => x1 (ix2 p k)) (fun k => x2 (ix2 p k)) x3 x4 x5 x6 x7) := by
  rw [pay1_apply, pay2_apply]
  rfl

end Cert.KernelIdeal.Decode

end
-- ==== Proof.Region2.lean ====
/-
  The decoder region, from blocks to the array.

  The region runs 500 points; point t holds rows 2000 t … 2000 t + 1999 of the two endpoint-row arrays and of the edge
  features, the five small arrays whole, and writes rows 2000 t … 2000 t + 1999 of the [1000000, 1] result.  A block's
  coordinate on an axis is its block index times the block's extent plus the coordinate inside the block, so row p of a
  row block at point t is row 2000 t + p of its array and a whole window's block is its array.  The block's result at
  row p is the squashed score of that edge's rows (Decode.block_apply), which is the decoder's one-edge formula at edge
  2000 t + p.  Every edge r lies in the block of point r / 2000, so the array after the region is that formula everywhere.
-/
import proofs.«168514_j41807211659639_2_alg».proof.Proof.Spec
import proofs.«168514_j41807211659639_2_alg».proof.Proof.Gen.KernelIdeal.Frame
import proofs.«168514_j41807211659639_2_alg».proof.Proof.DecodeBlock
import Idealize.ShloMosaic.Lib.Pipeline.Value

noncomputable section

namespace Cert.KernelIdeal.Region2

open Idealize.ShloMosaic Idealize.ShloMosaic.TcCoe Idealize.SL.Sem Cert.KernelIdeal Cert.KernelIdeal.Gen
open Idealize.ShloMosaic.ValueIdx
open Idealize.ShloMosaic.Pipeline (Dat)

/-! ## The block indices, decided over the 500 points -/

/-- The origin of a rank-2 block, as the constant-zero offset. -/
theorem origin_zero : (![0, 0] : Fin 2 → Nat) = fun _ => 0 := funext fun a => by fin_cases a <;> rfl

/-- The three row windows and the output window sit at block (t, 0); the five small windows at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-! ## One entry of the block against one entry of the array -/

open Cert.KernelIdeal.Decode

/-- The block's result at an index of the block is the decoder's formula at an index of the array, as soon as the block's
    row there is the arrays' row at that index and the five whole windows are the arrays. -/
theorem block_eq_decodeK (x0 x1 : Vec Ideal S2000x16 .f32) (x2 : Vec Ideal S2000x25 .f32) (x3 : Vec Ideal S16x25 .f32)
    (x4 : Vec Ideal S25x25 .f32) (x5 : Vec Ideal S1x25 .f32) (x6 : Vec Ideal S25x1 .f32) (x7 : Vec Ideal S1x1 .f32)
    (ein eout : FVec Ideal S1000000x16 .f32) (pi : FVec Ideal S1000000x25 .f32) (wa : FVec Ideal S16x25 .f32)
    (wb : FVec Ideal S25x25 .f32) (b1 : FVec Ideal S1x25 .f32) (w2 : FVec Ideal S25x1 .f32) (b2 : FVec Ideal S1x1 .f32)
    (y : S2000x1.Idx) (i : S1000000x1.Idx)
    (h0 : ∀ k : Fin 16, x0 (ix2 (y 0) k) = ein (ix2 (i 0) k)) (h1 : ∀ k : Fin 16, x1 (ix2 (y 0) k) = eout (ix2 (i 0) k))
    (h2 : ∀ k : Fin 25, x2 (ix2 (y 0) k) = pi (ix2 (i 0) k))
    (h3 : x3 = wa) (h4 : x4 = wb) (h5 : x5 = b1) (h6 : x6 = w2) (h7 : x7 = b2) :
    k2_pay1 (k2_pay2 x0 x1 x2 x3 x4 x5 x6 x7) (Scalar.ofBits .f32 0x00000000#32) (Scalar.ofBits .f32 0x42200000#32) y
      = Spec.decodeK ein eout pi wa wb b1 w2 b2 i := by
  subst h3 h4 h5 h6 h7
  obtain ⟨p, z, rfl⟩ : ∃ (p : Fin 2000) (z : Fin 1), y = ix2 p z := ⟨y 0, y 1, eq_ix2 y⟩
  obtain rfl : z = 0 := Subsingleton.elim _ _
  rw [block_apply]
  refine congrArg Spec.squash ?_
  show _ = scoreOf (fun k => ein (ix2 (i 0) k)) (fun k => eout (ix2 (i 0) k)) (fun k => pi (ix2 (i 0) k)) x3 x4 x5 x6 x7
  have e0 : (fun k : Fin 16 => x0 (ix2 p k)) = fun k => ein (ix2 (i 0) k) := funext h0
  have e1 : (fun k : Fin 16 => x1 (ix2 p k)) = fun k => eout (ix2 (i 0) k) := funext h1
  have e2 : (fun k : Fin 25 => x2 (ix2 p k)) = fun k => pi (ix2 (i 0) k) := funext h2
  rw [e0, e1, e2]

/-! ## Each window's block read off its array -/

/-- An entry of row window 0's block, at the output block's row, is the array's entry at the row the output block's index names. -/
theorem row_blk0 (V : (c : Dev nD) → (b : Ref sig .tc) → Buf (Elt Ideal) ((c : Thread nD τ).loc b)) (c : Dev nD) (t : Fin cfg2.N)
    (j : ((cfg2.win 8).xblock (grid2.coords t)).Idx) (k : Fin 16) :
    iblk2 (F := Ideal) V c 0 t (ix2 (j 0) k) = V c main_v78 (ix2 ((((cfg2.win 8).blk t).view.emb j) 0) k) := by
  obtain ⟨e00, e01, e10, e11, e20, e21, e30, e31, e40, e41, e50, e51, e60, e61, e70, e71, e80, e81⟩ := block_indices t
  show V c main_v78 (((cfg2.win 0).blk t).view.emb (ix2 (j 0) k)) = _
  refine congrArg (V c main_v78) ?_
  funext a; apply Fin.ext
  match a with
  | ⟨0, _⟩ => show win2_0.index t (0 : Fin 2) * 2000 + 1 * (j 0).val = win2_8.index t (0 : Fin 2) * 2000 + 1 * (j 0).val; rw [e00, e80]
  | ⟨1, _⟩ => show win2_0.index t (1 : Fin 2) * 16 + 1 * k.val = k.val; rw [e01]; omega

/-- An entry of row window 1's block, at the output block's row, is the array's entry at the row the output block's index names. -/
theorem row_blk1 (V : (c : Dev nD) → (b : Ref sig .tc) → Buf (Elt Ideal) ((c : Thread nD τ).loc b)) (c : Dev nD) (t : Fin cfg2.N)
    (j : ((cfg2.win 8).xblock (grid2.coords t)).Idx) (k : Fin 16) :
    iblk2 (F := Ideal) V c 1 t (ix2 (j 0) k) = V c main_v87 (ix2 ((((cfg2.win 8).blk t).view.emb j) 0) k) := by
  obtain ⟨e00, e01, e10, e11, e20, e21, e30, e31, e40, e41, e50, e51, e60, e61, e70, e71, e80, e81⟩ := block_indices t
  show V c main_v87 (((cfg2.win 1).blk t).view.emb (ix2 (j 0) k)) = _
  refine congrArg (V c main_v87) ?_
  funext a; apply Fin.ext
  match a with
  | ⟨0, _⟩ => show win2_1.index t (0 : Fin 2) * 2000 + 1 * (j 0).val = win2_8.index t (0 : Fin 2) * 2000 + 1 * (j 0).val; rw [e10, e80]
  | ⟨1, _⟩ => show win2_1.index t (1 : Fin 2) * 16 + 1 * k.val = k.val; rw [e11]; omega

/-- An entry of row window 2's block, at the output block's row, is the array's entry at the row the output block's index names. -/
theorem row_blk2 (V : (c : Dev nD) → (b : Ref sig .tc) → Buf (Elt Ideal) ((c : Thread nD τ).loc b)) (c : Dev nD) (t : Fin cfg2.N)
    (j : ((cfg2.win 8).xblock (grid2.coords t)).Idx) (k : Fin 25) :
    iblk2 (F := Ideal) V c 2 t (ix2 (j 0) k) = V c main_arg3 (ix2 ((((cfg2.win 8).blk t).view.emb j) 0) k) := by
  obtain ⟨e00, e01, e10, e11, e20, e21, e30, e31, e40, e41, e50, e51, e60, e61, e70, e71, e80, e81⟩ := block_indices t
  show V c main_arg3 (((cfg2.win 2).blk t).view.emb (ix2 (j 0) k)) = _
  refine congrArg (V c main_arg3) ?_
  funext a; apply Fin.ext
  match a with
  | ⟨0, _⟩ => show win2_2.index t (0 : Fin 2) * 2000 + 1 * (j 0).val = win2_8.index t (0 : Fin 2) * 2000 + 1 * (j 0).val; rw [e20, e80]
  | ⟨1, _⟩ => show win2_2.index t (1 : Fin 2) * 25 + 1 * k.val = k.val; rw [e21]; omega

/-- Window 3 holds its whole array at every point. -/
theorem whole_blk3 (V : (c : Dev nD) → (b : Ref sig .tc) → Buf (Elt Ideal) ((c : Thread nD τ).loc b)) (c : Dev nD) (t : Fin cfg2.N) :
    (iblk2 (F := Ideal) V c 3 t : Vec Ideal S16x25 .f32) = V c main_v88 := by
  obtain ⟨e00, e01, e10, e11, e20, e21, e30, e31, e40, e41, e50, e51, e60, e61, e70, e71, e80, e81⟩ := block_indices t
  funext y
  show V c main_v88 (((cfg2.win 3).blk t).view.emb y) = V c main_v88 y
  refine congrArg (V c main_v88) ?_
  funext a; apply Fin.ext
  match a with
  | ⟨0, _⟩ => show win2_3.index t (0 : Fin 2) * 16 + 1 * (y 0).val = (y 0).val; rw [e30]; omega
  | ⟨1, _⟩ => show win2_3.index t (1 : Fin 2) * 25 + 1 * (y 1).val = (y 1).val; rw [e31]; omega

/-- Window 4 holds its whole array at every point. -/
theorem whole_blk4 (V : (c : Dev nD) → (b : Ref sig .tc) → Buf (Elt Ideal) ((c : Thread nD τ).loc b)) (c : Dev nD) (t : Fin cfg2.N) :
    (iblk2 (F := Ideal) V c 4 t : Vec Ideal S25x25 .f32) = V c main_v89 := by
  obtain ⟨e00, e01, e10, e11, e20, e21, e30, e31, e40, e41, e50, e51, e60, e61, e70, e71, e80, e81⟩ := block_indices t
  funext y
  show V c main_v89 (((cfg2.win 4).blk t).view.emb y) = V c main_v89 y
  refine congrArg (V c main_v89) ?_
  funext a; apply Fin.ext
  match a with
  | ⟨0, _⟩ => show win2_4.index t (0 : Fin 2) * 25 + 1 * (y 0).val = (y 0).val; rw [e40]; omega
  | ⟨1, _⟩ => show win2_4.index t (1 : Fin 2) * 25 + 1 * (y 1).val = (y 1).val; rw [e41]; omega

/-- Window 5 holds its whole array at every point. -/
theorem whole_blk5 (V : (c : Dev nD) → (b : Ref sig .tc) → Buf (Elt Ideal) ((c : Thread nD τ).loc b)) (c : Dev nD) (t : Fin cfg2.N) :
    (iblk2 (F := Ideal) V c 5 t : Vec Ideal S1x25 .f32) = V c main_v90 := by
  obtain ⟨e00, e01, e10, e11, e20, e21, e30, e31, e40, e41, e50, e51, e60, e61, e70, e71, e80, e81⟩ := block_indices t
  funext y
  show V c main_v90 (((cfg2.win 5).blk t).view.emb y) = V c main_v90 y
  refine congrArg (V c main_v90) ?_
  funext a; apply Fin.ext
  match a with
  | ⟨0, _⟩ => show win2_5.index t (0 : Fin 2) * 1 + 1 * (y 0).val = (y 0).val; rw [e50]; omega
  | ⟨1, _⟩ => show win2_5.index t (1 : Fin 2) * 25 + 1 * (y 1).val = (y 1).val; rw [e51]; omega

/-- Window 6 holds its whole array at every point. -/
theorem whole_blk6 (V : (c : Dev nD) → (b : Ref sig .tc) → Buf (Elt Ideal) ((c : Thread nD τ).loc b)) (c : Dev nD) (t : Fin cfg2.N) :
    (iblk2 (F := Ideal) V c 6 t : Vec Ideal S25x1 .f32) = V c main_arg10 := by
  obtain ⟨e00, e01, e10, e11, e20, e21, e30, e31, e40, e41, e50, e51, e60, e61, e70, e71, e80, e81⟩ := block_indices t
  funext y
  show V c main_arg10 (((cfg2.win 6).blk t).view.emb y) = V c main_arg10 y
  refine congrArg (V c main_arg10) ?_
  funext a; apply Fin.ext
  match a with
  | ⟨0, _⟩ => show win2_6.index t (0 : Fin 2) * 25 + 1 * (y 0).val = (y 0).val; rw [e60]; omega
  | ⟨1, _⟩ => show win2_6.index t (1 : Fin 2) * 1 + 1 * (y 1).val = (y 1).val; rw [e61]; omega

/-- Window 7 holds its whole array at every point. -/
theorem whole_blk7 (V : (c : Dev nD) → (b : Ref sig .tc) → Buf (Elt Ideal) ((c : Thread nD τ).loc b)) (c : Dev nD) (t : Fin cfg2.N) :
    (iblk2 (F := Ideal) V c 7 t : Vec Ideal S1x1 .f32) = V c main_v91 := by
  obtain ⟨e00, e01, e10, e11, e20, e21, e30, e31, e40, e41, e50, e51, e60, e61, e70, e71, e80, e81⟩ := block_indices t
  funext y
  show V c main_v91 (((cfg2.win 7).blk t).view.emb y) = V c main_v91 y
  refine congrArg (V c main_v91) ?_
  funext a; apply Fin.ext
  match a with
  | ⟨0, _⟩ => show win2_7.index t (0 : Fin 2) * 1 + 1 * (y 0).val = (y 0).val; rw [e70]; omega
  | ⟨1, _⟩ => show win2_7.index t (1 : Fin 2) * 1 + 1 * (y 1).val = (y 1).val; rw [e71]; omega

/-! ## From blocks to the array -/

/-- WHAT POINT t WRITES BACK is block t of the decoder's formula of the arrays the region was entered with. -/
theorem flushed_eq (V : (c : Dev nD) → (b : Ref sig .tc) → Buf (Elt Ideal) ((c : Thread nD τ).loc b)) (c : Dev nD) (t : Fin cfg2.N) :
    (dat2 (F := Ideal) V c).flushed 8 t = ((cfg2.win 8).blk t).view.read (Elt Ideal)
      (Cert.Spec.decodeK (V c main_v78) (V c main_v87) (V c main_arg3) (V c main_v88) (V c main_v89) (V c main_v90)
          (V c main_arg10) (V c main_v91)) := by
  show (cfg2.win 8).cut (grid2.coords t) ((dat2 (F := Ideal) V c).after 8 t) = _
  rw [after2_8]
  unfold out2_8
  rw [View.canon_unit_zero origin_zero]
  simp only [View.ld_unit_zero (S := S2000x16) origin_zero, View.ld_unit_zero (S := S2000x25) origin_zero,
    View.ld_unit_zero (S := S16x25) origin_zero, View.ld_unit_zero (S := S25x25) origin_zero,
    View.ld_unit_zero (S := S1x25) origin_zero, View.ld_unit_zero (S := S25x1) origin_zero,
    View.ld_unit_zero (S := S1x1) origin_zero]
  funext j
  exact block_eq_decodeK _ _ _ _ _ _ _ _ _ _ _ _ _ _ _ _ j (((cfg2.win 8).blk t).view.emb j)
    (row_blk0 V c t j) (row_blk1 V c t j) (row_blk2 V c t j)
    (whole_blk3 V c t) (whole_blk4 V c t) (whole_blk5 V c t) (whole_blk6 V c t) (whole_blk7 V c t)

/-- An index of the array is in point t's block iff each coordinate is in the block's range on its axis. -/
theorem mem_blk (t : Fin cfg2.N) (i : S1000000x1.Idx) :
    i ∈ ((cfg2.win 8).blk t).view.set ↔ ∀ a : Fin 2, win2_8.index t a * S2000x1.size a ≤ (i a).val ∧ (i a).val < win2_8.index t a * S2000x1.size a + S2000x1.size a := by
  show i ∈ ((View.whole main_v92).slice (win2_8.rect t)).set ↔ _
  rw [View.set_slice_whole, Rect.mem_set_unit]
  exact Iff.rfl

/-- Every edge is in the block of the point its number divided by 2000 names. -/
theorem covered (i : S1000000x1.Idx) :
    ∃ t : Fin cfg2.N, (cfg2.win 8).flush t = true ∧ i ∈ ((cfg2.win 8).blk t).view.set := by
  have hi0 : (i 0).val < 1000000 := (i 0).isLt
  have hi1 : (i 1).val < 1 := (i 1).isLt
  have hN : cfg2.N = 500 := N_2
  let t : Fin cfg2.N := ⟨(i 0).val / 2000, by rw [hN]; omega⟩
  have ht : t.val = (i 0).val / 2000 := rfl
  obtain ⟨e00, e01, e10, e11, e20, e21, e30, e31, e40, e41, e50, e51, e60, e61, e70, e71, e80, e81⟩ := block_indices t
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; rw [e80, ht]; omega
  | ⟨1, _⟩ => show win2_8.index t (1 : Fin 2) * 1 ≤ (i 1).val ∧ (i 1).val < win2_8.index t (1 : Fin 2) * 1 + 1; rw [e81]; omega

/-- The decoder's array after its region: the one-edge-at-a-time formula of the eight arrays the region was entered with. -/
theorem final (V : (c : Dev nD) → (b : Ref sig .tc) → Buf (Elt Ideal) ((c : Thread nD τ).loc b)) (c : Dev nD) :
    (dat2 (F := Ideal) V c).arrAt 8 cfg2.N
      = Cert.Spec.decodeK (V c main_v78) (V c main_v87) (V c main_arg3) (V c main_v88) (V c main_v89) (V c main_v90)
          (V c main_arg10) (V c main_v91) :=
  (dat2 (F := Ideal) V c).arrAt_eq_of_cover 8 _ (fun t _ => flushed_eq V c t) covered

end Cert.KernelIdeal.Region2

end
-- ==== Proof.KRun.lean ====
/-
  The tiled program's run, with its result buffer read at the last boundary of the fold.

  From any launch memory with zero counters every weakly fair execution of the program terminates without a fault,
  and in every final state the result buffer holds what the fold of buffer contents through the program's eleven
  segments (host stretches and tiled regions alternating) leaves there, while the twelve argument arrays are as launched.
-/
import proofs.«168514_j41807211659639_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates, nothing faulting; every
    final state has the result buffer at the last boundary's contents and the argument arrays as launched. -/
theorem run_v93 : θ_run defs (onTc (τ := τ) (main (F := F))) ⟨m, fun _ => 0, ρ⟩ (fun r => ∀ c : Dev nD,
      r.2.mem ((c.tc : Thread nD τ).loc main_v93) = W11 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v93 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.KRun

end
-- ==== Proof.KValue.lean ====
/-
  The tiled program's run and its value.

  The program is eleven segments: host stretches and three tiled regions in turn. The buffer contents at each segment
  boundary are a fold from the launch memory. Walking that fold one boundary at a time: the first stretch leaves the
  two edge-end vectors and the edge weights; the first region's output array is the plain-sum product of the node
  features and the first weight matrix; the next two stretches gather, weigh, scatter-add, add the bias and clamp, which
  is the first layer; the second region's output is the product of that with the second weight matrix; four more
  stretches are the second layer, the row rescaling to Euclidean length at most one, the two gathers of endpoint rows
  and the slices and reshapes of the decoder's weights; the third region's output is the one-edge-at-a-time decoder of
  those eight arrays; and the last stretch reads that column as a vector. A buffer no operation writes between two
  boundaries is unchanged between them. Together: the result buffer ends at Kfun of the twelve argument arrays.
-/
import proofs.«168514_j41807211659639_2_alg».proof.Proof.Spec
import proofs.«168514_j41807211659639_2_alg».proof.Proof.Region0
import proofs.«168514_j41807211659639_2_alg».proof.Proof.Region1
import proofs.«168514_j41807211659639_2_alg».proof.Proof.Region2
import proofs.«168514_j41807211659639_2_alg».proof.Proof.Gen.KernelIdeal.Frame
import proofs.«168514_j41807211659639_2_alg».proof.Proof.KRun

noncomputable section

namespace Cert.KernelIdeal.KValue

open Idealize.ShloMosaic Idealize.ShloMosaic.TcCoe Idealize.SL.Sem Cert.KernelIdeal Cert.KernelIdeal.Gen

/-! ## A layer before and at its clamp at zero -/

section Layers

variable {F : FTy → Type} [FloatOps F]

local notation "𝔹[" s ", " e "]" => BufTy.Contents (Elt F) (BufTy.mk s e)

/-- The first layer before its clamp at zero: the scatter-add of the weighted gathered rows, plus the bias. -/
def pre100 (h : 𝔹[S100000x100, .f32]) (a1 : 𝔹[S2x1600000, .i32]) (b : 𝔹[S100, .f32]) : 𝔹[S100000x100, .f32] :=
  addf
    (Host.scatterAdd scatter_S100000x100_S1700000x1_S1700000x100_1_0_0_1
      (broadcastInDim S100000x100 ![] bcast_S_S100000x100 (constant S_ .f32 0x00000000#32))
      (broadcastInDim S1700000x1 ![0] bcast_S1700000_S1700000x1_0 (Cert.Spec.dst a1))
      (mulf (Host.gather gather_S100000x100_S1700000x1_S1700000x100_1_0_n_n_0_1_1100 h (Cert.Spec.wrapE (Cert.Spec.src a1)))
        (broadcastInDim S1700000x100 ![0, 1] bcast_S1700000x1_S1700000x100_0_1
          (broadcastInDim S1700000x1 ![0] bcast_S1700000_S1700000x1_0 (Cert.Spec.norm a1)))))
    (broadcastInDim S100000x100 ![0, 1] bcast_S1x100_S100000x100_0_1 (broadcastInDim S1x100 ![1] bcast_S100_S1x100_1 b))

/-- The clamp at zero of a [100000, 100] array. -/
def relu100 (x : 𝔹[S100000x100, .f32]) : 𝔹[S100000x100, .f32] :=
  maximumf x (broadcastInDim S100000x100 ![] bcast_S_S100000x100 (constant S_ .f32 0x00000000#32))

/-- The second layer before its clamp at zero. -/
def pre16 (h : 𝔹[S100000x16, .f32]) (a1 : 𝔹[S2x1600000, .i32]) (b : 𝔹[S16, .f32]) : 𝔹[S100000x16, .f32] :=
  addf
    (Host.scatterAdd scatter_S100000x16_S1700000x1_S1700000x16_1_0_0_1
      (broadcastInDim S100000x16 ![] bcast_S_S100000x16 (constant S_ .f32 0x00000000#32))
      (broadcastInDim S1700000x1 ![0] bcast_S1700000_S1700000x1_0 (Cert.Spec.dst a1))
      (mulf (Host.gather gather_S100000x16_S1700000x1_S1700000x16_1_0_n_n_0_1_116 h (Cert.Spec.wrapE (Cert.Spec.src a1)))
        (broadcastInDim S1700000x16 ![0, 1] bcast_S1700000x1_S1700000x16_0_1
          (broadcastInDim S1700000x1 ![0] bcast_S1700000_S1700000x1_0 (Cert.Spec.norm a1)))))
    (broadcastInDim S100000x16 ![0, 1] bcast_S1x16_S100000x16_0_1 (broadcastInDim S1x16 ![1] bcast_S16_S1x16_1 b))

/-- The clamp at zero of a [100000, 16] array. -/
def relu16 (x : 𝔹[S100000x16, .f32]) : 𝔹[S100000x16, .f32] :=
  maximumf x (broadcastInDim S100000x16 ![] bcast_S_S100000x16 (constant S_ .f32 0x00000000#32))

theorem layer100_eq (h : 𝔹[S100000x100, .f32]) (a1 : 𝔹[S2x1600000, .i32]) (b : 𝔹[S100, .f32]) :
    Cert.Spec.layer100 h a1 b = relu100 (pre100 h a1 b) := rfl

theorem layer16_eq (h : 𝔹[S100000x16, .f32]) (a1 : 𝔹[S2x1600000, .i32]) (b : 𝔹[S16, .f32]) :
    Cert.Spec.layer16 h a1 b = relu16 (pre16 h a1 b) := rfl

end Layers

local notation "𝔹[" s ", " e "]" => BufTy.Contents (Elt Ideal) (BufTy.mk s e)
local notation "𝕍" => Valuation τ sig (Elt Ideal)

/-! ## What each host stretch writes -/

/-- The buffers the host stretch `hostOps0` writes, in order. -/
def wr0 : List (Ref sig .tc) :=
  [main_v0, main_v1, main_v2, main_v3, main_v4, main_v5, main_v6, main_cst, main_v7, main_cst_0, main_v8, main_v9,
   main_v10, main_cst_1, main_v11, main_v12, main_v13, main_c, main_v14, main_v15, main_c_2, main_v16, main_v17,
   main_v18, main_v19, main_v20, main_c_3, main_v21, main_v22, main_c_4, main_v23, main_v24, main_v25, main_v26,
   main_v27, main_v28]

/-- A buffer that stretch does not write holds after it what it held before. -/
theorem keep0 (X : 𝕍) (r : Ref sig .tc) (hr : r ∉ wr0) :
    StableHlo.after (hostOps0 (F := Ideal)) X (Proc.devRef .tc r) = X (Proc.devRef .tc r) :=
  StableHlo.after_of_writes_sub _ X (by
    simp only [hostOps0, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-- The buffers the host stretch `hostOps1` writes, in order. -/
def wr1 : List (Ref sig .tc) :=
  [main_c_5, main_v30, main_v31, main_c_6, main_v32, main_v33, main_v34, main_v35, main_v36, main_v37, main_v38,
   main_v39, main_cst_7, main_v40, main_v41, main_v42, main_v43, main_v44, main_v45]

/-- A buffer that stretch does not write holds after it what it held before. -/
theorem keep1 (X : 𝕍) (r : Ref sig .tc) (hr : r ∉ wr1) :
    StableHlo.after (hostOps1 (F := Ideal)) X (Proc.devRef .tc r) = X (Proc.devRef .tc r) :=
  StableHlo.after_of_writes_sub _ X (by
    simp only [hostOps1, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-- The buffers the host stretch `hostOps1_1` writes, in order. -/
def wr1_1 : List (Ref sig .tc) :=
  [main_call0_cst, main_call0_v0, main_v46]

/-- A buffer that stretch does not write holds after it what it held before. -/
theorem keep1_1 (X : 𝕍) (r : Ref sig .tc) (hr : r ∉ wr1_1) :
    StableHlo.after (hostOps1_1 (F := Ideal)) X (Proc.devRef .tc r) = X (Proc.devRef .tc r) :=
  StableHlo.after_of_writes_sub _ X (by
    simp only [hostOps1_1, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-- The buffers the host stretch `hostOps2` writes, in order. -/
def wr2 : List (Ref sig .tc) :=
  [main_c_8, main_v48, main_v49, main_c_9, main_v50, main_v51, main_v52, main_v53, main_v54, main_v55, main_v56,
   main_v57, main_cst_10, main_v58, main_v59, main_v60, main_v61, main_v62, main_v63]

/-- A buffer that stretch does not write holds after it what it held before. -/
theorem keep2 (X : 𝕍) (r : Ref sig .tc) (hr : r ∉ wr2) :
    StableHlo.after (hostOps2 (F := Ideal)) X (Proc.devRef .tc r) = X (Proc.devRef .tc r) :=
  StableHlo.after_of_writes_sub _ X (by
    simp only [hostOps2, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-- The buffers the host stretch `hostOps2_1` writes, in order. -/
def wr2_1 : List (Ref sig .tc) :=
  [main_call1_cst, main_call1_v0, main_v64]

/-- A buffer that stretch does not write holds after it what it held before. -/
theorem keep2_1 (X : 𝕍) (r : Ref sig .tc) (hr : r ∉ wr2_1) :
    StableHlo.after (hostOps2_1 (F := Ideal)) X (Proc.devRef .tc r) = X (Proc.devRef .tc r) :=
  StableHlo.after_of_writes_sub _ X (by
    simp only [hostOps2_1, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-- The buffers the host stretch `hostOps2_2` writes, in order. -/
def wr2_2 : List (Ref sig .tc) :=
  [main_call2_v0, main_call2_cst, main_call2_v1, main_call2_v2, main_v65]

/-- A buffer that stretch does not write holds after it what it held before. -/
theorem keep2_2 (X : 𝕍) (r : Ref sig .tc) (hr : r ∉ wr2_2) :
    StableHlo.after (hostOps2_2 (F := Ideal)) X (Proc.devRef .tc r) = X (Proc.devRef .tc r) :=
  StableHlo.after_of_writes_sub _ X (by
    simp only [hostOps2_2, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-- The buffers the host stretch `hostOps2_3` writes, in order. -/
def wr2_3 : List (Ref sig .tc) :=
  [main_cst_11, main_v66, main_v67, main_v68, main_v69, main_v70, main_v71, main_c_12, main_v72, main_v73, main_c_13,
   main_v74, main_v75, main_v76, main_v77, main_v78, main_v79, main_v80, main_c_14, main_v81, main_v82, main_c_15,
   main_v83, main_v84, main_v85, main_v86, main_v87, main_v88, main_v89, main_v90, main_v91]

/-- A buffer that stretch does not write holds after it what it held before. -/
theorem keep2_3 (X : 𝕍) (r : Ref sig .tc) (hr : r ∉ wr2_3) :
    StableHlo.after (hostOps2_3 (F := Ideal)) X (Proc.devRef .tc r) = X (Proc.devRef .tc r) :=
  StableHlo.after_of_writes_sub _ X (by
    simp only [hostOps2_3, List.Forall, StableHlo.nullary_writes, StableHlo.unary_writes, StableHlo.binary_writes, StableHlo.ternary_writes, StableHlo.reshape_writes]
    repeat' apply And.intro
    all_goals exact Finset.singleton_subset_iff.mpr (List.mem_toFinset.mpr (List.mem_map_of_mem (by decide)))) hr

/-! ## Each host stretch, one named stage at a time

Every lemma is about an arbitrary assignment `X` of contents to the buffers: the stretch's operations, applied to the
buffers they read, are the named stage of those contents. -/
theorem h0_v5 (X : 𝕍) (a1 : 𝔹[S2x1600000, .i32]) (h1 : X (Proc.devRef .tc main_arg1) = a1) :
    StableHlo.after (hostOps0 (F := Ideal)) X (Proc.devRef .tc main_v5) = Cert.Spec.src (F := Ideal) a1 := by
  subst h1; after_results_simp; all_goals rfl

theorem h0_v6 (X : 𝕍) (a1 : 𝔹[S2x1600000, .i32]) (h1 : X (Proc.devRef .tc main_arg1) = a1) :
    StableHlo.after (hostOps0 (F := Ideal)) X (Proc.devRef .tc main_v6) = Cert.Spec.dst (F := Ideal) a1 := by
  subst h1; after_results_simp; all_goals rfl

theorem h0_v28 (X : 𝕍) (a1 : 𝔹[S2x1600000, .i32]) (h1 : X (Proc.devRef .tc main_arg1) = a1) :
    StableHlo.after (hostOps0 (F := Ideal)) X (Proc.devRef .tc main_v28) = Cert.Spec.norm (F := Ideal) a1 := by
  subst h1; after_results_simp; all_goals rfl

theorem h1_v45 (X : 𝕍) (h : 𝔹[S100000x100, .f32]) (a1 : 𝔹[S2x1600000, .i32]) (b : 𝔹[S100, .f32])
    (h29 : X (Proc.devRef .tc main_v29) = h) (h5 : X (Proc.devRef .tc main_v5) = Cert.Spec.src (F := Ideal) a1)
    (h6 : X (Proc.devRef .tc main_v6) = Cert.Spec.dst (F := Ideal) a1) (h28 : X (Proc.devRef .tc main_v28) = Cert.Spec.norm (F := Ideal) a1)
    (hb : X (Proc.devRef .tc main_arg5) = b) :
    StableHlo.after (hostOps1 (F := Ideal)) X (Proc.devRef .tc main_v45) = pre100 (F := Ideal) h a1 b := by
  subst h29 hb; after_results_simp; rw [h5, h6, h28]; rfl

theorem h11_v46 (X : 𝕍) (x : 𝔹[S100000x100, .f32]) (h45 : X (Proc.devRef .tc main_v45) = x) :
    StableHlo.after (hostOps1_1 (F := Ideal)) X (Proc.devRef .tc main_v46) = relu100 (F := Ideal) x := by
  subst h45; after_results_simp; all_goals rfl

theorem h1_v46 (X : 𝕍) (h : 𝔹[S100000x100, .f32]) (a1 : 𝔹[S2x1600000, .i32]) (b : 𝔹[S100, .f32])
    (h29 : X (Proc.devRef .tc main_v29) = h) (h5 : X (Proc.devRef .tc main_v5) = Cert.Spec.src (F := Ideal) a1)
    (h6 : X (Proc.devRef .tc main_v6) = Cert.Spec.dst (F := Ideal) a1) (h28 : X (Proc.devRef .tc main_v28) = Cert.Spec.norm (F := Ideal) a1)
    (hb : X (Proc.devRef .tc main_arg5) = b) :
    StableHlo.after (hostOps1_1 (F := Ideal)) (StableHlo.after (hostOps1 (F := Ideal)) X) (Proc.devRef .tc main_v46)
      = Cert.Spec.layer100 (F := Ideal) h a1 b :=
  (h11_v46 _ _ (h1_v45 X h a1 b h29 h5 h6 h28 hb)).trans (layer100_eq h a1 b).symm

theorem h2_v63 (X : 𝕍) (h : 𝔹[S100000x16, .f32]) (a1 : 𝔹[S2x1600000, .i32]) (b : 𝔹[S16, .f32])
    (h47 : X (Proc.devRef .tc main_v47) = h) (h5 : X (Proc.devRef .tc main_v5) = Cert.Spec.src (F := Ideal) a1)
    (h6 : X (Proc.devRef .tc main_v6) = Cert.Spec.dst (F := Ideal) a1) (h28 : X (Proc.devRef .tc main_v28) = Cert.Spec.norm (F := Ideal) a1)
    (hb : X (Proc.devRef .tc main_arg7) = b) :
    StableHlo.after (hostOps2 (F := Ideal)) X (Proc.devRef .tc main_v63) = pre16 (F := Ideal) h a1 b := by
  subst h47 hb; after_results_simp; rw [h5, h6, h28]; rfl

theorem h21_v64 (X : 𝕍) (x : 𝔹[S100000x16, .f32]) (h63 : X (Proc.devRef .tc main_v63) = x) :
    StableHlo.after (hostOps2_1 (F := Ideal)) X (Proc.devRef .tc main_v64) = relu16 (F := Ideal) x := by
  subst h63; after_results_simp; all_goals rfl

theorem h2_v64 (X : 𝕍) (h : 𝔹[S100000x16, .f32]) (a1 : 𝔹[S2x1600000, .i32]) (b : 𝔹[S16, .f32])
    (h47 : X (Proc.devRef .tc main_v47) = h) (h5 : X (Proc.devRef .tc main_v5) = Cert.Spec.src (F := Ideal) a1)
    (h6 : X (Proc.devRef .tc main_v6) = Cert.Spec.dst (F := Ideal) a1) (h28 : X (Proc.devRef .tc main_v28) = Cert.Spec.norm (F := Ideal) a1)
    (hb : X (Proc.devRef .tc main_arg7) = b) :
    StableHlo.after (hostOps2_1 (F := Ideal)) (StableHlo.after (hostOps2 (F := Ideal)) X) (Proc.devRef .tc main_v64)
      = Cert.Spec.layer16 (F := Ideal) h a1 b :=
  (h21_v64 _ _ (h2_v63 X h a1 b h47 h5 h6 h28 hb)).trans (layer16_eq h a1 b).symm

theorem h23_v69 (Y : 𝕍) (x : 𝔹[S100000x16, .f32]) (h64 : Y (Proc.devRef .tc main_v64) = x) :
    StableHlo.after (hostOps2_3 (F := Ideal)) (StableHlo.after (hostOps2_2 (F := Ideal)) Y) (Proc.devRef .tc main_v69)
      = Cert.Spec.renorm (F := Ideal) x := by
  subst h64; after_results_simp; all_goals rfl

theorem h23_v78 (Y : 𝕍) (x : 𝔹[S100000x16, .f32]) (a2 : 𝔹[S1000000x2, .i32]) (h64 : Y (Proc.devRef .tc main_v64) = x)
    (h2 : Y (Proc.devRef .tc main_arg2) = a2) :
    StableHlo.after (hostOps2_3 (F := Ideal)) (StableHlo.after (hostOps2_2 (F := Ideal)) Y) (Proc.devRef .tc main_v78)
      = Cert.Spec.endIn (F := Ideal) a2 (Cert.Spec.renorm (F := Ideal) x) := by
  subst h64 h2; after_results_simp; all_goals rfl

theorem h23_v87 (Y : 𝕍) (x : 𝔹[S100000x16, .f32]) (a2 : 𝔹[S1000000x2, .i32]) (h64 : Y (Proc.devRef .tc main_v64) = x)
    (h2 : Y (Proc.devRef .tc main_arg2) = a2) :
    StableHlo.after (hostOps2_3 (F := Ideal)) (StableHlo.after (hostOps2_2 (F := Ideal)) Y) (Proc.devRef .tc main_v87)
      = Cert.Spec.endOut (F := Ideal) a2 (Cert.Spec.renorm (F := Ideal) x) := by
  subst h64 h2; after_results_simp; all_goals rfl

theorem h23_v88 (Y : 𝕍) (a8 : 𝔹[S41x25, .f32]) (h8 : Y (Proc.devRef .tc main_arg8) = a8) :
    StableHlo.after (hostOps2_3 (F := Ideal)) (StableHlo.after (hostOps2_2 (F := Ideal)) Y) (Proc.devRef .tc main_v88)
      = extractStridedSlice S16x25 ![0, 0] a8 slices_S41x25_S16x25_0_0 := by
  subst h8; after_results_simp; all_goals rfl

theorem h23_v89 (Y : 𝕍) (a8 : 𝔹[S41x25, .f32]) (h8 : Y (Proc.devRef .tc main_arg8) = a8) :
    StableHlo.after (hostOps2_3 (F := Ideal)) (StableHlo.after (hostOps2_2 (F := Ideal)) Y) (Proc.devRef .tc main_v89)
      = extractStridedSlice S25x25 ![16, 0] a8 slices_S41x25_S25x25_16_0 := by
  subst h8; after_results_simp; all_goals rfl

theorem h23_v90 (Y : 𝕍) (a9 : 𝔹[S25, .f32]) (h9 : Y (Proc.devRef .tc main_arg9) = a9) :
    StableHlo.after (hostOps2_3 (F := Ideal)) (StableHlo.after (hostOps2_2 (F := Ideal)) Y) (Proc.devRef .tc main_v90)
      = shapeCast S1x25 a9 shapeCasts_S25_S1x25 := by
  subst h9; after_results_simp; all_goals rfl

theorem h23_v91 (Y : 𝕍) (a11 : 𝔹[S1, .f32]) (h11 : Y (Proc.devRef .tc main_arg11) = a11) :
    StableHlo.after (hostOps2_3 (F := Ideal)) (StableHlo.after (hostOps2_2 (F := Ideal)) Y) (Proc.devRef .tc main_v91)
      = shapeCast S1x1 a11 shapeCasts_S1_S1x1 := by
  subst h11; after_results_simp; all_goals rfl

theorem h3_v93 (X : 𝕍) (x : 𝔹[S1000000x1, .f32]) (h92 : X (Proc.devRef .tc main_v92) = x) :
    StableHlo.after (hostOps3 (F := Ideal)) X (Proc.devRef .tc main_v93) = shapeCast S1000000 x shapeCasts_S1000000x1_S1000000 := by
  subst h92; after_results_simp; all_goals rfl

/-! ## The boundaries of the run, walked from the launch

`m` is the launch memory and `c` a core. A buffer that nothing has written up to a boundary holds its launch
contents there; the three index and weight vectors of the first stretch are carried unchanged to where the layers
read them; and every stage's buffer holds the named stage of the argument arrays. -/

section Walk

variable (m : (ℓ : Loc nD τ sig) → Buf (Elt Ideal) ℓ) (ρ : Dev nD → PrngReg) (c : Dev nD)

theorem at1 (r : Ref sig .tc) (h0 : r ∉ wr0) : W1 m ρ c (Proc.devRef .tc r) = m ((c : Thread nD τ).loc r) :=
  keep0 (W0 m ρ c) r h0

theorem at2 (r : Ref sig .tc) (h0 : r ∉ wr0) (hR0 : ∀ w, Pipeline.arrRef spec0 w ≠ r) :
    W2 m ρ c (Proc.devRef .tc r) = m ((c : Thread nD τ).loc r) :=
  (W2_of_ne m ρ c r hR0).trans (at1 m ρ c r h0)

theorem at4 (r : Ref sig .tc) (h0 : r ∉ wr0) (hR0 : ∀ w, Pipeline.arrRef spec0 w ≠ r) (h1 : r ∉ wr1) (h11 : r ∉ wr1_1) :
    W4 m ρ c (Proc.devRef .tc r) = m ((c : Thread nD τ).loc r) :=
  (keep1_1 (W3 m ρ c) r h11).trans ((keep1 (W2 m ρ c) r h1).trans (at2 m ρ c r h0 hR0))

theorem at5 (r : Ref sig .tc) (h0 : r ∉ wr0) (hR0 : ∀ w, Pipeline.arrRef spec0 w ≠ r) (h1 : r ∉ wr1) (h11 : r ∉ wr1_1)
    (hR1 : ∀ w, Pipeline.arrRef spec1 w ≠ r) : W5 m ρ c (Proc.devRef .tc r) = m ((c : Thread nD τ).loc r) :=
  (W5_of_ne m ρ c r hR1).trans (at4 m ρ c r h0 hR0 h1 h11)

theorem at7 (r : Ref sig .tc) (h0 : r ∉ wr0) (hR0 : ∀ w, Pipeline.arrRef spec0 w ≠ r) (h1 : r ∉ wr1) (h11 : r ∉ wr1_1)
    (hR1 : ∀ w, Pipeline.arrRef spec1 w ≠ r) (h2 : r ∉ wr2) (h21 : r ∉ wr2_1) :
    W7 m ρ c (Proc.devRef .tc r) = m ((c : Thread nD τ).loc r) :=
  (keep2_1 (W6 m ρ c) r h21).trans ((keep2 (W5 m ρ c) r h2).trans (at5 m ρ c r h0 hR0 h1 h11 hR1))

theorem at9 (r : Ref sig .tc) (h0 : r ∉ wr0) (hR0 : ∀ w, Pipeline.arrRef spec0 w ≠ r) (h1 : r ∉ wr1) (h11 : r ∉ wr1_1)
    (hR1 : ∀ w, Pipeline.arrRef spec1 w ≠ r) (h2 : r ∉ wr2) (h21 : r ∉ wr2_1) (h22 : r ∉ wr2_2) (h23 : r ∉ wr2_3) :
    W9 m ρ c (Proc.devRef .tc r) = m ((c : Thread nD τ).loc r) :=
  (keep2_3 (W8 m ρ c) r h23).trans ((keep2_2 (W7 m ρ c) r h22).trans (at7 m ρ c r h0 hR0 h1 h11 hR1 h2 h21))

/-- From the first region's entry to the second region's exit a buffer neither region owns and neither stretch
    between them writes is unchanged. -/
theorem carry5 (r : Ref sig .tc) (hR0 : ∀ w, Pipeline.arrRef spec0 w ≠ r) (h1 : r ∉ wr1) (h11 : r ∉ wr1_1)
    (hR1 : ∀ w, Pipeline.arrRef spec1 w ≠ r) : W5 m ρ c (Proc.devRef .tc r) = W1 m ρ c (Proc.devRef .tc r) :=
  (W5_of_ne m ρ c r hR1).trans ((keep1_1 (W3 m ρ c) r h11).trans ((keep1 (W2 m ρ c) r h1).trans (W2_of_ne m ρ c r hR0)))

/-! ### The first stretch: the edge ends and the edge weights -/

theorem B1_v5 : W1 m ρ c (Proc.devRef .tc main_v5) = Cert.Spec.src (F := Ideal) (m ((c : Thread nD τ).loc main_arg1)) := h0_v5 (W0 m ρ c) _ rfl
theorem B1_v6 : W1 m ρ c (Proc.devRef .tc main_v6) = Cert.Spec.dst (F := Ideal) (m ((c : Thread nD τ).loc main_arg1)) := h0_v6 (W0 m ρ c) _ rfl
theorem B1_v28 : W1 m ρ c (Proc.devRef .tc main_v28) = Cert.Spec.norm (F := Ideal) (m ((c : Thread nD τ).loc main_arg1)) := h0_v28 (W0 m ρ c) _ rfl

/-! ### The first layer -/

theorem B2_v29 : W2 m ρ c (Proc.devRef .tc main_v29) = (Cert.Spec.mm (A := 100000) (K := 256) (B := 100) (m ((c : Thread nD τ).loc main_arg0)) (m ((c : Thread nD τ).loc main_arg4))) :=
  (W2_arr m ρ c 2).trans ((Region0.final (V1 m ρ) c).trans
    (congrArg₂ (Cert.Spec.mm (A := 100000) (K := 256) (B := 100)) (at1 m ρ c main_arg0 (by decide)) (at1 m ρ c main_arg4 (by decide))))

theorem B4_v46 : W4 m ρ c (Proc.devRef .tc main_v46) = (Cert.Spec.layer100 (F := Ideal) (Cert.Spec.mm (A := 100000) (K := 256) (B := 100) (m ((c : Thread nD τ).loc main_arg0)) (m ((c : Thread nD τ).loc main_arg4))) (m ((c : Thread nD τ).loc main_arg1)) (m ((c : Thread nD τ).loc main_arg5))) :=
  h1_v46 (W2 m ρ c) _ _ _ (B2_v29 m ρ c)
    ((W2_of_ne m ρ c main_v5 (by decide)).trans (B1_v5 m ρ c))
    ((W2_of_ne m ρ c main_v6 (by decide)).trans (B1_v6 m ρ c))
    ((W2_of_ne m ρ c main_v28 (by decide)).trans (B1_v28 m ρ c))
    (at2 m ρ c main_arg5 (by decide) (by decide))

/-! ### The second layer -/

theorem B5_v47 : W5 m ρ c (Proc.devRef .tc main_v47) = (Cert.Spec.mm (A := 100000) (K := 100) (B := 16) (Cert.Spec.layer100 (F := Ideal) (Cert.Spec.mm (A := 100000) (K := 256) (B := 100) (m ((c : Thread nD τ).loc main_arg0)) (m ((c : Thread nD τ).loc main_arg4))) (m ((c : Thread nD τ).loc main_arg1)) (m ((c : Thread nD τ).loc main_arg5))) (m ((c : Thread nD τ).loc main_arg6))) :=
  (W5_arr m ρ c 2).trans ((Region1.final (V4 m ρ) c).trans
    (congrArg₂ (Cert.Spec.mm (A := 100000) (K := 100) (B := 16)) (B4_v46 m ρ c) (at4 m ρ c main_arg6 (by decide) (by decide) (by decide) (by decide))))

theorem B7_v64 : W7 m ρ c (Proc.devRef .tc main_v64) = (Cert.Spec.layer16 (F := Ideal) (Cert.Spec.mm (A := 100000) (K := 100) (B := 16) (Cert.Spec.layer100 (F := Ideal) (Cert.Spec.mm (A := 100000) (K := 256) (B := 100) (m ((c : Thread nD τ).loc main_arg0)) (m ((c : Thread nD τ).loc main_arg4))) (m ((c : Thread nD τ).loc main_arg1)) (m ((c : Thread nD τ).loc main_arg5))) (m ((c : Thread nD τ).loc main_arg6))) (m ((c : Thread nD τ).loc main_arg1)) (m ((c : Thread nD τ).loc main_arg7))) :=
  h2_v64 (W5 m ρ c) _ _ _ (B5_v47 m ρ c)
    ((carry5 m ρ c main_v5 (by decide) (by decide) (by decide) (by decide)).trans (B1_v5 m ρ c))
    ((carry5 m ρ c main_v6 (by decide) (by decide) (by decide) (by decide)).trans (B1_v6 m ρ c))
    ((carry5 m ρ c main_v28 (by decide) (by decide) (by decide) (by decide)).trans (B1_v28 m ρ c))
    (at5 m ρ c main_arg7 (by decide) (by decide) (by decide) (by decide) (by decide))

/-! ### The embeddings and what the decoder is entered with -/

/-- The embeddings as the tiled program forms them: both products as plain sums. -/
abbrev emb : 𝔹[S100000x16, .f32] :=
  Cert.Spec.embed (F := Ideal) (Cert.Spec.mm (A := 100000) (K := 256) (B := 100) (m ((c : Thread nD τ).loc main_arg0)) (m ((c : Thread nD τ).loc main_arg4))) (fun h => Cert.Spec.mm (A := 100000) (K := 100) (B := 16) h (m ((c : Thread nD τ).loc main_arg6))) (m ((c : Thread nD τ).loc main_arg1)) (m ((c : Thread nD τ).loc main_arg5)) (m ((c : Thread nD τ).loc main_arg7))

theorem B9_v78 : W9 m ρ c (Proc.devRef .tc main_v78) = Cert.Spec.endIn (F := Ideal) (m ((c : Thread nD τ).loc main_arg2)) (emb m c) :=
  h23_v78 (W7 m ρ c) _ _ (B7_v64 m ρ c) (at7 m ρ c main_arg2 (by decide) (by decide) (by decide) (by decide) (by decide) (by decide) (by decide))
theorem B9_v87 : W9 m ρ c (Proc.devRef .tc main_v87) = Cert.Spec.endOut (F := Ideal) (m ((c : Thread nD τ).loc main_arg2)) (emb m c) :=
  h23_v87 (W7 m ρ c) _ _ (B7_v64 m ρ c) (at7 m ρ c main_arg2 (by decide) (by decide) (by decide) (by decide) (by decide) (by decide) (by decide))
theorem B9_v88 : W9 m ρ c (Proc.devRef .tc main_v88) = extractStridedSlice S16x25 ![0, 0] (m ((c : Thread nD τ).loc main_arg8)) slices_S41x25_S16x25_0_0 :=
  h23_v88 (W7 m ρ c) _ (at7 m ρ c main_arg8 (by decide) (by decide) (by decide) (by decide) (by decide) (by decide) (by decide))
theorem B9_v89 : W9 m ρ c (Proc.devRef .tc main_v89) = extractStridedSlice S25x25 ![16, 0] (m ((c : Thread nD τ).loc main_arg8)) slices_S41x25_S25x25_16_0 :=
  h23_v89 (W7 m ρ c) _ (at7 m ρ c main_arg8 (by decide) (by decide) (by decide) (by decide) (by decide) (by decide) (by decide))
theorem B9_v90 : W9 m ρ c (Proc.devRef .tc main_v90) = shapeCast S1x25 (m ((c : Thread nD τ).loc main_arg9)) shapeCasts_S25_S1x25 :=
  h23_v90 (W7 m ρ c) _ (at7 m ρ c main_arg9 (by decide) (by decide) (by decide) (by decide) (by decide) (by decide) (by decide))
theorem B9_v91 : W9 m ρ c (Proc.devRef .tc main_v91) = shapeCast S1x1 (m ((c : Thread nD τ).loc main_arg11)) shapeCasts_S1_S1x1 :=
  h23_v91 (W7 m ρ c) _ (at7 m ρ c main_arg11 (by decide) (by decide) (by decide) (by decide) (by decide) (by decide) (by decide))

/-! ### The decoder and the result -/

theorem decodeK_congr {e1 e1' o1 o1' : FVec Ideal S1000000x16 .f32} {p p' : FVec Ideal S1000000x25 .f32}
    {wa wa' : FVec Ideal S16x25 .f32} {wb wb' : FVec Ideal S25x25 .f32} {b1 b1' : FVec Ideal S1x25 .f32}
    {w2 w2' : FVec Ideal S25x1 .f32} {b2 b2' : FVec Ideal S1x1 .f32}
    (h1 : e1 = e1') (h2 : o1 = o1') (h3 : p = p') (h4 : wa = wa') (h5 : wb = wb') (h6 : b1 = b1') (h7 : w2 = w2') (h8 : b2 = b2') :
    Cert.Spec.decodeK e1 o1 p wa wb b1 w2 b2 = Cert.Spec.decodeK e1' o1' p' wa' wb' b1' w2' b2' := by
  subst h1 h2 h3 h4 h5 h6 h7 h8; rfl

theorem B10_v92 : W10 m ρ c (Proc.devRef .tc main_v92)
    = Cert.Spec.decodeK (Cert.Spec.endIn (F := Ideal) (m ((c : Thread nD τ).loc main_arg2)) (emb m c)) (Cert.Spec.endOut (F := Ideal) (m ((c : Thread nD τ).loc main_arg2)) (emb m c)) (m ((c : Thread nD τ).loc main_arg3))
        (extractStridedSlice S16x25 ![0, 0] (m ((c : Thread nD τ).loc main_arg8)) slices_S41x25_S16x25_0_0)
        (extractStridedSlice S25x25 ![16, 0] (m ((c : Thread nD τ).loc main_arg8)) slices_S41x25_S25x25_16_0)
        (shapeCast S1x25 (m ((c : Thread nD τ).loc main_arg9)) shapeCasts_S25_S1x25) (m ((c : Thread nD τ).loc main_arg10)) (shapeCast S1x1 (m ((c : Thread nD τ).loc main_arg11)) shapeCasts_S1_S1x1) :=
  (W10_arr m ρ c 8).trans ((Region2.final (V9 m ρ) c).trans
    (decodeK_congr (B9_v78 m ρ c) (B9_v87 m ρ c) (at9 m ρ c main_arg3 (by decide) (by decide) (by decide) (by decide) (by decide) (by decide) (by decide) (by decide) (by decide)) (B9_v88 m ρ c) (B9_v89 m ρ c)
      (B9_v90 m ρ c) (at9 m ρ c main_arg10 (by decide) (by decide) (by decide) (by decide) (by decide) (by decide) (by decide) (by decide) (by decide)) (B9_v91 m ρ c)))

/-- The result buffer at the last boundary: the tiled program's value of the argument arrays. -/
theorem value : W11 m ρ c (Proc.devRef .tc main_v93)
    = Cert.Spec.Kfun (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  h3_v93 (W10 m ρ c) _ (B10_v92 m ρ c)

end Walk

/-! ## The run -/

/-- The tiled program runs, ends with its result at Kfun of the argument arrays, and leaves the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v93) = Cert.Spec.Kfun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (value m ρ c), (h c).2⟩) (KRun.run_v93 (F := Ideal) m ρ)

end Cert.KernelIdeal.KValue

end
-- ==== Proof.RRun.lean ====
/-
  The plain program as one straight line, and its run.

  The plain program's @main is 167 statements in three windows; five of them call an outlined function (a clamp at
  zero on [100000, 100] and on [100000, 16], the row lengths of a [100000, 16] matrix, the slope-0.2 leaky clamp —
  which itself calls a select —, and a clamp to an interval), and a call means the callee's operations on the call's
  own buffers.  Written out, the windows are lists of 62, 66 and 58 whole-array operations.  Here: each window is the
  straight line of its list, so @main is the straight line of the three lists in a row; every operation touches
  device buffers only and determines its result; hence every fair execution from any memory ends with every buffer at
  the fold of the 186 operations' results over the memory it started from.
-/
import proofs.«168514_j41807211659639_2_alg».proof.Proof.Gen.ReferenceIdeal
import Idealize.ShloMosaic.Lib.StableHlo.Run

noncomputable section

namespace Cert.ReferenceIdeal.RRun

open Cert.ReferenceIdeal Cert.ReferenceIdeal.Facts₀ Idealize.ShloMosaic Idealize.ShloMosaic.TcCoe Idealize.SL.Sem Idealize.ShloMosaic.StableHlo

variable {F : FTy → Type} [FloatOps F]

/-- The first window's 62 operations, in order (the clamp at zero's three at its call). -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg4 main_v4 ((fun l r => Host.dotGeneral dot_S100000x256_S256x100_S100000x100_1_0_0_1_n_n none l r) : (⟨S100000x256, .f32⟩ : BufTy).Contents (Elt F) → (⟨S256x100, .f32⟩ : BufTy).Contents (Elt F) → (⟨S100000x100, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x3F800000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.unary main_v13 main_v14 (Host.rsqrt : (⟨S100000, .f32⟩ : BufTy).Contents (Elt F) → (⟨S100000, .f32⟩ : BufTy).Contents (Elt F)),
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v6 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_2 (constantI S_ 32 100000#32),
    StableHlo.unary main_c_2 main_v17 (broadcastInDim S1700000 ![] bcast_S_S1700000 : (⟨S_, .i32⟩ : BufTy).Contents (Elt F) → (⟨S1700000, .i32⟩ : BufTy).Contents (Elt F)),
    StableHlo.binary main_v6 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v6 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_3 (constantI S_ 32 0#32),
    StableHlo.unary main_c_3 main_v22 (broadcastInDim S1700000 ![] bcast_S_S1700000 : (⟨S_, .i32⟩ : BufTy).Contents (Elt F) → (⟨S1700000, .i32⟩ : BufTy).Contents (Elt F)),
    StableHlo.binary main_v7 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v7 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v7 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v6 main_v30 main_v31 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v6 main_v32 main_v33 (addi : (⟨S1700000, .i32⟩ : BufTy).Contents (Elt F) → (⟨S1700000, .i32⟩ : BufTy).Contents (Elt F) → (⟨S1700000, .i32⟩ : BufTy).Contents (Elt F)),
    StableHlo.ternary main_v31 main_v33 main_v6 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v34 main_v35 (broadcastInDim S1700000x1 ![0] bcast_S1700000_S1700000x1_0 : (⟨S1700000, .i32⟩ : BufTy).Contents (Elt F) → (⟨S1700000x1, .i32⟩ : BufTy).Contents (Elt F)),
    StableHlo.binary main_v4 main_v35 main_v36 ((fun x i => Host.gather gather_S100000x100_S1700000x1_S1700000x100_1_0_n_n_0_1_1100 x i) : (⟨S100000x100, .f32⟩ : BufTy).Contents (Elt F) → (⟨S1700000x1, .i32⟩ : BufTy).Contents (Elt F) → (⟨S1700000x100, .f32⟩ : BufTy).Contents (Elt F)),
    StableHlo.unary main_v29 main_v37 (broadcastInDim S1700000x1 ![0] bcast_S1700000_S1700000x1_0 : (⟨S1700000, .f32⟩ : BufTy).Contents (Elt F) → (⟨S1700000x1, .f32⟩ : BufTy).Contents (Elt F)),
    StableHlo.unary main_v37 main_v38 (broadcastInDim S1700000x100 ![0, 1] bcast_S1700000x1_S1700000x100_0_1 : (⟨S1700000x1, .f32⟩ : BufTy).Contents (Elt F) → (⟨S1700000x100, .f32⟩ : BufTy).Contents (Elt F)),
    StableHlo.binary main_v36 main_v38 main_v39 (mulf : (⟨S1700000x100, .f32⟩ : BufTy).Contents (Elt F) → (⟨S1700000x100, .f32⟩ : BufTy).Contents (Elt F) → (⟨S1700000x100, .f32⟩ : BufTy).Contents (Elt F)),
    StableHlo.nullary main_cst_7 (constant S_ .f32 0x00000000#32),
    StableHlo.unary main_cst_7 main_v40 (broadcastInDim S100000x100 ![] bcast_S_S100000x100 : (⟨S_, .f32⟩ : BufTy).Contents (Elt F) → (⟨S100000x100, .f32⟩ : BufTy).Contents (Elt F)),
    StableHlo.unary main_v7 main_v41 (broadcastInDim S1700000x1 ![0] bcast_S1700000_S1700000x1_0 : (⟨S1700000, .i32⟩ : BufTy).Contents (Elt F) → (⟨S1700000x1, .i32⟩ : BufTy).Contents (Elt F)),
    StableHlo.ternary main_v40 main_v41 main_v39 main_v42 ((fun x i u => Host.scatterAdd scatter_S100000x100_S1700000x1_S1700000x100_1_0_0_1 x i u) : (⟨S100000x100, .f32⟩ : BufTy).Contents (Elt F) → (⟨S1700000x1, .i32⟩ : BufTy).Contents (Elt F) → (⟨S1700000x100, .f32⟩ : BufTy).Contents (Elt F) → (⟨S100000x100, .f32⟩ : BufTy).Contents (Elt F)),
    StableHlo.unary main_arg5 main_v43 (broadcastInDim S1x100 ![1] bcast_S100_S1x100_1 : (⟨S100, .f32⟩ : BufTy).Contents (Elt F) → (⟨S1x100, .f32⟩ : BufTy).Contents (Elt F)),
    StableHlo.unary main_v43 main_v44 (broadcastInDim S100000x100 ![0, 1] bcast_S1x100_S100000x100_0_1 : (⟨S1x100, .f32⟩ : BufTy).Contents (Elt F) → (⟨S100000x100, .f32⟩ : BufTy).Contents (Elt F)),
    StableHlo.binary main_v42 main_v44 main_v45 (addf : (⟨S100000x100, .f32⟩ : BufTy).Contents (Elt F) → (⟨S100000x100, .f32⟩ : BufTy).Contents (Elt F) → (⟨S100000x100, .f32⟩ : BufTy).Contents (Elt F)),
    StableHlo.nullary main_call0_cst (constant S_ .f32 0x00000000#32),
    StableHlo.unary main_call0_cst main_call0_v0 (broadcastInDim S100000x100 ![] bcast_S_S100000x100 : (⟨S_, .f32⟩ : BufTy).Contents (Elt F) → (⟨S100000x100, .f32⟩ : BufTy).Contents (Elt F)),
    StableHlo.binary main_v45 main_call0_v0 main_v46 (maximumf : (⟨S100000x100, .f32⟩ : BufTy).Contents (Elt F) → (⟨S100000x100, .f32⟩ : BufTy).Contents (Elt F) → (⟨S100000x100, .f32⟩ : BufTy).Contents (Elt F)),
    StableHlo.binary main_v46 main_arg6 main_v47 ((fun l r => Host.dotGeneral dot_S100000x100_S100x16_S100000x16_1_0_0_1_n_n none l r) : (⟨S100000x100, .f32⟩ : BufTy).Contents (Elt F) → (⟨S100x16, .f32⟩ : BufTy).Contents (Elt F) → (⟨S100000x16, .f32⟩ : BufTy).Contents (Elt F)),
    StableHlo.nullary main_v48 (iotaInDim S100000 32 0),
    StableHlo.binary main_v1 main_v48 main_v49 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The second window's 66 operations, in order (the second clamp's three and the row lengths' five at their calls). -/
abbrev ops1 : List (HloOp τ sig (Elt F)) :=
  [ StableHlo.binary main_v3 main_v48 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_8 (constant S_ .f32 0x3F800000#32),
    StableHlo.unary main_cst_8 main_v51 (broadcastInDim S1700000 ![] bcast_S_S1700000 : (⟨S_, .f32⟩ : BufTy).Contents (Elt F) → (⟨S1700000, .f32⟩ : BufTy).Contents (Elt F)),
    StableHlo.nullary main_cst_9 (constant S_ .f32 0x00000000#32),
    StableHlo.unary main_cst_9 main_v52 (broadcastInDim S100000 ![] bcast_S_S100000 : (⟨S_, .f32⟩ : BufTy).Contents (Elt F) → (⟨S100000, .f32⟩ : BufTy).Contents (Elt F)),
    StableHlo.unary main_v50 main_v53 (broadcastInDim S1700000x1 ![0] bcast_S1700000_S1700000x1_0 : (⟨S1700000, .i32⟩ : BufTy).Contents (Elt F) → (⟨S1700000x1, .i32⟩ : BufTy).Contents (Elt F)),
    StableHlo.ternary main_v52 main_v53 main_v51 main_v54 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_10 (constant S_ .f32 0x3F800000#32),
    StableHlo.unary main_cst_10 main_v55 (broadcastInDim S100000 ![] bcast_S_S100000 : (⟨S_, .f32⟩ : BufTy).Contents (Elt F) → (⟨S100000, .f32⟩ : BufTy).Contents (Elt F)),
    StableHlo.binary main_v54 main_v55 main_v56 (maximumf : (⟨S100000, .f32⟩ : BufTy).Contents (Elt F) → (⟨S100000, .f32⟩ : BufTy).Contents (Elt F) → (⟨S100000, .f32⟩ : BufTy).Contents (Elt F)),
    StableHlo.unary main_v56 main_v57 (Host.rsqrt : (⟨S100000, .f32⟩ : BufTy).Contents (Elt F) → (⟨S100000, .f32⟩ : BufTy).Contents (Elt F)),
    StableHlo.nullary main_c_11 (constantI S_ 32 0#32),
    StableHlo.unary main_c_11 main_v58 (broadcastInDim S1700000 ![] bcast_S_S1700000 : (⟨S_, .i32⟩ : BufTy).Contents (Elt F) → (⟨S1700000, .i32⟩ : BufTy).Contents (Elt F)),
    StableHlo.binary main_v49 main_v58 main_v59 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v60 (broadcastInDim S1700000 ![] bcast_S_S1700000 : (⟨S_, .i32⟩ : BufTy).Contents (Elt F) → (⟨S1700000, .i32⟩ : BufTy).Contents (Elt F)),
    StableHlo.binary main_v49 main_v60 main_v61 (addi : (⟨S1700000, .i32⟩ : BufTy).Contents (Elt F) → (⟨S1700000, .i32⟩ : BufTy).Contents (Elt F) → (⟨S1700000, .i32⟩ : BufTy).Contents (Elt F)),
    StableHlo.ternary main_v59 main_v61 main_v49 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v62 main_v63 (broadcastInDim S1700000x1 ![0] bcast_S1700000_S1700000x1_0 : (⟨S1700000, .i32⟩ : BufTy).Contents (Elt F) → (⟨S1700000x1, .i32⟩ : BufTy).Contents (Elt F)),
    StableHlo.binary main_v57 main_v63 main_v64 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_13 (constantI S_ 32 0#32),
    StableHlo.unary main_c_13 main_v65 (broadcastInDim S1700000 ![] bcast_S_S1700000 : (⟨S_, .i32⟩ : BufTy).Contents (Elt F) → (⟨S1700000, .i32⟩ : BufTy).Contents (Elt F)),
    StableHlo.binary main_v50 main_v65 main_v66 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v67 (broadcastInDim S1700000 ![] bcast_S_S1700000 : (⟨S_, .i32⟩ : BufTy).Contents (Elt F) → (⟨S1700000, .i32⟩ : BufTy).Contents (Elt F)),
    StableHlo.binary main_v50 main_v67 main_v68 (addi : (⟨S1700000, .i32⟩ : BufTy).Contents (Elt F) → (⟨S1700000, .i32⟩ : BufTy).Contents (Elt F) → (⟨S1700000, .i32⟩ : BufTy).Contents (Elt F)),
    StableHlo.ternary main_v66 main_v68 main_v50 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v69 main_v70 (broadcastInDim S1700000x1 ![0] bcast_S1700000_S1700000x1_0 : (⟨S1700000, .i32⟩ : BufTy).Contents (Elt F) → (⟨S1700000x1, .i32⟩ : BufTy).Contents (Elt F)),
    StableHlo.binary main_v57 main_v70 main_v71 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v64 main_v71 main_v72 (mulf : (⟨S1700000, .f32⟩ : BufTy).Contents (Elt F) → (⟨S1700000, .f32⟩ : BufTy).Contents (Elt F) → (⟨S1700000, .f32⟩ : BufTy).Contents (Elt F)),
    StableHlo.nullary main_c_15 (constantI S_ 32 0#32),
    StableHlo.unary main_c_15 main_v73 (broadcastInDim S1700000 ![] bcast_S_S1700000 : (⟨S_, .i32⟩ : BufTy).Contents (Elt F) → (⟨S1700000, .i32⟩ : BufTy).Contents (Elt F)),
    StableHlo.binary main_v49 main_v73 main_v74 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v75 (broadcastInDim S1700000 ![] bcast_S_S1700000 : (⟨S_, .i32⟩ : BufTy).Contents (Elt F) → (⟨S1700000, .i32⟩ : BufTy).Contents (Elt F)),
    StableHlo.binary main_v49 main_v75 main_v76 (addi : (⟨S1700000, .i32⟩ : BufTy).Contents (Elt F) → (⟨S1700000, .i32⟩ : BufTy).Contents (Elt F) → (⟨S1700000, .i32⟩ : BufTy).Contents (Elt F)),
    StableHlo.ternary main_v74 main_v76 main_v49 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v77 main_v78 (broadcastInDim S1700000x1 ![0] bcast_S1700000_S1700000x1_0 : (⟨S1700000, .i32⟩ : BufTy).Contents (Elt F) → (⟨S1700000x1, .i32⟩ : BufTy).Contents (Elt F)),
    StableHlo.binary main_v47 main_v78 main_v79 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    StableHlo.unary main_v72 main_v80 (broadcastInDim S1700000x1 ![0] bcast_S1700000_S1700000x1_0 : (⟨S1700000, .f32⟩ : BufTy).Contents (Elt F) → (⟨S1700000x1, .f32⟩ : BufTy).Contents (Elt F)),
    StableHlo.unary main_v80 main_v81 (broadcastInDim S1700000x16 ![0, 1] bcast_S1700000x1_S1700000x16_0_1 : (⟨S1700000x1, .f32⟩ : BufTy).Contents (Elt F) → (⟨S1700000x16, .f32⟩ : BufTy).Contents (Elt F)),
    StableHlo.binary main_v79 main_v81 main_v82 (mulf : (⟨S1700000x16, .f32⟩ : BufTy).Contents (Elt F) → (⟨S1700000x16, .f32⟩ : BufTy).Contents (Elt F) → (⟨S1700000x16, .f32⟩ : BufTy).Contents (Elt F)),
    StableHlo.nullary main_cst_17 (constant S_ .f32 0x00000000#32),
    StableHlo.unary main_cst_17 main_v83 (broadcastInDim S100000x16 ![] bcast_S_S100000x16 : (⟨S_, .f32⟩ : BufTy).Contents (Elt F) → (⟨S100000x16, .f32⟩ : BufTy).Contents (Elt F)),
    StableHlo.unary main_v50 main_v84 (broadcastInDim S1700000x1 ![0] bcast_S1700000_S1700000x1_0 : (⟨S1700000, .i32⟩ : BufTy).Contents (Elt F) → (⟨S1700000x1, .i32⟩ : BufTy).Contents (Elt F)),
    StableHlo.ternary main_v83 main_v84 main_v82 main_v85 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    StableHlo.unary main_arg7 main_v86 (broadcastInDim S1x16 ![1] bcast_S16_S1x16_1 : (⟨S16, .f32⟩ : BufTy).Contents (Elt F) → (⟨S1x16, .f32⟩ : BufTy).Contents (Elt F)),
    StableHlo.unary main_v86 main_v87 (broadcastInDim S100000x16 ![0, 1] bcast_S1x16_S100000x16_0_1 : (⟨S1x16, .f32⟩ : BufTy).Contents (Elt F) → (⟨S100000x16, .f32⟩ : BufTy).Contents (Elt F)),
    StableHlo.binary main_v85 main_v87 main_v88 (addf : (⟨S100000x16, .f32⟩ : BufTy).Contents (Elt F) → (⟨S100000x16, .f32⟩ : BufTy).Contents (Elt F) → (⟨S100000x16, .f32⟩ : BufTy).Contents (Elt F)),
    StableHlo.nullary main_call1_cst (constant S_ .f32 0x00000000#32),
    StableHlo.unary main_call1_cst main_call1_v0 (broadcastInDim S100000x16 ![] bcast_S_S100000x16 : (⟨S_, .f32⟩ : BufTy).Contents (Elt F) → (⟨S100000x16, .f32⟩ : BufTy).Contents (Elt F)),
    StableHlo.binary main_v88 main_call1_v0 main_v89 (maximumf : (⟨S100000x16, .f32⟩ : BufTy).Contents (Elt F) → (⟨S100000x16, .f32⟩ : BufTy).Contents (Elt F) → (⟨S100000x16, .f32⟩ : BufTy).Contents (Elt F)),
    StableHlo.binary main_v89 main_v89 main_call2_v0 (mulf : (⟨S100000x16, .f32⟩ : BufTy).Contents (Elt F) → (⟨S100000x16, .f32⟩ : BufTy).Contents (Elt F) → (⟨S100000x16, .f32⟩ : BufTy).Contents (Elt F)),
    StableHlo.nullary main_call2_cst (constant S_ .f32 0x00000000#32),
    StableHlo.binary main_call2_v0 main_call2_cst main_call2_v1 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    StableHlo.unary main_call2_v1 main_call2_v2 (broadcastInDim S100000x1 ![0] bcast_S100000_S100000x1_0 : (⟨S100000, .f32⟩ : BufTy).Contents (Elt F) → (⟨S100000x1, .f32⟩ : BufTy).Contents (Elt F)),
    StableHlo.unary main_call2_v2 main_v90 (Host.sqrt : (⟨S100000x1, .f32⟩ : BufTy).Contents (Elt F) → (⟨S100000x1, .f32⟩ : BufTy).Contents (Elt F)),
    StableHlo.nullary main_cst_18 (constant S_ .f32 0x3F800000#32),
    StableHlo.unary main_cst_18 main_v91 (broadcastInDim S100000x1 ![] bcast_S_S100000x1 : (⟨S_, .f32⟩ : BufTy).Contents (Elt F) → (⟨S100000x1, .f32⟩ : BufTy).Contents (Elt F)),
    StableHlo.binary main_v90 main_v91 main_v92 (maximumf : (⟨S100000x1, .f32⟩ : BufTy).Contents (Elt F) → (⟨S100000x1, .f32⟩ : BufTy).Contents (Elt F) → (⟨S100000x1, .f32⟩ : BufTy).Contents (Elt F)),
    StableHlo.unary main_v92 main_v93 (broadcastInDim S100000x16 ![0, 1] bcast_S100000x1_S100000x16_0_1 : (⟨S100000x1, .f32⟩ : BufTy).Contents (Elt F) → (⟨S100000x16, .f32⟩ : BufTy).Contents (Elt F)),
    StableHlo.binary main_v89 main_v93 main_v94 (Host.divf : (⟨S100000x16, .f32⟩ : BufTy).Contents (Elt F) → (⟨S100000x16, .f32⟩ : BufTy).Contents (Elt F) → (⟨S100000x16, .f32⟩ : BufTy).Contents (Elt F)),
    StableHlo.unary main_arg2 main_v95 ((extractStridedSlice S1000000x1 ![0, 0] · slices_S1000000x2_S1000000x1_0_0) : (⟨S1000000x2, .i32⟩ : BufTy).Contents (Elt F) → (⟨S1000000x1, .i32⟩ : BufTy).Contents (Elt F)),
    StableHlo.reshape main_v95 main_v96 rfl shapeCasts_S1000000x1_S1000000,
    StableHlo.nullary main_c_19 (constantI S_ 32 0#32),
    StableHlo.unary main_c_19 main_v97 (broadcastInDim S1000000 ![] bcast_S_S1000000 : (⟨S_, .i32⟩ : BufTy).Contents (Elt F) → (⟨S1000000, .i32⟩ : BufTy).Contents (Elt F)) ]

/-- The third window's 58 operations, in order (the leaky clamp's seven and the interval clamp's six at their calls). -/
abbrev ops2 : List (HloOp τ sig (Elt F)) :=
  [ StableHlo.binary main_v96 main_v97 main_v98 (cmpi .slt : (⟨S1000000, .i32⟩ : BufTy).Contents (Elt F) → (⟨S1000000, .i32⟩ : BufTy).Contents (Elt F) → (⟨S1000000, .i1⟩ : BufTy).Contents (Elt F)),
    StableHlo.nullary main_c_20 (constantI S_ 32 100000#32),
    StableHlo.unary main_c_20 main_v99 (broadcastInDim S1000000 ![] bcast_S_S1000000 : (⟨S_, .i32⟩ : BufTy).Contents (Elt F) → (⟨S1000000, .i32⟩ : BufTy).Contents (Elt F)),
    StableHlo.binary main_v96 main_v99 main_v100 (addi : (⟨S1000000, .i32⟩ : BufTy).Contents (Elt F) → (⟨S1000000, .i32⟩ : BufTy).Contents (Elt F) → (⟨S1000000, .i32⟩ : BufTy).Contents (Elt F)),
    StableHlo.ternary main_v98 main_v100 main_v96 main_v101 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v101 main_v102 (broadcastInDim S1000000x1 ![0] bcast_S1000000_S1000000x1_0 : (⟨S1000000, .i32⟩ : BufTy).Contents (Elt F) → (⟨S1000000x1, .i32⟩ : BufTy).Contents (Elt F)),
    StableHlo.binary main_v94 main_v102 main_v103 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.unary main_arg2 main_v104 ((extractStridedSlice S1000000x1 ![0, 1] · slices_S1000000x2_S1000000x1_0_1) : (⟨S1000000x2, .i32⟩ : BufTy).Contents (Elt F) → (⟨S1000000x1, .i32⟩ : BufTy).Contents (Elt F)),
    StableHlo.reshape main_v104 main_v105 rfl shapeCasts_S1000000x1_S1000000,
    StableHlo.nullary main_c_21 (constantI S_ 32 0#32),
    StableHlo.unary main_c_21 main_v106 (broadcastInDim S1000000 ![] bcast_S_S1000000 : (⟨S_, .i32⟩ : BufTy).Contents (Elt F) → (⟨S1000000, .i32⟩ : BufTy).Contents (Elt F)),
    StableHlo.binary main_v105 main_v106 main_v107 (cmpi .slt : (⟨S1000000, .i32⟩ : BufTy).Contents (Elt F) → (⟨S1000000, .i32⟩ : BufTy).Contents (Elt F) → (⟨S1000000, .i1⟩ : BufTy).Contents (Elt F)),
    StableHlo.nullary main_c_22 (constantI S_ 32 100000#32),
    StableHlo.unary main_c_22 main_v108 (broadcastInDim S1000000 ![] bcast_S_S1000000 : (⟨S_, .i32⟩ : BufTy).Contents (Elt F) → (⟨S1000000, .i32⟩ : BufTy).Contents (Elt F)),
    StableHlo.binary main_v105 main_v108 main_v109 (addi : (⟨S1000000, .i32⟩ : BufTy).Contents (Elt F) → (⟨S1000000, .i32⟩ : BufTy).Contents (Elt F) → (⟨S1000000, .i32⟩ : BufTy).Contents (Elt F)),
    StableHlo.ternary main_v107 main_v109 main_v105 main_v110 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v110 main_v111 (broadcastInDim S1000000x1 ![0] bcast_S1000000_S1000000x1_0 : (⟨S1000000, .i32⟩ : BufTy).Contents (Elt F) → (⟨S1000000x1, .i32⟩ : BufTy).Contents (Elt F)),
    StableHlo.binary main_v94 main_v111 main_v112 ((fun x i => Host.gather gather_S100000x16_S1000000x1_S1000000x16_1_0_n_n_0_1_116 x i) : (⟨S100000x16, .f32⟩ : BufTy).Contents (Elt F) → (⟨S1000000x1, .i32⟩ : BufTy).Contents (Elt F) → (⟨S1000000x16, .f32⟩ : BufTy).Contents (Elt F)),
    StableHlo.binary main_v103 main_v112 main_v113 (subf : (⟨S1000000x16, .f32⟩ : BufTy).Contents (Elt F) → (⟨S1000000x16, .f32⟩ : BufTy).Contents (Elt F) → (⟨S1000000x16, .f32⟩ : BufTy).Contents (Elt F)),
    StableHlo.binary main_v113 main_v113 main_v114 (mulf : (⟨S1000000x16, .f32⟩ : BufTy).Contents (Elt F) → (⟨S1000000x16, .f32⟩ : BufTy).Contents (Elt F) → (⟨S1000000x16, .f32⟩ : BufTy).Contents (Elt F)),
    StableHlo.binary main_v114 main_arg3 main_v115 ((fun a b => concatenate S1000000x41 1 [⟨S1000000x16, a⟩, ⟨S1000000x25, b⟩] concatenates_S1000000x16_S1000000x25_S1000000x41_d1) : (⟨S1000000x16, .f32⟩ : BufTy).Contents (Elt F) → (⟨S1000000x25, .f32⟩ : BufTy).Contents (Elt F) → (⟨S1000000x41, .f32⟩ : BufTy).Contents (Elt F)),
    StableHlo.binary main_v115 main_arg8 main_v116 ((fun l r => Host.dotGeneral dot_S1000000x41_S41x25_S1000000x25_1_0_0_1_n_n none l r) : (⟨S1000000x41, .f32⟩ : BufTy).Contents (Elt F) → (⟨S41x25, .f32⟩ : BufTy).Contents (Elt F) → (⟨S1000000x25, .f32⟩ : BufTy).Contents (Elt F)),
    StableHlo.unary main_arg9 main_v117 (broadcastInDim S1x25 ![1] bcast_S25_S1x25_1 : (⟨S25, .f32⟩ : BufTy).Contents (Elt F) → (⟨S1x25, .f32⟩ : BufTy).Contents (Elt F)),
    StableHlo.unary main_v117 main_v118 (broadcastInDim S1000000x25 ![0, 1] bcast_S1x25_S1000000x25_0_1 : (⟨S1x25, .f32⟩ : BufTy).Contents (Elt F) → (⟨S1000000x25, .f32⟩ : BufTy).Contents (Elt F)),
    StableHlo.binary main_v116 main_v118 main_v119 (addf : (⟨S1000000x25, .f32⟩ : BufTy).Contents (Elt F) → (⟨S1000000x25, .f32⟩ : BufTy).Contents (Elt F) → (⟨S1000000x25, .f32⟩ : BufTy).Contents (Elt F)),
    StableHlo.nullary main_cst_23 (constant S_ .f32 0x3E4CCCCD#32),
    StableHlo.nullary main_call3_cst (constant S_ .f32 0x00000000#32),
    StableHlo.unary main_call3_cst main_call3_v0 (broadcastInDim S1000000x25 ![] bcast_S_S1000000x25 : (⟨S_, .f32⟩ : BufTy).Contents (Elt F) → (⟨S1000000x25, .f32⟩ : BufTy).Contents (Elt F)),
    StableHlo.binary main_v119 main_call3_v0 main_call3_v1 (cmpf .oge : (⟨S1000000x25, .f32⟩ : BufTy).Contents (Elt F) → (⟨S1000000x25, .f32⟩ : BufTy).Contents (Elt F) → (⟨S1000000x25, .i1⟩ : BufTy).Contents (Elt F)),
    StableHlo.unary main_cst_23 main_call3_v2 (id : (⟨S_, .f32⟩ : BufTy).Contents (Elt F) → (⟨S_, .f32⟩ : BufTy).Contents (Elt F)),
    StableHlo.unary main_call3_v2 main_call3_v3 (broadcastInDim S1000000x25 ![] bcast_S_S1000000x25 : (⟨S_, .f32⟩ : BufTy).Contents (Elt F) → (⟨S1000000x25, .f32⟩ : BufTy).Contents (Elt F)),
    StableHlo.binary main_call3_v3 main_v119 main_call3_v4 (mulf : (⟨S1000000x25, .f32⟩ : BufTy).Contents (Elt F) → (⟨S1000000x25, .f32⟩ : BufTy).Contents (Elt F) → (⟨S1000000x25, .f32⟩ : BufTy).Contents (Elt F)),
    StableHlo.ternary main_call3_v1 main_v119 main_call3_v4 main_v120 (select : (⟨S1000000x25, .i1⟩ : BufTy).Contents (Elt F) → (⟨S1000000x25, .f32⟩ : BufTy).Contents (Elt F) → (⟨S1000000x25, .f32⟩ : BufTy).Contents (Elt F) → (⟨S1000000x25, .f32⟩ : BufTy).Contents (Elt F)),
    StableHlo.binary main_v120 main_arg10 main_v121 ((fun l r => Host.dotGeneral dot_S1000000x25_S25x1_S1000000x1_1_0_0_1_n_n none l r) : (⟨S1000000x25, .f32⟩ : BufTy).Contents (Elt F) → (⟨S25x1, .f32⟩ : BufTy).Contents (Elt F) → (⟨S1000000x1, .f32⟩ : BufTy).Contents (Elt F)),
    StableHlo.unary main_arg11 main_v122 (broadcastInDim S1x1 ![1] bcast_S1_S1x1_1 : (⟨S1, .f32⟩ : BufTy).Contents (Elt F) → (⟨S1x1, .f32⟩ : BufTy).Contents (Elt F)),
    StableHlo.unary main_v122 main_v123 (broadcastInDim S1000000x1 ![0, 1] bcast_S1x1_S1000000x1_0_1 : (⟨S1x1, .f32⟩ : BufTy).Contents (Elt F) → (⟨S1000000x1, .f32⟩ : BufTy).Contents (Elt F)),
    StableHlo.binary main_v121 main_v123 main_v124 (addf : (⟨S1000000x1, .f32⟩ : BufTy).Contents (Elt F) → (⟨S1000000x1, .f32⟩ : BufTy).Contents (Elt F) → (⟨S1000000x1, .f32⟩ : BufTy).Contents (Elt F)),
    StableHlo.unary main_v124 main_v125 (Host.absf : (⟨S1000000x1, .f32⟩ : BufTy).Contents (Elt F) → (⟨S1000000x1, .f32⟩ : BufTy).Contents (Elt F)),
    StableHlo.reshape main_v125 main_v126 rfl shapeCasts_S1000000x1_S1000000,
    StableHlo.nullary main_cst_24 (constant S_ .f32 0x00000000#32),
    StableHlo.nullary main_cst_25 (constant S_ .f32 0x42200000#32),
    StableHlo.unary main_cst_24 main_call4_v0 (id : (⟨S_, .f32⟩ : BufTy).Contents (Elt F) → (⟨S_, .f32⟩ : BufTy).Contents (Elt F)),
    StableHlo.unary main_call4_v0 main_call4_v1 (broadcastInDim S1000000 ![] bcast_S_S1000000 : (⟨S_, .f32⟩ : BufTy).Contents (Elt F) → (⟨S1000000, .f32⟩ : BufTy).Contents (Elt F)),
    StableHlo.binary main_call4_v1 main_v126 main_call4_v2 (maximumf : (⟨S1000000, .f32⟩ : BufTy).Contents (Elt F) → (⟨S1000000, .f32⟩ : BufTy).Contents (Elt F) → (⟨S1000000, .f32⟩ : BufTy).Contents (Elt F)),
    StableHlo.unary main_cst_25 main_call4_v3 (id : (⟨S_, .f32⟩ : BufTy).Contents (Elt F) → (⟨S_, .f32⟩ : BufTy).Contents (Elt F)),
    StableHlo.unary main_call4_v3 main_call4_v4 (broadcastInDim S1000000 ![] bcast_S_S1000000 : (⟨S_, .f32⟩ : BufTy).Contents (Elt F) → (⟨S1000000, .f32⟩ : BufTy).Contents (Elt F)),
    StableHlo.binary main_call4_v4 main_call4_v2 main_v127 (minimumf : (⟨S1000000, .f32⟩ : BufTy).Contents (Elt F) → (⟨S1000000, .f32⟩ : BufTy).Contents (Elt F) → (⟨S1000000, .f32⟩ : BufTy).Contents (Elt F)),
    StableHlo.nullary main_cst_26 (constant S_ .f32 0x40000000#32),
    StableHlo.unary main_cst_26 main_v128 (broadcastInDim S1000000 ![] bcast_S_S1000000 : (⟨S_, .f32⟩ : BufTy).Contents (Elt F) → (⟨S1000000, .f32⟩ : BufTy).Contents (Elt F)),
    StableHlo.binary main_v128 main_v127 main_v129 (subf : (⟨S1000000, .f32⟩ : BufTy).Contents (Elt F) → (⟨S1000000, .f32⟩ : BufTy).Contents (Elt F) → (⟨S1000000, .f32⟩ : BufTy).Contents (Elt F)),
    StableHlo.unary main_v129 main_v130 (Host.negf : (⟨S1000000, .f32⟩ : BufTy).Contents (Elt F) → (⟨S1000000, .f32⟩ : BufTy).Contents (Elt F)),
    StableHlo.unary main_v130 main_v131 (Host.exp : (⟨S1000000, .f32⟩ : BufTy).Contents (Elt F) → (⟨S1000000, .f32⟩ : BufTy).Contents (Elt F)),
    StableHlo.nullary main_cst_27 (constant S_ .f32 0x3F800000#32),
    StableHlo.unary main_cst_27 main_v132 (broadcastInDim S1000000 ![] bcast_S_S1000000 : (⟨S_, .f32⟩ : BufTy).Contents (Elt F) → (⟨S1000000, .f32⟩ : BufTy).Contents (Elt F)),
    StableHlo.binary main_v132 main_v131 main_v133 (addf : (⟨S1000000, .f32⟩ : BufTy).Contents (Elt F) → (⟨S1000000, .f32⟩ : BufTy).Contents (Elt F) → (⟨S1000000, .f32⟩ : BufTy).Contents (Elt F)),
    StableHlo.nullary main_cst_28 (constant S_ .f32 0x3F800000#32),
    StableHlo.unary main_cst_28 main_v134 (broadcastInDim S1000000 ![] bcast_S_S1000000 : (⟨S_, .f32⟩ : BufTy).Contents (Elt F) → (⟨S1000000, .f32⟩ : BufTy).Contents (Elt F)),
    StableHlo.binary main_v134 main_v133 main_v135 (Host.divf : (⟨S1000000, .f32⟩ : BufTy).Contents (Elt F) → (⟨S1000000, .f32⟩ : BufTy).Contents (Elt F) → (⟨S1000000, .f32⟩ : BufTy).Contents (Elt F)) ]

set_option maxRecDepth 4096 in
/-- The first window is the straight line of its list: the callee's definition unfolded at its call, sequencing
    reassociated; a callee's operation over typed references is the same operation over the buffers themselves
    (the transport of contents along a buffer's type is the identity at these literal buffers). -/
theorem part0_eq (c : Dev nD) : main_part0 (F := F) c = seq ops0 := by
  simp only [main_part0, fn_relu.body, seq, bind_assoc, pure_bind]
  rfl

set_option maxRecDepth 4096 in
/-- The second window is the straight line of its list. -/
theorem part1_eq (c : Dev nD) : main_part1 (F := F) c = seq ops1 := by
  simp only [main_part1, fn_relu_0.body, fn_norm.body, seq, bind_assoc, pure_bind]
  rfl

set_option maxRecDepth 4096 in
/-- The third window is the straight line of its list (the leaky clamp's call unfolds the select's call inside it). -/
theorem part2_eq (c : Dev nD) : main_part2 (F := F) c = seq ops2 := by
  simp only [main_part2, fn_leaky_relu.body, fn_where.body, fn_clip.body, seq, bind_assoc, pure_bind]
  rfl

/-- @main runs its windows in order, so it is the straight line of the three lists in a row. -/
theorem main_eq (c : Dev nD) : main (F := F) c = seq (ops0 ++ (ops1 ++ ops2)) := by
  simp only [main, part0_eq, part1_eq, part2_eq, seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub ..⟩
theorem ops1_sub : (ops1 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., nullary_bufs_sub .., unary_bufs_sub ..⟩
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- A property of every entry of two lists holds of every entry of the two in a row. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The fold over two lists in a row is the second list's fold over the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- On every device, for any float values, from any memory with zero counters: every weakly fair execution of @main
    terminates with every buffer at the fold of the 186 operations over the memory's contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (ops0 ++ (ops1 ++ ops2)) (launchContents m c) (b : DevRef τ sig) :=
  run_seq scopedRefs_eq scopedSems_eq defs main (fun _ => ops0 ++ (ops1 ++ ops2)) main_eq
    (fun _ => forall_append ops0_sub (forall_append ops1_sub ops2_sub)) m ρ
    (fun _ => List.forall_iff_forall_mem.mp (forall_append ops0_fresh (forall_append ops1_fresh ops2_fresh)))

end Cert.ReferenceIdeal.RRun

end
-- ==== Proof.RValue.lean ====
/-
  The plain program's run ends with its result at Rfun of the argument arrays, the arguments unchanged.

  Every fair execution leaves every buffer at the fold of the program's 186 whole-array operations over the memory it
  started from (the straight line of the three windows).  The fold is read window by window.  No window writes an
  argument.  After the first window, row 1 of the edge list, the node numbers, the source ends and the second product
  (of the first layer's output with W2) are the named stages of the arguments.  The second window recomputes the
  destination ends, the degrees and the edge weights from row 1 and the node numbers — the same chain as the first
  window's — and turns the second product into the embeddings; it also reads column 0 of the decoded-edge list.  The
  third window is the decoder's chain on the embeddings' two endpoint-row arrays.  Each reading is the composed term of
  the window's operations with the earlier windows' results put in, and equals the named stage by unfolding the
  stage's definition: the two programs' shapes and dimension records are the same literals under two names, and
  evidence terms are proofs.
-/
import proofs.«168514_j41807211659639_2_alg».proof.Proof.Spec
import proofs.«168514_j41807211659639_2_alg».proof.Proof.RRun
import Idealize.ShloMosaic.Lib.StableHlo.Run

noncomputable section

namespace Cert.ReferenceIdeal.RValue

open Idealize.ShloMosaic Idealize.ShloMosaic.TcCoe Idealize.SL.Sem Cert.ReferenceIdeal Cert.ReferenceIdeal.Facts₀
open Idealize.ShloMosaic.StableHlo Cert.ReferenceIdeal.RRun

local notation "𝕍" => Valuation τ sig (Elt Ideal)

/-- Finishes what the one-pass reading leaves inside the blocks of a concatenation: the same result lemmas, by rewriting. -/
macro "finish_results" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## No window writes an argument -/

theorem w0_arg0 (W : 𝕍) : after (ops0 (F := Ideal)) W (main_arg0 : DevRef τ sig) = W (main_arg0 : DevRef τ sig) := by
  after_results_simp
theorem w0_arg1 (W : 𝕍) : after (ops0 (F := Ideal)) W (main_arg1 : DevRef τ sig) = W (main_arg1 : DevRef τ sig) := by
  after_results_simp
theorem w0_arg2 (W : 𝕍) : after (ops0 (F := Ideal)) W (main_arg2 : DevRef τ sig) = W (main_arg2 : DevRef τ sig) := by
  after_results_simp
theorem w0_arg3 (W : 𝕍) : after (ops0 (F := Ideal)) W (main_arg3 : DevRef τ sig) = W (main_arg3 : DevRef τ sig) := by
  after_results_simp
theorem w0_arg4 (W : 𝕍) : after (ops0 (F := Ideal)) W (main_arg4 : DevRef τ sig) = W (main_arg4 : DevRef τ sig) := by
  after_results_simp
theorem w0_arg5 (W : 𝕍) : after (ops0 (F := Ideal)) W (main_arg5 : DevRef τ sig) = W (main_arg5 : DevRef τ sig) := by
  after_results_simp
theorem w0_arg6 (W : 𝕍) : after (ops0 (F := Ideal)) W (main_arg6 : DevRef τ sig) = W (main_arg6 : DevRef τ sig) := by
  after_results_simp
theorem w0_arg7 (W : 𝕍) : after (ops0 (F := Ideal)) W (main_arg7 : DevRef τ sig) = W (main_arg7 : DevRef τ sig) := by
  after_results_simp
theorem w0_arg8 (W : 𝕍) : after (ops0 (F := Ideal)) W (main_arg8 : DevRef τ sig) = W (main_arg8 : DevRef τ sig) := by
  after_results_simp
theorem w0_arg9 (W : 𝕍) : after (ops0 (F := Ideal)) W (main_arg9 : DevRef τ sig) = W (main_arg9 : DevRef τ sig) := by
  after_results_simp
theorem w0_arg10 (W : 𝕍) : after (ops0 (F := Ideal)) W (main_arg10 : DevRef τ sig) = W (main_arg10 : DevRef τ sig) := by
  after_results_simp
theorem w0_arg11 (W : 𝕍) : after (ops0 (F := Ideal)) W (main_arg11 : DevRef τ sig) = W (main_arg11 : DevRef τ sig) := by
  after_results_simp

theorem w1_arg0 (W : 𝕍) : after (ops1 (F := Ideal)) W (main_arg0 : DevRef τ sig) = W (main_arg0 : DevRef τ sig) := by
  after_results_simp
theorem w1_arg1 (W : 𝕍) : after (ops1 (F := Ideal)) W (main_arg1 : DevRef τ sig) = W (main_arg1 : DevRef τ sig) := by
  after_results_simp
theorem w1_arg2 (W : 𝕍) : after (ops1 (F := Ideal)) W (main_arg2 : DevRef τ sig) = W (main_arg2 : DevRef τ sig) := by
  after_results_simp
theorem w1_arg3 (W : 𝕍) : after (ops1 (F := Ideal)) W (main_arg3 : DevRef τ sig) = W (main_arg3 : DevRef τ sig) := by
  after_results_simp
theorem w1_arg4 (W : 𝕍) : after (ops1 (F := Ideal)) W (main_arg4 : DevRef τ sig) = W (main_arg4 : DevRef τ sig) := by
  after_results_simp
theorem w1_arg5 (W : 𝕍) : after (ops1 (F := Ideal)) W (main_arg5 : DevRef τ sig) = W (main_arg5 : DevRef τ sig) := by
  after_results_simp
theorem w1_arg6 (W : 𝕍) : after (ops1 (F := Ideal)) W (main_arg6 : DevRef τ sig) = W (main_arg6 : DevRef τ sig) := by
  after_results_simp
theorem w1_arg7 (W : 𝕍) : after (ops1 (F := Ideal)) W (main_arg7 : DevRef τ sig) = W (main_arg7 : DevRef τ sig) := by
  after_results_simp
theorem w1_arg8 (W : 𝕍) : after (ops1 (F := Ideal)) W (main_arg8 : DevRef τ sig) = W (main_arg8 : DevRef τ sig) := by
  after_results_simp
theorem w1_arg9 (W : 𝕍) : after (ops1 (F := Ideal)) W (main_arg9 : DevRef τ sig) = W (main_arg9 : DevRef τ sig) := by
  after_results_simp
theorem w1_arg10 (W : 𝕍) : after (ops1 (F := Ideal)) W (main_arg10 : DevRef τ sig) = W (main_arg10 : DevRef τ sig) := by
  after_results_simp
theorem w1_arg11 (W : 𝕍) : after (ops1 (F := Ideal)) W (main_arg11 : DevRef τ sig) = W (main_arg11 : DevRef τ sig) := by
  after_results_simp

theorem w2_arg0 (W : 𝕍) : after (ops2 (F := Ideal)) W (main_arg0 : DevRef τ sig) = W (main_arg0 : DevRef τ sig) := by
  after_results_simp
theorem w2_arg1 (W : 𝕍) : after (ops2 (F := Ideal)) W (main_arg1 : DevRef τ sig) = W (main_arg1 : DevRef τ sig) := by
  after_results_simp
theorem w2_arg2 (W : 𝕍) : after (ops2 (F := Ideal)) W (main_arg2 : DevRef τ sig) = W (main_arg2 : DevRef τ sig) := by
  after_results_simp
theorem w2_arg3 (W : 𝕍) : after (ops2 (F := Ideal)) W (main_arg3 : DevRef τ sig) = W (main_arg3 : DevRef τ sig) := by
  after_results_simp
theorem w2_arg4 (W : 𝕍) : after (ops2 (F := Ideal)) W (main_arg4 : DevRef τ sig) = W (main_arg4 : DevRef τ sig) := by
  after_results_simp
theorem w2_arg5 (W : 𝕍) : after (ops2 (F := Ideal)) W (main_arg5 : DevRef τ sig) = W (main_arg5 : DevRef τ sig) := by
  after_results_simp
theorem w2_arg6 (W : 𝕍) : after (ops2 (F := Ideal)) W (main_arg6 : DevRef τ sig) = W (main_arg6 : DevRef τ sig) := by
  after_results_simp
theorem w2_arg7 (W : 𝕍) : after (ops2 (F := Ideal)) W (main_arg7 : DevRef τ sig) = W (main_arg7 : DevRef τ sig) := by
  after_results_simp
theorem w2_arg8 (W : 𝕍) : after (ops2 (F := Ideal)) W (main_arg8 : DevRef τ sig) = W (main_arg8 : DevRef τ sig) := by
  after_results_simp
theorem w2_arg9 (W : 𝕍) : after (ops2 (F := Ideal)) W (main_arg9 : DevRef τ sig) = W (main_arg9 : DevRef τ sig) := by
  after_results_simp
theorem w2_arg10 (W : 𝕍) : after (ops2 (F := Ideal)) W (main_arg10 : DevRef τ sig) = W (main_arg10 : DevRef τ sig) := by
  after_results_simp
theorem w2_arg11 (W : 𝕍) : after (ops2 (F := Ideal)) W (main_arg11 : DevRef τ sig) = W (main_arg11 : DevRef τ sig) := by
  after_results_simp

theorem arg0_eq (V : 𝕍) : after (ops0 (F := Ideal) ++ (ops1 ++ ops2)) V (main_arg0 : DevRef τ sig) = V (main_arg0 : DevRef τ sig) := by
  rw [RRun.after_append, RRun.after_append, w2_arg0, w1_arg0, w0_arg0]
theorem arg1_eq (V : 𝕍) : after (ops0 (F := Ideal) ++ (ops1 ++ ops2)) V (main_arg1 : DevRef τ sig) = V (main_arg1 : DevRef τ sig) := by
  rw [RRun.after_append, RRun.after_append, w2_arg1, w1_arg1, w0_arg1]
theorem arg2_eq (V : 𝕍) : after (ops0 (F := Ideal) ++ (ops1 ++ ops2)) V (main_arg2 : DevRef τ sig) = V (main_arg2 : DevRef τ sig) := by
  rw [RRun.after_append, RRun.after_append, w2_arg2, w1_arg2, w0_arg2]
theorem arg3_eq (V : 𝕍) : after (ops0 (F := Ideal) ++ (ops1 ++ ops2)) V (main_arg3 : DevRef τ sig) = V (main_arg3 : DevRef τ sig) := by
  rw [RRun.after_append, RRun.after_append, w2_arg3, w1_arg3, w0_arg3]
theorem arg4_eq (V : 𝕍) : after (ops0 (F := Ideal) ++ (ops1 ++ ops2)) V (main_arg4 : DevRef τ sig) = V (main_arg4 : DevRef τ sig) := by
  rw [RRun.after_append, RRun.after_append, w2_arg4, w1_arg4, w0_arg4]
theorem arg5_eq (V : 𝕍) : after (ops0 (F := Ideal) ++ (ops1 ++ ops2)) V (main_arg5 : DevRef τ sig) = V (main_arg5 : DevRef τ sig) := by
  rw [RRun.after_append, RRun.after_append, w2_arg5, w1_arg5, w0_arg5]
theorem arg6_eq (V : 𝕍) : after (ops0 (F := Ideal) ++ (ops1 ++ ops2)) V (main_arg6 : DevRef τ sig) = V (main_arg6 : DevRef τ sig) := by
  rw [RRun.after_append, RRun.after_append, w2_arg6, w1_arg6, w0_arg6]
theorem arg7_eq (V : 𝕍) : after (ops0 (F := Ideal) ++ (ops1 ++ ops2)) V (main_arg7 : DevRef τ sig) = V (main_arg7 : DevRef τ sig) := by
  rw [RRun.after_append, RRun.after_append, w2_arg7, w1_arg7, w0_arg7]
theorem arg8_eq (V : 𝕍) : after (ops0 (F := Ideal) ++ (ops1 ++ ops2)) V (main_arg8 : DevRef τ sig) = V (main_arg8 : DevRef τ sig) := by
  rw [RRun.after_append, RRun.after_append, w2_arg8, w1_arg8, w0_arg8]
theorem arg9_eq (V : 𝕍) : after (ops0 (F := Ideal) ++ (ops1 ++ ops2)) V (main_arg9 : DevRef τ sig) = V (main_arg9 : DevRef τ sig) := by
  rw [RRun.after_append, RRun.after_append, w2_arg9, w1_arg9, w0_arg9]
theorem arg10_eq (V : 𝕍) : after (ops0 (F := Ideal) ++ (ops1 ++ ops2)) V (main_arg10 : DevRef τ sig) = V (main_arg10 : DevRef τ sig) := by
  rw [RRun.after_append, RRun.after_append, w2_arg10, w1_arg10, w0_arg10]
theorem arg11_eq (V : 𝕍) : after (ops0 (F := Ideal) ++ (ops1 ++ ops2)) V (main_arg11 : DevRef τ sig) = V (main_arg11 : DevRef τ sig) := by
  rw [RRun.after_append, RRun.after_append, w2_arg11, w1_arg11, w0_arg11]

/-! ## The first window: the edge ends, and the first layer through the second product -/

/-- Row 1 of the edge list as a vector. -/
theorem w0_v3 (V : 𝕍) : after (ops0 (F := Ideal)) V (main_v3 : DevRef τ sig)
    = shapeCast S1600000 (extractStridedSlice S1x1600000 ![1, 0] (V (main_arg1 : DevRef τ sig)) slices_S2x1600000_S1x1600000_1_0) shapeCasts_S1x1600000_S1600000 := by
  after_results_simp
  rfl

/-- The node numbers. -/
theorem w0_v48 (V : 𝕍) : after (ops0 (F := Ideal)) V (main_v48 : DevRef τ sig) = iotaInDim S100000 32 0 := by
  after_results_simp

/-- The source ends, as the window recomputes them at its end. -/
theorem w0_v49 (V : 𝕍) : after (ops0 (F := Ideal)) V (main_v49 : DevRef τ sig) = Cert.Spec.src (F := Ideal) (V (main_arg1 : DevRef τ sig)) := by
  after_results_simp
  try finish_results
  rfl

set_option maxHeartbeats 1000000 in
/-- The second product, of the first layer's output. -/
theorem w0_v47 (V : 𝕍) : after (ops0 (F := Ideal)) V (main_v47 : DevRef τ sig) = Cert.Spec.dot16 (Cert.Spec.layer100 (F := Ideal) (Cert.Spec.dot100 (V (main_arg0 : DevRef τ sig)) (V (main_arg4 : DevRef τ sig))) (V (main_arg1 : DevRef τ sig)) (V (main_arg5 : DevRef τ sig))) (V (main_arg6 : DevRef τ sig)) := by
  after_results_simp
  try finish_results
  rfl

/-! ## The second window: the second layer, its rows rescaled, and column 0 of the decoded-edge list -/

/-- Column 0 of the decoded-edge list as a vector. -/
theorem w1_v96 (W : 𝕍) : after (ops1 (F := Ideal)) W (main_v96 : DevRef τ sig)
    = shapeCast S1000000 (extractStridedSlice S1000000x1 ![0, 0] (W (main_arg2 : DevRef τ sig)) slices_S1000000x2_S1000000x1_0_0) shapeCasts_S1000000x1_S1000000 := by
  after_results_simp
  rfl

/-- The zeros the first column is compared with. -/
theorem w1_v97 (W : 𝕍) : after (ops1 (F := Ideal)) W (main_v97 : DevRef τ sig) = broadcastInDim S1000000 ![] bcast_S_S1000000 (constantI S_ 32 0#32) := by
  after_results_simp

set_option maxHeartbeats 2000000 in
/-- The embeddings: the second window's chain on the first window's results. -/
theorem v94_eq (V : 𝕍) : after (ops1 (F := Ideal)) (after (ops0 (F := Ideal)) V) (main_v94 : DevRef τ sig) = Cert.Spec.embed (F := Ideal) (Cert.Spec.dot100 (V (main_arg0 : DevRef τ sig)) (V (main_arg4 : DevRef τ sig))) (fun h => Cert.Spec.dot16 h (V (main_arg6 : DevRef τ sig))) (V (main_arg1 : DevRef τ sig)) (V (main_arg5 : DevRef τ sig)) (V (main_arg7 : DevRef τ sig)) := by
  have h3 := w0_v3 V
  have h48 := w0_v48 V
  have h49 := w0_v49 V
  have h47 := w0_v47 V
  have h7 := w0_arg7 V
  generalize after (ops0 (F := Ideal)) V = W at h3 h48 h49 h47 h7 ⊢
  after_results_simp
  try finish_results
  rw [h3, h48, h49, h47, h7]
  rfl

/-! ## The third window: the decoder -/

set_option maxHeartbeats 2000000 in
/-- The result: the third window's chain on the embeddings, column 0 of the decoded-edge list and the arguments. -/
theorem v135_eq (V : 𝕍) :
    after (ops2 (F := Ideal)) (after (ops1 (F := Ideal)) (after (ops0 (F := Ideal)) V)) (main_v135 : DevRef τ sig) = Cert.Spec.Rfun (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  have h94 := v94_eq V
  have h96 := (w1_v96 (after (ops0 (F := Ideal)) V)).trans (by rw [w0_arg2 V])
  have h97 := w1_v97 (after (ops0 (F := Ideal)) V)
  have ha2 := (w1_arg2 (after (ops0 (F := Ideal)) V)).trans (w0_arg2 V)
  have ha3 := (w1_arg3 (after (ops0 (F := Ideal)) V)).trans (w0_arg3 V)
  have ha8 := (w1_arg8 (after (ops0 (F := Ideal)) V)).trans (w0_arg8 V)
  have ha9 := (w1_arg9 (after (ops0 (F := Ideal)) V)).trans (w0_arg9 V)
  have ha10 := (w1_arg10 (after (ops0 (F := Ideal)) V)).trans (w0_arg10 V)
  have ha11 := (w1_arg11 (after (ops0 (F := Ideal)) V)).trans (w0_arg11 V)
  generalize after (ops1 (F := Ideal)) (after (ops0 (F := Ideal)) V) = W at h94 h96 h97 ha2 ha3 ha8 ha9 ha10 ha11 ⊢
  after_results_simp
  try finish_results
  rw [h94, h96, h97, ha2, ha3, ha8, ha9, ha10, ha11]
  rfl

/-- The result buffer after the whole line. -/
theorem out_eq (V : 𝕍) : after (ops0 (F := Ideal) ++ (ops1 ++ ops2)) V (main_v135 : DevRef τ sig) = Cert.Spec.Rfun (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [RRun.after_append, RRun.after_append]
  exact v135_eq V

/-- The plain program runs, ends with its result at Rfun of the argument arrays, and leaves the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v135) = Cert.Spec.Rfun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun _ h c =>
    ⟨(h c main_v135).trans (out_eq (launchContents m c)),
     (h c main_arg0).trans (arg0_eq (launchContents m c)),
     (h c main_arg1).trans (arg1_eq (launchContents m c)),
     (h c main_arg2).trans (arg2_eq (launchContents m c)),
     (h c main_arg3).trans (arg3_eq (launchContents m c)),
     (h c main_arg4).trans (arg4_eq (launchContents m c)),
     (h c main_arg5).trans (arg5_eq (launchContents m c)),
     (h c main_arg6).trans (arg6_eq (launchContents m c)),
     (h c main_arg7).trans (arg7_eq (launchContents m c)),
     (h c main_arg8).trans (arg8_eq (launchContents m c)),
     (h c main_arg9).trans (arg9_eq (launchContents m c)),
     (h c main_arg10).trans (arg10_eq (launchContents m c)),
     (h c main_arg11).trans (arg11_eq (launchContents m c))⟩)
    (run_after m ρ)

end Cert.ReferenceIdeal.RValue

end
-- ==== Proof.BridgeMM.lean ====
/-
  The layer products two ways.  The host's contraction of an [A, K] matrix with a [K, B] matrix, on the extended
  reals, is at (p, q) the sum over k of l (p, k) * r (k, q): the plain sum the tiled program's blocks add up to.  Hence
  the embeddings the two programs decode from are one array.
-/
import proofs.«168514_j41807211659639_2_alg».proof.Proof.Spec
import proofs.«168514_j41807211659639_2_alg».proof.Proof.LibPlainDot

noncomputable section

open scoped BigOperators

namespace Cert.Bridge

open Idealize.ShloMosaic Idealize.ShloMosaic.ValueIdx Cert.KernelIdeal

local notation "𝔹[" s ", " e "]" => BufTy.Contents (Elt Ideal) (BufTy.mk s e)

/-- The first layer's product: the plain sum is the host's contraction. -/
theorem mm_eq_dot100 (l : 𝔹[S100000x256, .f32]) (r : 𝔹[S256x100, .f32]) :
    Cert.Spec.mm (A := 100000) (K := 256) (B := 100) l r = Cert.Spec.dot100 l r := by
  funext i
  obtain ⟨p, q, rfl⟩ : ∃ (p : Fin 100000) (q : Fin 100), i = ix2 p q := ⟨i 0, i 1, eq_ix2 i⟩
  exact (dotGeneral_plain Cert.ReferenceIdeal.dot_S100000x256_S256x100_S100000x100_1_0_0_1_n_n rfl rfl rfl rfl rfl rfl
    none _ l r p q).symm

/-- The second layer's product: the plain sum is the host's contraction. -/
theorem mm_eq_dot16 (l : 𝔹[S100000x100, .f32]) (r : 𝔹[S100x16, .f32]) :
    Cert.Spec.mm (A := 100000) (K := 100) (B := 16) l r = Cert.Spec.dot16 l r := by
  funext i
  obtain ⟨p, q, rfl⟩ : ∃ (p : Fin 100000) (q : Fin 16), i = ix2 p q := ⟨i 0, i 1, eq_ix2 i⟩
  exact (dotGeneral_plain Cert.ReferenceIdeal.dot_S100000x100_S100x16_S100000x16_1_0_0_1_n_n rfl rfl rfl rfl rfl rfl
    none _ l r p q).symm

/-- The embeddings from plain-sum products are the embeddings from the host's contractions. -/
theorem embed_eq (a0 : 𝔹[S100000x256, .f32]) (a1 : 𝔹[S2x1600000, .i32]) (a4 : 𝔹[S256x100, .f32]) (a5 : 𝔹[S100, .f32])
    (a6 : 𝔹[S100x16, .f32]) (a7 : 𝔹[S16, .f32]) :
    Cert.Spec.embed (F := Ideal) (Cert.Spec.mm (A := 100000) (K := 256) (B := 100) a0 a4)
        (fun h => Cert.Spec.mm (A := 100000) (K := 100) (B := 16) h a6) a1 a5 a7
      = Cert.Spec.embed (F := Ideal) (Cert.Spec.dot100 a0 a4) (fun h => Cert.Spec.dot16 h a6) a1 a5 a7 := by
  rw [mm_eq_dot100 a0 a4, show (fun h : 𝔹[S100000x100, .f32] => Cert.Spec.mm (A := 100000) (K := 100) (B := 16) h a6)
    = (fun h => Cert.Spec.dot16 h a6) from funext fun h => mm_eq_dot16 h a6]

end Cert.Bridge

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.LibSideBySide.lean ====
/-
  Layout and clamp lemmas for any sizes.  Two matrices with the same rows laid side by side, read at a column of
  the first or of the second; a sum over a + b positions split into the first a and the last b; a one-column matrix read
  as a vector; a scalar spread over any shape; the select on the comparison x ≥ 0 as an if-then-else; and the two
  spellings of a leaky clamp (branching on 0 ≤ x or on 0 < x), equal because both give 0 at 0.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Bridge

open Idealize.ShloMosaic Idealize.ShloMosaic.ValueIdx

variable {α : Type}

/-- Two arrays with the same rows laid side by side: a column in the first a columns reads the first array. -/
theorem sideBySide_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin a) (hk : k'.val = k.val) :
    concatenate (⟨2, ![n, c]⟩ : Shape) (1 : Fin 2) [⟨⟨2, ![n, a]⟩, x⟩, ⟨⟨2, ![n, b]⟩, y⟩] h (ix2 p k) = x (ix2 p k') :=
  concatenate_pair_apply_left (1 : Fin 2) x y h (ix2 p k) rfl (ix2 p k') (fun d => match d with
    | ⟨0, _⟩ => rfl
    | ⟨1, _⟩ => hk)

/-- Two arrays with the same rows laid side by side: a column past the first a reads the second array, a columns
    earlier. -/
theorem sideBySide_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (k' : Fin b) (hk : k'.val + a = k.val) :
    concatenate (⟨2, ![n, c]⟩ : Shape) (1 : Fin 2) [⟨⟨2, ![n, a]⟩, x⟩, ⟨⟨2, ![n, b]⟩, y⟩] h (ix2 p k) = y (ix2 p k') :=
  concatenate_pair_apply_right (1 : Fin 2) x y h (ix2 p k) rfl rfl (ix2 p k') (fun d hd => match d, hd with
    | ⟨0, _⟩, _ => rfl
    | ⟨1, _⟩, hd => absurd rfl hd) hk

/-- A sum over a + b positions is the sum over the first a plus the sum over the last b. -/
theorem sum_split {M : Type*} [AddCommMonoid M] {a b c : Nat} (hc : a + b = c) (f : Fin c → M) :
    ∑ k : Fin c, f k = (∑ k : Fin a, f ⟨k.val, by omega⟩) + ∑ k : Fin b, f ⟨a + k.val, by omega⟩ := by
  subst hc
  rw [Fin.sum_univ_add]
  rfl

/-- A one-column matrix read as a vector: entry p is the matrix's entry (p, 0). -/
theorem colAsVec_apply {a : Nat} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A scalar spread over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply (![] : Fin 0 → Fin t.rank) h x j ix0 (fun a => a.elim0)

/-- The two leaky clamps agree: at 0 one takes the branch x, the other c · x, and both are 0. -/
theorem leaky_of_ge (c x : EReal) : (if 0 ≤ x then x else c * x) = (if 0 < x then x else c * x) := by
  by_cases h : 0 < x
  · rw [if_pos h, if_pos h.le]
  · rw [if_neg h]
    by_cases h0 : 0 ≤ x
    · have hx : x = 0 := le_antisymm (not_lt.mp h) h0
      rw [if_pos h0, hx, mul_zero]
    · rw [if_neg h0]

/-- A select on the comparison "x ≥ 0" (0 as its f32 pattern) is the if-then-else on 0 ≤ x. -/
theorem select_oge_zero {β : Type} (x : EReal) (a b : β) :
    Scalar.select (FloatOps.cmpf (F := Ideal) (φ := .f32) .oge x (Ideal.ofBits .f32 0x00000000#32)) a b
      = if 0 ≤ x then a else b := by
  rw [Ideal.ofBits_zero_f32]
  show Scalar.select (Ideal.cmp .oge x 0) a b = _
  unfold Ideal.cmp
  by_cases h : (0 : EReal) ≤ x
  · rw [if_pos h]; simp only [decide_eq_true h, BitVec.ofBool_true]; exact select_one a b
  · rw [if_neg h]; simp only [decide_eq_false h, BitVec.ofBool_false]; exact select_zero a b

end Cert.Bridge

end
-- ==== Proof.DecodeHidden.lean ====
/-
  The decoder's hidden layer two ways.  The plain program multiplies the concatenation [sq, P] (41 columns: the 16
  squared endpoint differences, then the edge's 25 features) by the whole 41 × 25 weight matrix; the tiled one
  multiplies sq by rows 0–15 and P by rows 16–40 and adds.  A sum over 41 columns is the sum over the first 16 plus the
  sum over the last 25, so at every edge p and feature j the two agree; the bias, a length-25 vector, is read at j
  whether it is laid out as a 1 × 25 row by a reshape or by a broadcast.
-/
import proofs.«168514_j41807211659639_2_alg».proof.Proof.Spec
import proofs.«168514_j41807211659639_2_alg».proof.Proof.LibPlainDot
import proofs.«168514_j41807211659639_2_alg».proof.Proof.LibBroadcastInDim2
import proofs.«168514_j41807211659639_2_alg».proof.Proof.LibSideBySide
import Idealize.ShloMosaic.Lib.ValueLayout
import Idealize.ShloMosaic.Lib.Pipeline.Value

noncomputable section

open scoped BigOperators

namespace Cert.Bridge

open Idealize.ShloMosaic Idealize.ShloMosaic.ValueIdx

section Hidden

open Cert.ReferenceIdeal

local notation "𝔹[" s ", " e "]" => BufTy.Contents (Elt Ideal) (BufTy.mk s e)

/-- The squared endpoint difference of edge p in column k. -/
abbrev sqd (ein eout : 𝔹[S1000000x16, .f32]) : 𝔹[S1000000x16, .f32] :=
  (mulf (subf (ein : FVec Ideal S1000000x16 .f32) eout) (subf (ein : FVec Ideal S1000000x16 .f32) eout) : FVec Ideal S1000000x16 .f32)

/-- The plain program's hidden layer before the leaky clamp, read at edge p and feature j, is the formula's: the 41
    products split into the 16 against the first weight rows and the 25 against the rest, the bias read at j. -/
theorem hidden_eq (ein eout : 𝔹[S1000000x16, .f32]) (a3 : 𝔹[S1000000x25, .f32]) (a8 : 𝔹[S41x25, .f32]) (a9 : 𝔹[S25, .f32])
    (hcat : Shape.Concatenates [S1000000x16, S1000000x25] S1000000x41 1)
    (hb1 : S1x25.BroadcastsInDim S1000000x25 (![0, 1] : Fin 2 → Fin S1000000x25.rank))
    (hb0 : S25.BroadcastsInDim S1x25 (![1] : Fin 1 → Fin S1x25.rank))
    (hsa : S41x25.Slices ![0, 0] Cert.KernelIdeal.S16x25) (hsb : S41x25.Slices ![16, 0] Cert.KernelIdeal.S25x25)
    (hc9 : S25.ShapeCasts S1x25)
    (p : Fin 1000000) (j : Fin 25) :
    addf (Host.dotGeneral (F := Ideal) (φ₁ := .f32) (φ₂ := .f32) dot_S1000000x41_S41x25_S1000000x25_1_0_0_1_n_n none
          (concatenate S1000000x41 1 [⟨S1000000x16, sqd ein eout⟩, ⟨S1000000x25, a3⟩] hcat) a8)
        (broadcastInDim S1000000x25 ![0, 1] hb1 (broadcastInDim S1x25 ![1] hb0 a9)) (ix2 p j)
      = Cert.Spec.hidden ein eout a3 (extractStridedSlice Cert.KernelIdeal.S16x25 ![0, 0] a8 hsa)
          (extractStridedSlice Cert.KernelIdeal.S25x25 ![16, 0] a8 hsb) (shapeCast S1x25 a9 hc9) p j := by
  rw [addf_apply]
  unfold Cert.Spec.hidden
  refine congrArg₂ (· + ·) ?_ ?_
  · -- the contraction: 41 products, split 16 + 25
    refine (dotGeneral_plain dot_S1000000x41_S41x25_S1000000x25_1_0_0_1_n_n rfl rfl rfl rfl rfl rfl none _ _ a8 p j).trans ?_
    rw [sum_split (a := 16) (b := 25) (c := 41) rfl]
    refine congrArg₂ (· + ·) (Finset.sum_congr rfl fun k _ => ?_) (Finset.sum_congr rfl fun k _ => ?_)
    · rw [sideBySide_left (sqd ein eout) a3 hcat p ⟨k.val, by omega⟩ k rfl,
        slice2_axis0_apply 0 a8 hsa k j ⟨k.val, by omega⟩ (by simp)]
      rfl
    · rw [sideBySide_right (sqd ein eout) a3 hcat p ⟨16 + k.val, by omega⟩ k (by simp; omega),
        slice2_axis0_apply 16 a8 hsb k j ⟨16 + k.val, by omega⟩ rfl]
  · -- the bias
    rw [Idealize.ShloMosaic.BroadcastInDim2.rowToMat_apply _ hb1 p j,
      Idealize.ShloMosaic.BroadcastInDim2.vecToRow_apply a9 hb0 0 j,
      shapeCast_a_1a_apply a9 hc9 0 j]

end Hidden

end Cert.Bridge

end
-- ==== Proof.LibLogisticTanh.lean ====
/-
  The logistic function through the hyperbolic tangent, on the extended reals:

      1/2 · (tanh (1/2 · x) + 1) = 1 / (1 + e^(-x))        for EVERY extended real x.

  On a real x, with y = x/2: (tanh y + 1)/2 = e^y / (e^y + e^(-y)) = 1 / (1 + e^(-2y)). At +∞ both sides are 1
  (tanh ⊤ = 1; e^(-⊤) = 0), at -∞ both are 0 (tanh ⊥ = -1; 1 / (1 + ⊤) = 0). So a program that spells the logistic
  function with one tanh and a program that spells it with an exponential and a quotient agree with no finiteness
  assumption on the argument. Stated over the reals, over the extended reals, and over the f32 patterns of 0.5 and 1.0.
-/
import Idealize.ShloMosaic.PureOps.Ideal

noncomputable section

namespace Cert.LibLogisticTanh

open Idealize.ShloMosaic

/-- The f32 pattern of 0.5 denotes 1/2. -/
theorem ofBits_half : Ideal.ofBits .f32 0x3F000000#32 = ((1 / 2 : ℝ) : EReal) := by
  simp [Ideal.ofBits, Ideal.ieee, -EReal.coe_mul]; norm_num

/-- The f32 pattern of 1.0 denotes 1. -/
theorem ofBits_one : Ideal.ofBits .f32 0x3F800000#32 = (1 : EReal) := by
  rw [← EReal.coe_one]; simp [Ideal.ofBits, Ideal.ieee, -EReal.coe_mul, -EReal.coe_one]; norm_num

/-- (tanh y + 1) / 2 = 1 / (1 + e^(-2y)) on the reals: multiply numerator and denominator of e^y / (e^y + e^(-y)) by e^(-y). -/
theorem half_tanh_add_one (y : ℝ) : 1 / 2 * (Real.tanh y + 1) = (1 + Real.exp (-(2 * y)))⁻¹ := by
  have hpos : 0 < Real.exp y := Real.exp_pos y
  have hneg : Real.exp (-y) = (Real.exp y)⁻¹ := Real.exp_neg y
  have h2 : Real.exp (-(2 * y)) = (Real.exp y)⁻¹ * (Real.exp y)⁻¹ := by
    rw [← hneg, ← Real.exp_add]; congr 1; ring
  rw [Real.tanh_eq_sinh_div_cosh, Real.sinh_eq, Real.cosh_eq, hneg, h2]
  have hne : Real.exp y ≠ 0 := hpos.ne'
  have hsum : Real.exp y * Real.exp y + 1 ≠ 0 := by positivity
  field_simp
  ring

/-- 1/2 · (tanh (1/2 · x) + 1) is the logistic function of x, at every extended real. -/
theorem half_tanh_half_eq_logistic (x : EReal) :
    ((1 / 2 : ℝ) : EReal) * (Ideal.tanh (((1 / 2 : ℝ) : EReal) * x) + 1) = Ideal.logistic x := by
  induction x using EReal.rec with
  | bot =>
    rw [EReal.coe_mul_bot_of_pos (by norm_num), Ideal.tanh_bot, Ideal.logistic_bot]
    rw [show ((-1 : EReal)) = ((-1 : ℝ) : EReal) from by rw [EReal.coe_neg, EReal.coe_one], ← EReal.coe_one,
      ← EReal.coe_add, ← EReal.coe_mul]
    norm_num
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, ← EReal.coe_one, ← EReal.coe_add, ← EReal.coe_mul, Ideal.logistic_coe,
      half_tanh_add_one]
    congr 4; ring

/-- The same with 0.5 and 1.0 as f32 patterns: the tanh spelling of a float program. -/
theorem tanh_spelling_f32 (x : EReal) :
    Ideal.ofBits .f32 0x3F000000#32 * (Ideal.tanh (Ideal.ofBits .f32 0x3F000000#32 * x) + Ideal.ofBits .f32 0x3F800000#32)
      = Ideal.logistic x := by
  rw [ofBits_half, ofBits_one, half_tanh_half_eq_logistic]

/-- The exponential spelling of a float program, 1.0 / (1.0 + e^(-x)) with 1.0 as its f32 pattern, is the logistic
    function by definition. -/
theorem exp_spelling_f32 (x : EReal) :
    Ideal.div (Ideal.ofBits .f32 0x3F800000#32) (Ideal.ofBits .f32 0x3F800000#32 + Ideal.exp (-x)) = Ideal.logistic x := by
  rw [ofBits_one]; rfl

end Cert.LibLogisticTanh

end
-- ==== Proof.DecodeScore.lean ====
/-
  The rest of the decoder two ways, one edge at a time.  After the hidden layer the plain program applies, to whole
  arrays: x if x ≥ 0 else 0.2 x; the product with the 25 output weights plus the output bias; the absolute value; the
  clamp to [0, 40]; and 1 / (1 + exp (-(2 - s))).  Read at edge p these are the formula's steps: the two leaky clamps
  differ only in which branch takes x = 0, where both give 0; |x| is max x (-x); and 1 / (1 + exp (-y)) is the logistic
  function of y at every extended real.
-/
import proofs.«168514_j41807211659639_2_alg».proof.Proof.DecodeHidden
import proofs.«168514_j41807211659639_2_alg».proof.Proof.LibLogisticTanh

noncomputable section

open scoped BigOperators

namespace Cert.Bridge

open Idealize.ShloMosaic Idealize.ShloMosaic.ValueIdx

section Decode

open Cert.ReferenceIdeal Cert.ReferenceIdeal.Facts₀

/-- The plain program's leaky clamp on whole arrays, read at edge p and feature j. -/
theorem act_apply (pre : FVec Ideal S1000000x25 .f32) (p : Fin 1000000) (j : Fin 25) :
    select (cmpf .oge pre (broadcastInDim S1000000x25 ![] bcast_S_S1000000x25 (constant (F := Ideal) S_ .f32 0x00000000#32))) pre
        (mulf (broadcastInDim S1000000x25 ![] bcast_S_S1000000x25 (id (constant (F := Ideal) S_ .f32 0x3E4CCCCD#32))) pre) (ix2 p j)
      = Cert.Spec.leaky (pre (ix2 p j)) := by
  rw [select_apply, cmpf_apply, mulf_apply, splat_apply, splat_apply]
  show Scalar.select (FloatOps.cmpf (F := Ideal) (φ := .f32) .oge (pre (ix2 p j)) (Ideal.ofBits .f32 0x00000000#32))
      (pre (ix2 p j)) (Ideal.ofBits .f32 0x3E4CCCCD#32 * pre (ix2 p j)) = _
  rw [select_oge_zero, leaky_of_ge]
  rfl

/-- The plain program's score column read as a vector at edge p: |∑ j act (p, j) · w (j, 0) + c|. -/
theorem absScore_apply (act : FVec Ideal S1000000x25 .f32) (a10 : FVec Ideal S25x1 .f32) (a11 : FVec Ideal S1 .f32)
    (p : Fin 1000000) :
    shapeCast S1000000 (Host.absf (addf (Host.dotGeneral (F := Ideal) (φ₁ := .f32) (φ₂ := .f32)
        dot_S1000000x25_S25x1_S1000000x1_1_0_0_1_n_n none act a10)
      (broadcastInDim S1000000x1 ![0, 1] bcast_S1x1_S1000000x1_0_1 (broadcastInDim S1x1 ![1] bcast_S1_S1x1_1 a11))))
        shapeCasts_S1000000x1_S1000000 (ix1 p)
      = max ((∑ j : Fin 25, act (ix2 p j) * a10 (ix2 j 0)) + a11 (ix1 0))
          (-((∑ j : Fin 25, act (ix2 p j) * a10 (ix2 j 0)) + a11 (ix1 0))) := by
  rw [colAsVec_apply]
  show max _ (-_) = _
  simp only [Host.dotGeneral]
  rw [addf_apply,
    dotGeneral_plain dot_S1000000x25_S25x1_S1000000x1_1_0_0_1_n_n rfl rfl rfl rfl rfl rfl none _ act a10 p 0,
    Idealize.ShloMosaic.BroadcastInDim2.rowToMat_apply _ bcast_S1x1_S1000000x1_0_1 p 0,
    Idealize.ShloMosaic.BroadcastInDim2.vecToRow_apply a11 bcast_S1_S1x1_1 0 0]

/-- The plain program's clamp to [0, 40] on a whole vector, read at edge p. -/
theorem clamp_apply (s : FVec Ideal S1000000 .f32) (p : Fin 1000000) :
    minimumf (broadcastInDim S1000000 ![] bcast_S_S1000000 (id (constant (F := Ideal) S_ .f32 0x42200000#32)))
        (maximumf (broadcastInDim S1000000 ![] bcast_S_S1000000 (id (constant (F := Ideal) S_ .f32 0x00000000#32))) s) (ix1 p)
      = min (Ideal.ofBits .f32 0x42200000#32) (max (Ideal.ofBits .f32 0x00000000#32) (s (ix1 p))) := by
  rw [minimumf_apply, maximumf_apply, splat_apply, splat_apply]
  rfl

/-- The plain program's 1 / (1 + exp (-(2 - s))) on a whole vector, read at edge p, is logistic (2 - s p). -/
theorem out_apply (cl : FVec Ideal S1000000 .f32) (p : Fin 1000000) :
    Host.divf (broadcastInDim S1000000 ![] bcast_S_S1000000 (constant (F := Ideal) S_ .f32 0x3F800000#32))
        (addf (broadcastInDim S1000000 ![] bcast_S_S1000000 (constant (F := Ideal) S_ .f32 0x3F800000#32))
          (Host.exp (Host.negf (subf (broadcastInDim S1000000 ![] bcast_S_S1000000 (constant (F := Ideal) S_ .f32 0x40000000#32)) cl)))) (ix1 p)
      = Ideal.logistic (Ideal.ofBits .f32 0x40000000#32 - cl (ix1 p)) := by
  show Ideal.div _ (_ + Ideal.exp (-(_ - _))) = _
  simp only [splat_apply, constant_apply]
  exact Cert.LibLogisticTanh.exp_spelling_f32 _

end Decode

end Cert.Bridge

end
-- ==== Proof.Bridge.lean ====
/-
  The two programs' results are one function of the argument arrays.  The embeddings agree because each layer's
  product is the same plain sum; from equal embeddings the decoders agree edge by edge: the hidden layer by splitting
  the sum over the 41 concatenated columns, the leaky clamp, the absolute value, the clamp to [0, 40] and the logistic
  function by their readings at one edge; and the [1000000, 1] column read as a vector is the vector.
-/
import proofs.«168514_j41807211659639_2_alg».proof.Proof.Spec
import proofs.«168514_j41807211659639_2_alg».proof.Proof.BridgeMM
import proofs.«168514_j41807211659639_2_alg».proof.Proof.DecodeScore

noncomputable section

open scoped BigOperators

namespace Cert.Bridge

open Idealize.ShloMosaic Idealize.ShloMosaic.ValueIdx Cert.KernelIdeal Cert.KernelIdeal.Facts₀

local notation "𝔹[" s ", " e "]" => BufTy.Contents (Elt Ideal) (BufTy.mk s e)

/-- The decoder two ways: the one-edge formula on the two weight blocks, the bias as a row and the output bias as a
    1 × 1 matrix, its column read as a vector, is the whole-array chain on the whole weight matrix and the two biases. -/
theorem decode_eq (ein eout : 𝔹[S1000000x16, .f32]) (a3 : 𝔹[S1000000x25, .f32]) (a8 : 𝔹[S41x25, .f32]) (a9 : 𝔹[S25, .f32])
    (a10 : 𝔹[S25x1, .f32]) (a11 : 𝔹[S1, .f32]) :
    shapeCast S1000000
        (Cert.Spec.decodeK ein eout a3 (extractStridedSlice S16x25 ![0, 0] a8 slices_S41x25_S16x25_0_0)
          (extractStridedSlice S25x25 ![16, 0] a8 slices_S41x25_S25x25_16_0) (shapeCast S1x25 a9 shapeCasts_S25_S1x25) a10
          (shapeCast S1x1 a11 shapeCasts_S1_S1x1))
        shapeCasts_S1000000x1_S1000000
      = Cert.Spec.decodeR (F := Ideal) ein eout a3 a8 a9 a10 a11 := by
  funext i
  obtain ⟨p, rfl⟩ : ∃ p : Fin 1000000, i = ix1 p := ⟨i 0, eq_ix1 i⟩
  rw [colAsVec_apply]
  unfold Cert.Spec.decodeR
  dsimp only
  rw [out_apply, clamp_apply, absScore_apply]
  show Cert.Spec.squash (Cert.Spec.score ein eout a3 _ _ _ a10 _ p) = _
  unfold Cert.Spec.squash
  refine congrArg (fun s : EReal => Ideal.logistic (Ideal.ofBits .f32 0x40000000#32
    - min (Ideal.ofBits .f32 0x42200000#32) (max (Ideal.ofBits .f32 0x00000000#32) (max s (-s))))) ?_
  unfold Cert.Spec.score
  refine congrArg₂ (· + ·) (Finset.sum_congr rfl fun j _ => ?_) (shapeCast_a_1a_apply a11 shapeCasts_S1_S1x1 0 0)
  rw [act_apply, hidden_eq ein eout a3 a8 a9 _ _ _ slices_S41x25_S16x25_0_0 slices_S41x25_S25x25_16_0 shapeCasts_S25_S1x25 p j]

/-- The two programs' results are one function of the argument arrays. -/
theorem result_eq (a0 : 𝔹[S100000x256, .f32]) (a1 : 𝔹[S2x1600000, .i32]) (a2 : 𝔹[S1000000x2, .i32]) (a3 : 𝔹[S1000000x25, .f32])
    (a4 : 𝔹[S256x100, .f32]) (a5 : 𝔹[S100, .f32]) (a6 : 𝔹[S100x16, .f32]) (a7 : 𝔹[S16, .f32]) (a8 : 𝔹[S41x25, .f32])
    (a9 : 𝔹[S25, .f32]) (a10 : 𝔹[S25x1, .f32]) (a11 : 𝔹[S1, .f32]) :
    Cert.Spec.Kfun a0 a1 a2 a3 a4 a5 a6 a7 a8 a9 a10 a11 = Cert.Spec.Rfun a0 a1 a2 a3 a4 a5 a6 a7 a8 a9 a10 a11 := by
  unfold Cert.Spec.Kfun Cert.Spec.Rfun
  dsimp only
  rw [embed_eq a0 a1 a4 a5 a6 a7]
  exact decode_eq _ _ a3 a8 a9 a10 a11

end Cert.Bridge

end
-- ==== Proof.lean ====
/-
  The claim: a two-layer graph convolution with an edge decoder, computed by three tiled regions among host
  operations, against the same computation by host operations only.  Both programs' frames, and that read on the
  extended reals they end with the same result: the tiled program's result is Kfun of the argument arrays, the plain
  program's is Rfun, and the two are one function (three matrix products as plain sums; a sum over 41 columns split
  into 16 + 25; the leaky clamp, the clamp to [0, 40] and the logistic function spelt two ways).
-/
import proofs.«168514_j41807211659639_2_alg».proof.Defs
import proofs.«168514_j41807211659639_2_alg».proof.Proof.Gen.Kernel
import proofs.«168514_j41807211659639_2_alg».proof.Proof.Gen.Kernel.Frame
import proofs.«168514_j41807211659639_2_alg».proof.Proof.Gen.KernelIdeal
import proofs.«168514_j41807211659639_2_alg».proof.Proof.Gen.KernelIdeal.Frame
import proofs.«168514_j41807211659639_2_alg».proof.Proof.Gen.ReferenceIdeal
import proofs.«168514_j41807211659639_2_alg».proof.Proof.Gen.Pre_finite_inputs
import proofs.«168514_j41807211659639_2_alg».proof.Proof.KValue
import proofs.«168514_j41807211659639_2_alg».proof.Proof.RValue
import proofs.«168514_j41807211659639_2_alg».proof.Proof.Bridge
import Idealize.ShloMosaic.Adequacy
import Idealize.ShloMosaic.Init

noncomputable section

namespace Cert.Proof

open Idealize.ShloMosaic Idealize.SL.Sem

/-- The tiled program as printed runs and keeps its arguments. -/
theorem frame_kernel : Cert.frame_Kernel := fun m ρ _ => Cert.Kernel.Gen.frame m ρ

/-- The tiled program read on the extended reals runs and keeps its arguments. -/
theorem frame_kernelIdeal : Cert.frame_KernelIdeal := fun m ρ _ => Cert.KernelIdeal.Gen.frame m ρ

/-- The plain program runs and keeps its arguments: its run with the result forgotten. -/
theorem frame_referenceIdeal : Cert.frame_ReferenceIdeal := fun m ρ _ =>
  (θ_run Cert.ReferenceIdeal.defs _ _).mono (fun _ h c => (h c).2) (Cert.ReferenceIdeal.RValue.run m ρ)

/-- From memories that agree on the arguments both programs end with the same result: Kfun of the arguments on one
    side, Rfun of the same arguments on the other, and Kfun = Rfun. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.Bridge.result_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
